-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S16x1024x1024 : Shape := ⟨3, ![16, 1024, 1024]⟩
abbrev S128x256 : Shape := ⟨2, ![128, 256]⟩
abbrev S128 : Shape := ⟨1, ![128]⟩
abbrev S384x384 : Shape := ⟨2, ![384, 384]⟩
abbrev S384 : Shape := ⟨1, ![384]⟩
abbrev S256x384 : Shape := ⟨2, ![256, 384]⟩
abbrev S256 : Shape := ⟨1, ![256]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S256x384 : S_.BroadcastsInDim S256x384 (![] : Fin 0 → Fin S256x384.rank)
  reducesTo_S256x384_S_d0_1 : S256x384.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S256x384 .f32) (main_v50 : FVec F S256x384 .f32) : IVec S_ 1 :=
  let main_v51 : IVec S256x384 1 := cmpf .olt main_v49 main_v50
  let main_c_19 : IVec S_ 1 := constantI S_ 1 1#1
  let main_v52 : IVec S_ 1 := (fun x v => Host.reduce IntOp.andi x v reducesTo_S256x384_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S128 .f32) (main_arg8 : FVec F S384x384 .f32) (main_arg9 : FVec F S384 .f32) (main_arg10 : FVec F S256x384 .f32) (main_arg11 : FVec F S256 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S384x384 .f32 := Host.absf main_arg8
  let main_cst_14 : FVec F S_ .f32 := constant S_ .f32 0x7F800000#32
  let main_v40 : FVec F S384x384 .f32 := broadcastInDim S384x384 ![] bcast_S_S384x384 main_cst_14
  let main_v41 : IVec S384x384 1 := cmpf .olt main_v39 main_v40
  let main_c_15 : IVec S_ 1 := constantI S_ 1 1#1
  let main_v42 : IVec S_ 1 := (fun x v => Host.reduce IntOp.andi x v reducesTo_S384x384_S_d0_1 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S256x384 .f32 := Host.absf main_arg10
  let main_cst_18 : FVec F S_ .f32 := constant S_ .f32 0x7F800000#32
  let main_v50 : FVec F S256x384 .f32 := broadcastInDim S256x384 ![] bcast_S_S256x384 main_cst_18
  fn_part3 (F := F) main_arg11 main_v48 main_v49 main_v50

def fn_part1 {F : FTy → Type} [FloatOps F] (main_arg4 : FVec F S128x256 .f32) (main_arg5 : FVec F S128 .f32) (main_arg6 : FVec F S128x256 .f32) (main_arg7 : FVec F S128 .f32) (main_arg8 : FVec F S384x384 .f32) (main_arg9 : FVec F S384 .f32) (main_arg10 : FVec F S256x384 .f32) (main_arg11 : FVec F S256 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16x1024x256 .f32) (main_arg1 : FVec F S16x1024x1024 .f32) (main_arg2 : FVec F S128x256 .f32) (main_arg3 : FVec F S128 .f32) (main_arg4 : FVec F S128x256 .f32) (main_arg5 : FVec F S128 .f32) (main_arg6 : FVec F S128x256 .f32) (main_arg7 : FVec F S128 .f32) (main_arg8 : FVec F S384x384 .f32) (main_arg9 : FVec F S384 .f32) (main_arg10 : FVec F S256x384 .f32) (main_arg11 : FVec F S256 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S16x1024x256 : Shape := ⟨3, ![16, 1024, 256]⟩
abbrev S16x1024x1024 : Shape := ⟨3, ![16, 1024, 1024]⟩
abbrev S128x256 : Shape := ⟨2, ![128, 256]⟩
abbrev S128 : Shape := ⟨1, ![128]⟩
abbrev S384x384 : Shape := ⟨2, ![384, 384]⟩
abbrev S384 : Shape := ⟨1, ![384]⟩
abbrev S256x384 : Shape := ⟨2, ![256, 384]⟩
abbrev S256 : Shape := ⟨1, ![256]⟩
abbrev S256x128 : Shape := ⟨2, ![256, 128]⟩
abbrev S384x256 : Shape := ⟨2, ![384, 256]⟩
abbrev S1x1024x256 : Shape := ⟨3, ![1, 1024, 256]⟩
abbrev S1x1024x1024 : Shape := ⟨3, ![1, 1024, 1024]⟩
abbrev S1024x256 : Shape := ⟨2, ![1024, 256]⟩
abbrev S1024x1024 : Shape := ⟨2, ![1024, 1024]⟩
abbrev S1024x128 : Shape := ⟨2, ![1024, 128]⟩
abbrev S1x128 : Shape := ⟨2, ![1, 128]⟩
abbrev S1024 : Shape := ⟨1, ![1024]⟩
abbrev S1024x1 : Shape := ⟨2, ![1024, 1]⟩
abbrev S1024x384 : Shape := ⟨2, ![1024, 384]⟩
abbrev S1x384 : Shape := ⟨2, ![1, 384]⟩
abbrev S1x1024 : Shape := ⟨2, ![1, 1024]⟩
abbrev S1x256 : Shape := ⟨2, ![1, 256]⟩

abbrev nBuf : Space → Nat
  | .hbm => 18
  | .vmem => 16
  | .smem => 0
  | _ => 0

abbrev bufTy : (tb : Table) → Fin (tcTables nBuf tb) → BufTy
  | .hbm, ⟨0, _⟩ => ⟨S16x1024x256, .f32⟩
  | .hbm, ⟨1, _⟩ => ⟨S16x1024x1024, .f32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S128x256, .f32⟩
  | .hbm, ⟨7, _⟩ => ⟨S128, .f32⟩
  | .hbm, ⟨8, _⟩ => ⟨S384x384, .f32⟩
  | .hbm, ⟨9, _⟩ => ⟨S384, .f32⟩
  | .hbm, ⟨10, _⟩ => ⟨S256x384, .f32⟩
  | .hbm, ⟨11, _⟩ => ⟨S256, .f32⟩
  | .hbm, ⟨12, _⟩ => ⟨S256x128, .f32⟩
  | .hbm, ⟨13, _⟩ => ⟨S256x128, .f32⟩
  | .hbm, ⟨14, _⟩ => ⟨S256x128, .f32⟩
  | .hbm, ⟨15, _⟩ => ⟨S384x384, .f32⟩
  | .hbm, ⟨16, _⟩ => ⟨S384x256, .f32⟩
  | .hbm, ⟨17, _⟩ => ⟨S16x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x1024, .f32⟩
  | .local _ .vmem, ⟨3, _⟩ => ⟨S1x1024x1024, .f32⟩
  | .local _ .vmem, ⟨4, _⟩ => ⟨S256x128, .f32⟩
  | .local _ .vmem, ⟨5, _⟩ => ⟨S128, .f32⟩
  | .local _ .vmem, ⟨6, _⟩ => ⟨S256x128, .f32⟩
  | .local _ .vmem, ⟨7, _⟩ => ⟨S128, .f32⟩
  | .local _ .vmem, ⟨8, _⟩ => ⟨S256x128, .f32⟩
  | .local _ .vmem, ⟨9, _⟩ => ⟨S128, .f32⟩
  | .local _ .vmem, ⟨10, _⟩ => ⟨S384x384, .f32⟩
  | .local _ .vmem, ⟨11, _⟩ => ⟨S384, .f32⟩
  | .local _ .vmem, ⟨12, _⟩ => ⟨S384x256, .f32⟩
  | .local _ .vmem, ⟨13, _⟩ => ⟨S256, .f32⟩
  | .local _ .vmem, ⟨14, _⟩ => ⟨S1x1024x256, .f32⟩
  | .local _ .vmem, ⟨15, _⟩ => ⟨S1x1024x256, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S128x256_S256x128_1_0 : S128x256.Transposes [1, 0] S256x128
  transposes_S384x384_S384x384_1_0 : S384x384.Transposes [1, 0] S384x384
  transposes_S256x384_S384x256_1_0 : S256x384.Transposes [1, 0] S384x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S384x384_S384x384_0_0 : ∀ a, (![0, 0] : Fin 2 → Nat) a + S384x384.size a ≤ S384x384.size a
  h_S384x384 : 0 < S384x384.numel
  shapeCasts_S384x384_S384x384 : S384x384.ShapeCasts S384x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S128_S128_0 : ∀ a, (![0] : Fin 1 → Nat) a + S128.size a ≤ S128.size a
  h_S128 : 0 < S128.numel
  inb_S384_S384_0 : ∀ a, (![0] : Fin 1 → Nat) a + S384.size a ≤ S384.size a
  h_S384 : 0 < S384.numel
  inb_S256_S256_0 : ∀ a, (![0] : Fin 1 → Nat) a + S256.size a ≤ S256.size a
  h_S256 : 0 < S256.numel
  shapeCasts_S128_S1x128 : S128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  reduces_S1024x1024_S1024 : S1024x1024.Reduces [1] S1024
  broadcasts_S1024x1_S1024x1024 : S1024x1.Broadcasts S1024x1024
  concatenates_S1024x128_S1024x128_S1024x128_S1024x384_d1 : Shape.Concatenates [S1024x128, S1024x128, S1024x128] S1024x384 1
  shapeCasts_S384_S1x384 : S384.ShapeCasts S1x384
  broadcasts_S1x384_S1024x384 : S1x384.Broadcasts S1024x384
  slices_S1024x384_o0_0_S1024x128 : S1024x384.Slices ![0, 0] S1024x128
  slices_S1024x384_o0_128_S1024x128 : S1024x384.Slices ![0, 128] S1024x128
  slices_S1024x384_o0_256_S1024x128 : S1024x384.Slices ![0, 256] S1024x128
  reduces_S1024x1024_S1024_2 : S1024x1024.Reduces [0] S1024
  shapeCasts_S1024_S1x1024 : S1024.ShapeCasts S1x1024
  broadcasts_S1x1024_S1024x1024 : S1x1024.Broadcasts S1024x1024
  shapeCasts_S256_S1x256 : S256.ShapeCasts S1x256
  broadcasts_S1x256_S1024x256 : S1x256.Broadcasts S1024x256
  shapeCasts_S1024x256_S1x1024x256 : S1024x256.ShapeCasts S1x1024x256
  dot_S1024x256_S256x128_S1024x128_1_0_0_1_n_n_wf : DotDims.WF S1024x256 S256x128 S1024x128 [1] [0] [0] [1] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  dot_S1024x384_S384x384_S1024x384_1_0_0_1_n_n_wf : DotDims.WF S1024x384 S384x384 S1024x384 [1] [0] [0] [1] [] []
  dot_S1024x1024_S1024x128_S1024x128_0_0_1_1_n_n_wf : DotDims.WF S1024x1024 S1024x128 S1024x128 [0] [0] [1] [1] [] []
  dot_S1024x384_S384x256_S1024x256_1_0_0_1_n_n_wf : DotDims.WF S1024x384 S384x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .f32 = 32 ∨ (Rect.block (s := S16x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x128.size a ≤ S256x128.size a
  hwx0_4 : ∀ i : grid0.Coords, EltTy.bits .f32 = 32 ∨ (Rect.block (s := S256x128) S256x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384x384.size a ≤ S384x384.size a
  hwx0_8 : ∀ i : grid0.Coords, EltTy.bits .f32 = 32 ∨ (Rect.block (s := S384x384) S384x384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384.size a ≤ S384.size a
  hwx0_9 : ∀ i : grid0.Coords, EltTy.bits .f32 = 32 ∨ (Rect.block (s := S384) S384.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384x256.size a ≤ S384x256.size a
  hwx0_10 : ∀ i : grid0.Coords, EltTy.bits .f32 = 32 ∨ (Rect.block (s := S384x256) S384x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024x256.size a ≤ S16x1024x256.size a
  hwx0_12 : ∀ i : grid0.Coords, EltTy.bits .f32 = 32 ∨ (Rect.block (s := S16x1024x256) S1x1024x256.size (cc0_transform_12 i) (hinb0_12 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x384_S384x384_S1024x384_1_0_0_1_n_n : DotDims S1024x384 S384x384 S1024x384 where
  lhsContracting := [1]
  rhsContracting := [0]
  lhsNonContracting := [0]
  rhsNonContracting := [1]
  lhsBatch := []
  rhsBatch := []
  wf := dot_S1024x384_S384x384_S1024x384_1_0_0_1_n_n_wf
def dot_S1024x1024_S1024x128_S1024x128_0_0_1_1_n_n : DotDims S1024x1024 S1024x128 S1024x128 where
  lhsContracting := [0]
  rhsContracting := [0]
  lhsNonContracting := [1]
  rhsNonContracting := [1]
  lhsBatch := []
  rhsBatch := []
  wf := dot_S1024x1024_S1024x128_S1024x128_0_0_1_1_n_n_wf
def dot_S1024x384_S384x256_S1024x256_1_0_0_1_n_n : DotDims S1024x384 S384x256 S1024x256 where
  lhsContracting := [1]
  rhsContracting := [0]
  lhsNonContracting := [0]
  rhsNonContracting := [1]
  lhsBatch := []
  rhsBatch := []
  wf := dot_S1024x384_S384x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S384x384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S384.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S384x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x1024x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16x1024x256 : Shape := ⟨3, ![16, 1024, 256]⟩
abbrev S16x1024x1024 : Shape := ⟨3, ![16, 1024, 1024]⟩
abbrev S128x256 : Shape := ⟨2, ![128, 256]⟩
abbrev S128 : Shape := ⟨1, ![128]⟩
abbrev S384x384 : Shape := ⟨2, ![384, 384]⟩
abbrev S384 : Shape := ⟨1, ![384]⟩
abbrev S256x384 : Shape := ⟨2, ![256, 384]⟩
abbrev S256 : Shape := ⟨1, ![256]⟩
abbrev S16x1024x128 : Shape := ⟨3, ![16, 1024, 128]⟩
abbrev S1x1x128 : Shape := ⟨3, ![1, 1, 128]⟩
abbrev S_ : Shape := ⟨0, ![]⟩
abbrev S16x1024 : Shape := ⟨2, ![16, 1024]⟩
abbrev S16x1024x1 : Shape := ⟨3, ![16, 1024, 1]⟩
abbrev S16x1024x384 : Shape := ⟨3, ![16, 1024, 384]⟩
abbrev S1x1x384 : Shape := ⟨3, ![1, 1, 384]⟩
abbrev S16x1x1024 : Shape := ⟨3, ![16, 1, 1024]⟩
abbrev S1x1x256 : Shape := ⟨3, ![1, 1, 256]⟩

abbrev nBuf : Space → Nat
  | .hbm => 203
  | .vmem => 0
  | .smem => 0
  | _ => 0

abbrev hbmTy0_0 (i : Nat) : BufTy := match i % 128 with
  | 0 => ⟨S16x1024x256, .f32⟩
  | 1 => ⟨S16x1024x1024, .f32⟩
  | 2 => ⟨S128x256, .f32⟩
  | 3 => ⟨S128, .f32⟩
  | 4 => ⟨S128x256, .f32⟩
  | 5 => ⟨S128, .f32⟩
  | 6 => ⟨S128x256, .f32⟩
  | 7 => ⟨S128, .f32⟩
  | 8 => ⟨S384x384, .f32⟩
  | 9 => ⟨S384, .f32⟩
  | 10 => ⟨S256x384, .f32⟩
  | 11 => ⟨S256, .f32⟩
  | 12 => ⟨S16x1024x128, .f32⟩
  | 13 => ⟨S1x1x128, .f32⟩
  | 14 => ⟨S16x1024x128, .f32⟩
  | 15 => ⟨S16x1024x128, .f32⟩
  | 16 => ⟨S16x1024x128, .f32⟩
  | 17 => ⟨S1x1x128, .f32⟩
  | 18 => ⟨S16x1024x128, .f32⟩
  | 19 => ⟨S16x1024x128, .f32⟩
  | 20 => ⟨S16x1024x128, .f32⟩
  | 21 => ⟨S_, .f32⟩
  | 22 => ⟨S16x1024, .f32⟩
  | 23 => ⟨S16x1024x1, .f32⟩
  | 24 => ⟨S16x1024x1, .f32⟩
  | 25 => ⟨S_, .f32⟩
  | 26 => ⟨S16x1024x1, .f32⟩
  | 27 => ⟨S16x1024x1, .f32⟩
  | 28 => ⟨S16x1024x128, .f32⟩
  | 29 => ⟨S16x1024x128, .f32⟩
  | 30 => ⟨S_, .f32⟩
  | 31 => ⟨S16x1024x128, .f32⟩
  | 32 => ⟨S16x1024x1024, .f32⟩
  | 33 => ⟨S16x1024x1024, .f32⟩
  | 34 => ⟨S16x1024x1024, .f32⟩
  | 35 => ⟨S16x1024x1024, .f32⟩
  | 36 => ⟨S_, .f32⟩
  | 37 => ⟨S16x1024, .f32⟩
  | 38 => ⟨S16x1024x1, .f32⟩
  | 39 => ⟨S16x1024x1, .f32⟩
  | 40 => ⟨S_, .f32⟩
  | 41 => ⟨S16x1024x1, .f32⟩
  | 42 => ⟨S16x1024x1, .f32⟩
  | 43 => ⟨S16x1024x1024, .f32⟩
  | 44 => ⟨S16x1024x1024, .f32⟩
  | 45 => ⟨S16x1024x128, .f32⟩
  | 46 => ⟨S16x1024x384, .f32⟩
  | 47 => ⟨S16x1024x384, .f32⟩
  | 48 => ⟨S1x1x384, .f32⟩
  | 49 => ⟨S16x1024x384, .f32⟩
  | 50 => ⟨S16x1024x384, .f32⟩
  | 51 => ⟨S16x1024x128, .f32⟩
  | 52 => ⟨S16x1024x128, .f32⟩
  | 53 => ⟨S16x1024x128, .f32⟩
  | 54 => ⟨S_, .f32⟩
  | 55 => ⟨S16x1024x128, .f32⟩
  | 56 => ⟨S16x1024x128, .f32⟩
  | 57 => ⟨S16x1024x1024, .f32⟩
  | 58 => ⟨S16x1024x1024, .f32⟩
  | 59 => ⟨S16x1024x1024, .f32⟩
  | 60 => ⟨S16x1024x1024, .f32⟩
  | 61 => ⟨S_, .f32⟩
  | 62 => ⟨S16x1024, .f32⟩
  | 63 => ⟨S16x1024x1, .f32⟩
  | 64 => ⟨S16x1024x1, .f32⟩
  | 65 => ⟨S_, .f32⟩
  | 66 => ⟨S16x1024x1, .f32⟩
  | 67 => ⟨S16x1024x1, .f32⟩
  | 68 => ⟨S16x1024x1024, .f32⟩
  | 69 => ⟨S16x1024x1024, .f32⟩
  | 70 => ⟨S16x1024x128, .f32⟩
  | 71 => ⟨S16x1024x384, .f32⟩
  | 72 => ⟨S16x1024x384, .f32⟩
  | 73 => ⟨S1x1x384, .f32⟩
  | 74 => ⟨S16x1024x384, .f32⟩
  | 75 => ⟨S16x1024x384, .f32⟩
  | 76 => ⟨S16x1024x128, .f32⟩
  | 77 => ⟨S16x1024x128, .f32⟩
  | 78 => ⟨S16x1024x128, .f32⟩
  | 79 => ⟨S_, .f32⟩
  | 80 => ⟨S16x1024x128, .f32⟩
  | 81 => ⟨S16x1024x128, .f32⟩
  | 82 => ⟨S16x1024x1024, .f32⟩
  | 83 => ⟨S16x1024x1024, .f32⟩
  | 84 => ⟨S16x1024x1024, .f32⟩
  | 85 => ⟨S16x1024x1024, .f32⟩
  | 86 => ⟨S_, .f32⟩
  | 87 => ⟨S16x1024, .f32⟩
  | 88 => ⟨S16x1024x1, .f32⟩
  | 89 => ⟨S16x1024x1, .f32⟩
  | 90 => ⟨S_, .f32⟩
  | 91 => ⟨S16x1024x1, .f32⟩
  | 92 => ⟨S16x1024x1, .f32⟩
  | 93 => ⟨S16x1024x1024, .f32⟩
  | 94 => ⟨S16x1024x1024, .f32⟩
  | 95 => ⟨S16x1024x128, .f32⟩
  | 96 => ⟨S16x1024x384, .f32⟩
  | 97 => ⟨S16x1024x384, .f32⟩
  | 98 => ⟨S1x1x384, .f32⟩
  | 99 => ⟨S16x1024x384, .f32⟩
  | 100 => ⟨S16x1024x384, .f32⟩
  | 101 => ⟨S16x1024x128, .f32⟩
  | 102 => ⟨S16x1024x128, .f32⟩
  | 103 => ⟨S16x1024x128, .f32⟩
  | 104 => ⟨S_, .f32⟩
  | 105 => ⟨S16x1024x128, .f32⟩
  | 106 => ⟨S16x1024x128, .f32⟩
  | 107 => ⟨S16x1024x1024, .f32⟩
  | 108 => ⟨S16x1024x1024, .f32⟩
  | 109 => ⟨S16x1024x1024, .f32⟩
  | 110 => ⟨S16x1024x1024, .f32⟩
  | 111 => ⟨S_, .f32⟩
  | 112 => ⟨S16x1024, .f32⟩
  | 113 => ⟨S16x1x1024, .f32⟩
  | 114 => ⟨S16x1x1024, .f32⟩
  | 115 => ⟨S_, .f32⟩
  | 116 => ⟨S16x1x1024, .f32⟩
  | 117 => ⟨S16x1x1024, .f32⟩
  | 118 => ⟨S16x1024x1024, .f32⟩
  | 119 => ⟨S16x1024x1024, .f32⟩
  | 120 => ⟨S16x1024x128, .f32⟩
  | 121 => ⟨S16x1024x384, .f32⟩
  | 122 => ⟨S16x1024x384, .f32⟩
  | 123 => ⟨S1x1x384, .f32⟩
  | 124 => ⟨S16x1024x384, .f32⟩
  | 125 => ⟨S16x1024x384, .f32⟩
  | 126 => ⟨S16x1024x128, .f32⟩
  | 127 => ⟨S16x1024x128, .f32⟩
  | _ => ⟨S16x1024x256, .f32⟩

abbrev hbmTy0_1 (i : Nat) : BufTy := match i % 128 with
  | 0 => ⟨S16x1024x128, .f32⟩
  | 1 => ⟨S_, .f32⟩
  | 2 => ⟨S16x1024x128, .f32⟩
  | 3 => ⟨S16x1024x128, .f32⟩
  | 4 => ⟨S16x1024x1024, .f32⟩
  | 5 => ⟨S16x1024x1024, .f32⟩
  | 6 => ⟨S16x1024x1024, .f32⟩
  | 7 => ⟨S16x1024x1024, .f32⟩
  | 8 => ⟨S_, .f32⟩
  | 9 => ⟨S16x1024, .f32⟩
  | 10 => ⟨S16x1x1024, .f32⟩
  | 11 => ⟨S16x1x1024, .f32⟩
  | 12 => ⟨S_, .f32⟩
  | 13 => ⟨S16x1x1024, .f32⟩
  | 14 => ⟨S16x1x1024, .f32⟩
  | 15 => ⟨S16x1024x1024, .f32⟩
  | 16 => ⟨S16x1024x1024, .f32⟩
  | 17 => ⟨S16x1024x128, .f32⟩
  | 18 => ⟨S16x1024x384, .f32⟩
  | 19 => ⟨S16x1024x384, .f32⟩
  | 20 => ⟨S1x1x384, .f32⟩
  | 21 => ⟨S16x1024x384, .f32⟩
  | 22 => ⟨S16x1024x384, .f32⟩
  | 23 => ⟨S16x1024x128, .f32⟩
  | 24 => ⟨S16x1024x128, .f32⟩
  | 25 => ⟨S16x1024x128, .f32⟩
  | 26 => ⟨S_, .f32⟩
  | 27 => ⟨S16x1024x128, .f32⟩
  | 28 => ⟨S16x1024x128, .f32⟩
  | 29 => ⟨S16x1024x1024, .f32⟩
  | 30 => ⟨S16x1024x1024, .f32⟩
  | 31 => ⟨S16x1024x1024, .f32⟩
  | 32 => ⟨S16x1024x1024, .f32⟩
  | 33 => ⟨S_, .f32⟩
  | 34 => ⟨S16x1024, .f32⟩
  | 35 => ⟨S16x1x1024, .f32⟩
  | 36 => ⟨S16x1x1024, .f32⟩
  | 37 => ⟨S_, .f32⟩
  | 38 => ⟨S16x1x1024, .f32⟩
  | 39 => ⟨S16x1x1024, .f32⟩
  | 40 => ⟨S16x1024x1024, .f32⟩
  | 41 => ⟨S16x1024x1024, .f32⟩
  | 42 => ⟨S16x1024x128, .f32⟩
  | 43 => ⟨S16x1024x384, .f32⟩
  | 44 => ⟨S16x1024x384, .f32⟩
  | 45 => ⟨S1x1x384, .f32⟩
  | 46 => ⟨S16x1024x384, .f32⟩
  | 47 => ⟨S16x1024x384, .f32⟩
  | 48 => ⟨S16x1024x128, .f32⟩
  | 49 => ⟨S16x1024x128, .f32⟩
  | 50 => ⟨S16x1024x128, .f32⟩
  | 51 => ⟨S_, .f32⟩
  | 52 => ⟨S16x1024x128, .f32⟩
  | 53 => ⟨S16x1024x128, .f32⟩
  | 54 => ⟨S16x1024x128, .f32⟩
  | 55 => ⟨S1x1x128, .f32⟩
  | 56 => ⟨S16x1024x128, .f32⟩
  | 57 => ⟨S16x1024x128, .f32⟩
  | 58 => ⟨S_, .f32⟩
  | 59 => ⟨S16x1024x128, .f32⟩
  | 60 => ⟨S16x1024x128, .f32⟩
  | 61 => ⟨S_, .f32⟩
  | 62 => ⟨S16x1024x128, .f32⟩
  | 63 => ⟨S16x1024x128, .f32⟩
  | 64 => ⟨S_, .f32⟩
  | 65 => ⟨S16x1024x128, .f32⟩
  | 66 => ⟨S16x1024x128, .f32⟩
  | 67 => ⟨S16x1024x384, .f32⟩
  | 68 => ⟨S16x1024x256, .f32⟩
  | 69 => ⟨S1x1x256, .f32⟩
  | 70 => ⟨S16x1024x256, .f32⟩
  | 71 => ⟨S16x1024x256, .f32⟩
  | 72 => ⟨S_, .f32⟩
  | 73 => ⟨S16x1024x256, .f32⟩
  | 74 => ⟨S16x1024x256, .f32⟩
  | _ => ⟨S16x1024x256, .f32⟩

abbrev hbmTy (i : Nat) : BufTy := match i / 128 with
  | 0 => hbmTy0_0 i
  | 1 => hbmTy0_1 i
  | _ => ⟨S16x1024x256, .f32⟩

abbrev bufTy : (tb : Table) → Fin (tcTables nBuf tb) → BufTy
  | .hbm, ⟨i, _⟩ => hbmTy i
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_cst : Ref sig .tc := ⟨.hbm, 54, rfl⟩
abbrev main_call0_v0 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call1_cst : Ref sig .tc := ⟨.hbm, 79, rfl⟩
abbrev main_call1_v0 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_6 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_7 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_call2_cst : Ref sig .tc := ⟨.hbm, 104, rfl⟩
abbrev main_call2_v0 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_8 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_9 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_call3_cst : Ref sig .tc := ⟨.hbm, 129, rfl⟩
abbrev main_call3_v0 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_10 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_cst_11 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_call4_cst : Ref sig .tc := ⟨.hbm, 154, rfl⟩
abbrev main_call4_v0 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_12 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_cst_13 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_call5_cst : Ref sig .tc := ⟨.hbm, 179, rfl⟩
abbrev main_call5_v0 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_call6_cst : Ref sig .tc := ⟨.hbm, 186, rfl⟩
abbrev main_call6_v0 : Ref sig .tc := ⟨.hbm, 187, rfl⟩
abbrev main_v147 : Ref sig .tc := ⟨.hbm, 188, rfl⟩
abbrev main_call7_cst : Ref sig .tc := ⟨.hbm, 189, rfl⟩
abbrev main_call7_v0 : Ref sig .tc := ⟨.hbm, 190, rfl⟩
abbrev main_v148 : Ref sig .tc := ⟨.hbm, 191, rfl⟩
abbrev main_call8_cst : Ref sig .tc := ⟨.hbm, 192, rfl⟩
abbrev main_call8_v0 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_call9_cst : Ref sig .tc := ⟨.hbm, 200, rfl⟩
abbrev main_call9_v0 : Ref sig .tc := ⟨.hbm, 201, rfl⟩
abbrev main_v155 : Ref sig .tc := ⟨.hbm, 202, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x1024x128_0_1_2 : S1x1x128.BroadcastsInDim S16x1024x128 (![0, 1, 2] : Fin 3 → Fin S16x1024x128.rank)
  reducesTo_S16x1024x128_S16x1024_d2 : S16x1024x128.ReducesTo [2] S16x1024
  h_S_ : 0 < S_.numel
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x128_0_1_2 : S16x1024x1.BroadcastsInDim S16x1024x128 (![0, 1, 2] : Fin 3 → Fin S16x1024x128.rank)
  bcast_S_S16x1024x128 : S_.BroadcastsInDim S16x1024x128 (![] : Fin 0 → Fin S16x1024x128.rank)
  reducesTo_S16x1024x1024_S16x1024_d2 : S16x1024x1024.ReducesTo [2] S16x1024
  bcast_S16x1024x1_S16x1024x1024_0_1_2 : S16x1024x1.BroadcastsInDim S16x1024x1024 (![0, 1, 2] : Fin 3 → Fin S16x1024x1024.rank)
  concatenates_S16x1024x128_S16x1024x128_S16x1024x128_S16x1024x384_d2 : Shape.Concatenates [S16x1024x128, S16x1024x128, S16x1024x128] S16x1024x384 2
  bcast_S384_S1x1x384_2 : S384.BroadcastsInDim S1x1x384 (![2] : Fin 1 → Fin S1x1x384.rank)
  bcast_S1x1x384_S16x1024x384_0_1_2 : S1x1x384.BroadcastsInDim S16x1024x384 (![0, 1, 2] : Fin 3 → Fin S16x1024x384.rank)
  slices_S16x1024x384_S16x1024x128_0_0_0 : S16x1024x384.Slices ![0, 0, 0] S16x1024x128
  slices_S16x1024x384_S16x1024x128_0_0_128 : S16x1024x384.Slices ![0, 0, 128] S16x1024x128
  slices_S16x1024x384_S16x1024x128_0_0_256 : S16x1024x384.Slices ![0, 0, 256] S16x1024x128
  reducesTo_S16x1024x1024_S16x1024_d1 : S16x1024x1024.ReducesTo [1] S16x1024
  bcast_S16x1024_S16x1x1024_0_2 : S16x1024.BroadcastsInDim S16x1x1024 (![0, 2] : Fin 2 → Fin S16x1x1024.rank)
  bcast_S_S16x1x1024 : S_.BroadcastsInDim S16x1x1024 (![] : Fin 0 → Fin S16x1x1024.rank)
  bcast_S16x1x1024_S16x1024x1024_0_1_2 : S16x1x1024.BroadcastsInDim S16x1024x1024 (![0, 1, 2] : Fin 3 → Fin S16x1024x1024.rank)
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  bcast_S_S16x1024x256 : S_.BroadcastsInDim S16x1024x256 (![] : Fin 0 → Fin S16x1024x256.rank)
  dot_S16x1024x256_S128x256_S16x1024x128_2_1_01_0_n_n_wf : DotDims.WF S16x1024x256 S128x256 S16x1024x128 [2] [1] [0, 1] [0] [] []
  dot_S16x1024x128_S16x1024x128_S16x1024x1024_2_2_1_1_0_0_wf : DotDims.WF S16x1024x128 S16x1024x128 S16x1024x1024 [2] [2] [1] [1] [0] [0]
  dot_S16x1024x1024_S16x1024x128_S16x1024x128_2_1_1_2_0_0_wf : DotDims.WF S16x1024x1024 S16x1024x128 S16x1024x128 [2] [1] [1] [2] [0] [0]
  dot_S16x1024x384_S384x384_S16x1024x384_2_1_01_0_n_n_wf : DotDims.WF S16x1024x384 S384x384 S16x1024x384 [2] [1] [0, 1] [0] [] []
  dot_S16x1024x1024_S16x1024x128_S16x1024x128_1_1_2_2_0_0_wf : DotDims.WF S16x1024x1024 S16x1024x128 S16x1024x128 [1] [1] [2] [2] [0] [0]
  dot_S16x1024x384_S256x384_S16x1024x256_2_1_01_0_n_n_wf : DotDims.WF S16x1024x384 S256x384 S16x1024x256 [2] [1] [0, 1] [0] [] []

variable [Facts₀]

def dot_S16x1024x256_S128x256_S16x1024x128_2_1_01_0_n_n : DotDims S16x1024x256 S128x256 S16x1024x128 where
  lhsContracting := [2]
  rhsContracting := [1]
  lhsNonContracting := [0, 1]
  rhsNonContracting := [0]
  lhsBatch := []
  rhsBatch := []
  wf := dot_S16x1024x256_S128x256_S16x1024x128_2_1_01_0_n_n_wf
def dot_S16x1024x128_S16x1024x128_S16x1024x1024_2_2_1_1_0_0 : DotDims S16x1024x128 S16x1024x128 S16x1024x1024 where
  lhsContracting := [2]
  rhsContracting := [2]
  lhsNonContracting := [1]
  rhsNonContracting := [1]
  lhsBatch := [0]
  rhsBatch := [0]
  wf := dot_S16x1024x128_S16x1024x128_S16x1024x1024_2_2_1_1_0_0_wf
def dot_S16x1024x1024_S16x1024x128_S16x1024x128_2_1_1_2_0_0 : DotDims S16x1024x1024 S16x1024x128 S16x1024x128 where
  lhsContracting := [2]
  rhsContracting := [1]
  lhsNonContracting := [1]
  rhsNonContracting := [2]
  lhsBatch := [0]
  rhsBatch := [0]
  wf := dot_S16x1024x1024_S16x1024x128_S16x1024x128_2_1_1_2_0_0_wf
def dot_S16x1024x384_S384x384_S16x1024x384_2_1_01_0_n_n : DotDims S16x1024x384 S384x384 S16x1024x384 where
  lhsContracting := [2]
  rhsContracting := [1]
  lhsNonContracting := [0, 1]
  rhsNonContracting := [0]
  lhsBatch := []
  rhsBatch := []
  wf := dot_S16x1024x384_S384x384_S16x1024x384_2_1_01_0_n_n_wf
def dot_S16x1024x1024_S16x1024x128_S16x1024x128_1_1_2_2_0_0 : DotDims S16x1024x1024 S16x1024x128 S16x1024x128 where
  lhsContracting := [1]
  rhsContracting := [1]
  lhsNonContracting := [2]
  rhsNonContracting := [2]
  lhsBatch := [0]
  rhsBatch := [0]
  wf := dot_S16x1024x1024_S16x1024x128_S16x1024x128_1_1_2_2_0_0_wf
def dot_S16x1024x384_S256x384_S16x1024x256_2_1_01_0_n_n : DotDims S16x1024x384 S256x384 S16x1024x256 where
  lhsContracting := [2]
  rhsContracting := [1]
  lhsNonContracting := [0, 1]
  rhsNonContracting := [0]
  lhsBatch := []
  rhsBatch := []
  wf := dot_S16x1024x384_S256x384_S16x1024x256_2_1_01_0_n_n_wf

class Facts : Prop extends Facts₀ where

variable [Facts]
-- ==== Proof.Spec.lean ====
/-
  The graph attention layer as one function of its inputs, for a single batch element.

  For one graph of n nodes the inputs are the node features (n × 256), a dense adjacency mask (n × n), three linear
  maps 256 → 128 (the "representation", "address" and "identity" projections, weights stored [out, in]), an
  attention map 384 → 384 and an update map 384 → 256, each with its bias.

    rep        = nodes · Wrepᵀ + brep
    nodeAddr   = rows of (nodes · Waddrᵀ + baddr), each divided by max(‖row‖₂, ε)
    scores a   = exp(a · nodeAddrᵀ) ⊙ adj                         (a : n × 128, the current addresses)
    stepIn  (a, h) = [ rowNormalised(scores a) · rep   | a | h ] · Wattᵀ + batt        (n × 384)
    stepOut (a, h) = [ colNormalised(scores a)ᵀ · rep  | a | h ] · Wattᵀ + batt
  A step's result is cut into three blocks of 128 columns: the aggregate, the next addresses, and (after a
  rectifier) the next hidden state. Each recurrence runs three steps from zero addresses and zero hidden state;
  the result is  relu([relu(agg_in) | relu(nodes · Wnrepᵀ + bnrep) | relu(agg_out)] · Wupdᵀ + bupd).

  Every sum is a sum over a finite index type on the extended reals; the two float literals (zero and ε) are kept
  as their bit patterns and never evaluated.
-/
import Idealize.ShloMosaic.Lib.ValueIdx
import Idealize.ShloMosaic.PureOps.Ideal.Laws

noncomputable section

namespace Cert.Spec

open Idealize.ShloMosaic

/-- A matrix of extended reals with `a` rows and `b` columns. -/
abbrev Mat (a b : ℕ) : Type := Fin a → Fin b → EReal

/-- The normalisation floor ε, as the program spells it. -/
def eps : EReal := Ideal.ofBits .f32 0x2B8CBCCC#32

/-- The float zero, as the program spells it. -/
def zero : EReal := Ideal.ofBits .f32 0x00000000#32

variable {a b k : ℕ}

/-- `l · r`. -/
def mm (l : Mat a k) (r : Mat k b) : Mat a b := fun p c => ∑ q : Fin k, l p q * r q c

/-- `l · rᵀ`: both operands summed along their rows. -/
def mmR (l : Mat a k) (r : Mat b k) : Mat a b := fun p c => ∑ q : Fin k, l p q * r c q

/-- `lᵀ · r`: both operands summed along their columns. -/
def mmL (l : Mat k a) (r : Mat k b) : Mat a b := fun p c => ∑ q : Fin k, l q p * r q c

/-- The transpose. -/
def tr (x : Mat a b) : Mat b a := fun p c => x c p

/-- A row vector added to every row. -/
def addRow (x : Mat a b) (v : Fin b → EReal) : Mat a b := fun p c => x p c + v c

/-- Every row divided by the larger of its Euclidean norm and ε. -/
def normRows (x : Mat a b) : Mat a b :=
  fun p c => Ideal.div (x p c) (max (Ideal.sqrt (∑ q : Fin b, x p q * x p q)) eps)

/-- Every column divided by the larger of its Euclidean norm and ε. -/
def normCols (x : Mat a b) : Mat a b :=
  fun p c => Ideal.div (x p c) (max (Ideal.sqrt (∑ q : Fin a, x q c * x q c)) eps)

/-- `exp s ⊙ adj`, entry by entry. -/
def expMask (s adj : Mat a b) : Mat a b := fun p c => Ideal.exp (s p c) * adj p c

/-- The rectifier, entry by entry. -/
def relu (x : Mat a b) : Mat a b := fun p c => max (x p c) zero

/-- Three blocks of 128 columns side by side. -/
def cat3 (x y z : Mat a 128) : Mat a 384 := fun p c =>
  if h : c.val < 128 then x p ⟨c.val, h⟩
  else if h2 : c.val < 256 then y p ⟨c.val - 128, by omega⟩
  else z p ⟨c.val - 256, by omega⟩

/-- The block of 128 columns starting at column `off`. -/
def cols (off : Fin 257) (x : Mat a 384) : Mat a 128 := fun p c => x p ⟨off.val + c.val, by omega⟩

/-- The all-zero block a recurrence starts from. -/
def zeros : Mat a 128 := fun _ _ => zero

/-- The inputs for one graph of `n` nodes. -/
structure Inp (n : ℕ) where
  nodes : Mat n 256
  adj : Mat n n
  Wrep : Mat 128 256
  brep : Fin 128 → EReal
  Waddr : Mat 128 256
  baddr : Fin 128 → EReal
  Wnrep : Mat 128 256
  bnrep : Fin 128 → EReal
  Watt : Mat 384 384
  batt : Fin 384 → EReal
  Wupd : Mat 256 384
  bupd : Fin 256 → EReal

variable {n : ℕ} (I : Inp n)

/-- The nodes' representations. -/
def rep : Mat n 128 := addRow (mmR I.nodes I.Wrep) I.brep

/-- The nodes' unit-length addresses. -/
def nodeAddr : Mat n 128 := normRows (addRow (mmR I.nodes I.Waddr) I.baddr)

/-- The masked attention scores of the current addresses `ad` against the nodes' addresses. -/
def scores (ad : Mat n 128) : Mat n n := expMask (mmR ad (nodeAddr I)) I.adj

/-- The attention map on the three blocks. -/
def att (src ad hid : Mat n 128) : Mat n 384 := addRow (mmR (cat3 src ad hid) I.Watt) I.batt

/-- One step of the in-edge recurrence. -/
def stepIn (ad hid : Mat n 128) : Mat n 384 := att I (mm (normRows (scores I ad)) (rep I)) ad hid

/-- One step of the out-edge recurrence. -/
def stepOut (ad hid : Mat n 128) : Mat n 384 := att I (mmL (normCols (scores I ad)) (rep I)) ad hid

def in0 : Mat n 384 := stepIn I zeros zeros
def in1 : Mat n 384 := stepIn I (cols 128 (in0 I)) (relu (cols 256 (in0 I)))
def in2 : Mat n 384 := stepIn I (cols 128 (in1 I)) (relu (cols 256 (in1 I)))
def out0 : Mat n 384 := stepOut I zeros zeros
def out1 : Mat n 384 := stepOut I (cols 128 (out0 I)) (relu (cols 256 (out0 I)))
def out2 : Mat n 384 := stepOut I (cols 128 (out1 I)) (relu (cols 256 (out1 I)))

/-- The nodes' own contribution to the update. -/
def nodeId : Mat n 128 := relu (addRow (mmR I.nodes I.Wnrep) I.bnrep)

/-- The layer's result. -/
def result : Mat n 256 :=
  relu (addRow (mmR (cat3 (relu (cols 0 (in2 I))) (nodeId I) (relu (cols 0 (out2 I)))) I.Wupd) I.bupd)

open Idealize.ShloMosaic.ValueIdx in
/-- The inputs of graph `g`, read off the twelve argument arrays: 16 graphs of 1024 nodes, the weights shared. -/
def inpAt (x0 : (⟨3, ![16, 1024, 256]⟩ : Shape).Idx → EReal) (x1 : (⟨3, ![16, 1024, 1024]⟩ : Shape).Idx → EReal)
    (x2 : (⟨2, ![128, 256]⟩ : Shape).Idx → EReal) (x3 : (⟨1, ![128]⟩ : Shape).Idx → EReal)
    (x4 : (⟨2, ![128, 256]⟩ : Shape).Idx → EReal) (x5 : (⟨1, ![128]⟩ : Shape).Idx → EReal)
    (x6 : (⟨2, ![128, 256]⟩ : Shape).Idx → EReal) (x7 : (⟨1, ![128]⟩ : Shape).Idx → EReal)
    (x8 : (⟨2, ![384, 384]⟩ : Shape).Idx → EReal) (x9 : (⟨1, ![384]⟩ : Shape).Idx → EReal)
    (x10 : (⟨2, ![256, 384]⟩ : Shape).Idx → EReal) (x11 : (⟨1, ![256]⟩ : Shape).Idx → EReal) (g : Fin 16) : Inp 1024 where
  nodes := fun p c => x0 (ix3 g p c)
  adj := fun p c => x1 (ix3 g p c)
  Wrep := fun p c => x2 (ix2 p c)
  brep := fun c => x3 (ix1 c)
  Waddr := fun p c => x4 (ix2 p c)
  baddr := fun c => x5 (ix1 c)
  Wnrep := fun p c => x6 (ix2 p c)
  bnrep := fun c => x7 (ix1 c)
  Watt := fun p c => x8 (ix2 p c)
  batt := fun c => x9 (ix1 c)
  Wupd := fun p c => x10 (ix2 p c)
  bupd := fun c => x11 (ix1 c)

end Cert.Spec

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.LibRowProduct.lean ====
/-
  A product of two matrices contracted along their rows, into a zero accumulator, read at one entry.

  For a matrix `l` of shape `[M, K]` and a matrix `r` of shape `[N, K]`, each contracted over its SECOND axis (the product
  `l · rᵀ`, the form a weight stored as [out, in] is applied in), the entry `(p, c)` on the extended reals is
  `∑ k, l[p, k] · r[c, k]`: the accumulator contributes the real `0`, the contraction index has a single axis of extent `K`
  and is traded for its one coordinate `k`, and the operand indices at the output index `(p, c)` and contraction
  coordinate `k` are `(p, k)` and `(c, k)`.

  The dimension numbers enter only through six facts, which a caller proves for its own record: the contraction shape has
  rank one (`hr`) and extent `K` (`hs`), and the four coordinates of the two operand indices (`hl0`, `hl1`, `hr0`, `hr1`).
  The operands' float formats are arbitrary.
-/
import Idealize.ShloMosaic.Lib.ValueIdx
import Idealize.ShloMosaic.PureOps.Ideal.Laws

noncomputable section

namespace Cert.RowProduct

open Idealize.ShloMosaic Idealize.ShloMosaic.ValueIdx

/-- Entry `(p, c)` of an `[M, K]` by `[N, K]` product over the second axes, into the zero accumulator, is
    `∑ k, l[p, k] · r[c, k]`, for any dimension numbers `D` whose contraction has the one axis of extent `K` and whose operand
    indices read `(p, k)` and `(c, k)`. -/
theorem matmul_zero_entry {M K N : ℕ} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j (1 : Fin 2)).val)
    (hr1 : ∀ (j : (⟨2, ![M, N]⟩ : Shape).Idx) (q : D.contr.Idx), (D.rhsIdx j q (1 : Fin 2)).val = (q ⟨0, by omega⟩).val)
    {φ₁ φ₂ : FTy} (l : FVec Ideal ⟨2, ![M, K]⟩ φ₁) (r : FVec Ideal ⟨2, ![N, K]⟩ φ₂) (p : Fin M) (c : Fin N) :
    FloatOps.matmul D none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 c k :=
    funext fun a => Fin.ext (by
      match a with
      | ⟨0, _⟩ => exact hr0 (ix2 p c) _
      | ⟨1, _⟩ => exact (hr1 (ix2 p c) _).trans hk)
  rw [el, er]

end Cert.RowProduct

end
-- ==== Proof.LibColumnProduct.lean ====
/-
  A product of two matrices contracted along their columns, into a zero accumulator, read at one entry.

  For a matrix `l` of shape `[K, M]` and a matrix `r` of shape `[K, N]`, each contracted over its FIRST axis (the product
  `lᵀ · r`, the form in which weights normalised per column are summed against the rows they came from), the entry `(p, c)`
  on the extended reals is `∑ k, l[k, p] · r[k, c]`: the accumulator contributes the real `0`, the contraction index has a
  single axis of extent `K` and is traded for its one coordinate `k`, and the operand indices at the output index `(p, c)`
  and contraction coordinate `k` are `(k, p)` and `(k, c)`.

  The dimension numbers enter only through six facts, which a caller proves for its own record: the contraction shape has
  rank one (`hr`) and extent `K` (`hs`), and the four coordinates of the two operand indices (`hl0`, `hl1`, `hr0`, `hr1`).
  The operands' float formats are arbitrary.
-/
import Idealize.ShloMosaic.Lib.ValueIdx
import Idealize.ShloMosaic.PureOps.Ideal.Laws

noncomputable section

namespace Cert.ColumnProduct

open Idealize.ShloMosaic Idealize.ShloMosaic.ValueIdx

/-- Entry `(p, c)` of a `[K, M]` by `[K, N]` product over the first axes, into the zero accumulator, is
    `∑ k, l[k, p] · r[k, c]`, for any dimension numbers `D` whose contraction has the one axis of extent `K` and whose operand
    indices read `(k, p)` and `(k, c)`. -/
theorem matmul_zero_entry {M K N : ℕ} (D : DotDims ⟨2, ![K, M]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (q ⟨0, by omega⟩).val)
    (hl1 : ∀ (j : (⟨2, ![M, N]⟩ : Shape).Idx) (q : D.contr.Idx), (D.lhsIdx j q (1 : Fin 2)).val = (j (0 : Fin 2)).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![K, M]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 k p) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 k p :=
    funext fun a => Fin.ext (by
      match a with
      | ⟨0, _⟩ => exact (hl0 (ix2 p c) _).trans hk
      | ⟨1, _⟩ => exact hl1 (ix2 p c) _)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.ColumnProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KerOps.lean ====
/-
  The kernel body's operations that are not entry-by-entry, each read at one entry on the extended reals.

  A matrix product into the zero accumulator is a plain sum of products over the contracted coordinate (three forms:
  `l · r`, `l · rᵀ`, `lᵀ · r`); a sum along the rows or along the columns of a matrix is the finite sum over that axis;
  three blocks of 128 columns laid side by side read the block that holds the column; a block of 128 columns cut out at
  an offset reads the column shifted by the offset. The layout changes around them (a vector as one row or one column, a
  row or a column repeated to a matrix, a leading unit axis added or dropped) read the same entry. Entry-by-entry
  operations read their operands at the same entry by definition.
-/
import proofs.«128754_j89326729822492_1_alg».proof.Proof.Gen.KernelIdeal
import proofs.«128754_j89326729822492_1_alg».proof.Proof.Spec
import proofs.«128754_j89326729822492_1_alg».proof.Proof.LibPlainProduct
import proofs.«128754_j89326729822492_1_alg».proof.Proof.LibRowProduct
import proofs.«128754_j89326729822492_1_alg».proof.Proof.LibColumnProduct
import proofs.«128754_j89326729822492_1_alg».proof.Proof.LibColumnLayout
import Idealize.ShloMosaic.Lib.Pipeline.Value
import Idealize.ShloMosaic.Lib.ValueLayout

noncomputable section

namespace Cert.KerOps

open Idealize.ShloMosaic Idealize.ShloMosaic.ValueIdx Cert.KernelIdeal Cert.Spec

/-! ## Reading an array by coordinates -/

/-- A rank-2 array read by its two coordinates. -/
def cur2 {a b : ℕ} (x : (⟨2, ![a, b]⟩ : Shape).Idx → EReal) : Mat a b := fun p c => x (ix2 p c)

/-- A rank-1 array read by its coordinate. -/
def cur1 {a : ℕ} (x : (⟨1, ![a]⟩ : Shape).Idx → EReal) : Fin a → EReal := fun c => x (ix1 c)

/-- A rank-3 array with a leading unit axis read by its two other coordinates. -/
def cur3u {a b : ℕ} (x : (⟨3, ![1, a, b]⟩ : Shape).Idx → EReal) : Mat a b := fun p c => x (ix3 (0 : Fin 1) p c)

/-- A one-row matrix read by its column. -/
def row1 {b : ℕ} (x : (⟨2, ![1, b]⟩ : Shape).Idx → EReal) : Fin b → EReal := fun c => x (ix2 (0 : Fin 1) c)

/-! ## The six matrix products of the body -/

/-- `dot_S1024x256_S256x128_S1024x128_1_0_0_1_n_n` contracts the left operand's columns against the right operand's rows: entry `(p, c)` of the product
    into the zero accumulator is `∑ k, l[p, k] · r[k, c]`. -/
theorem dot_S1024x256_S256x128_S1024x128_1_0_0_1_n_n_entry {φ₁ φ₂ : FTy} (l : FVec Ideal S1024x256 φ₁) (r : FVec Ideal S256x128 φ₂) (p : Fin 1024) (c : Fin 128) :
    FloatOps.matmul dot_S1024x256_S256x128_S1024x128_1_0_0_1_n_n none l r (constant (F := Ideal) S1024x128 .f32 0x00000000#32) (ix2 p c)
      = ∑ k : Fin 256, l (ix2 p k) * r (ix2 k c) :=
  Cert.PlainProduct.matmul_zero_entry dot_S1024x256_S256x128_S1024x128_1_0_0_1_n_n rfl rfl
    (fun j q => by
      unfold DotDims.lhsIdx
      rw [dif_neg (show ¬(0 : Fin 2) ∈ dot_S1024x256_S256x128_S1024x128_1_0_0_1_n_n.lhsBatch by decide), dif_pos (show (0 : Fin 2) ∈ dot_S1024x256_S256x128_S1024x128_1_0_0_1_n_n.lhsNonContracting by decide)]
      rfl)
    (fun j q => dot_S1024x256_S256x128_S1024x128_1_0_0_1_n_n.lhsIdx_val_of_single rfl j q)
    (fun j q => dot_S1024x256_S256x128_S1024x128_1_0_0_1_n_n.rhsIdx_val_of_single rfl j q)
    (fun j q => by
      unfold DotDims.rhsIdx
      rw [dif_neg (show ¬(1 : Fin 2) ∈ dot_S1024x256_S256x128_S1024x128_1_0_0_1_n_n.rhsBatch by decide), dif_pos (show (1 : Fin 2) ∈ dot_S1024x256_S256x128_S1024x128_1_0_0_1_n_n.rhsNonContracting by decide)]
      rfl)
    l r p c

/-- `dot_S1024x1024_S1024x128_S1024x128_1_0_0_1_n_n` contracts the left operand's columns against the right operand's rows: entry `(p, c)` of the product
    into the zero accumulator is `∑ k, l[p, k] · r[k, c]`. -/
theorem dot_S1024x1024_S1024x128_S1024x128_1_0_0_1_n_n_entry {φ₁ φ₂ : FTy} (l : FVec Ideal S1024x1024 φ₁) (r : FVec Ideal S1024x128 φ₂) (p : Fin 1024) (c : Fin 128) :
    FloatOps.matmul dot_S1024x1024_S1024x128_S1024x128_1_0_0_1_n_n none l r (constant (F := Ideal) S1024x128 .f32 0x00000000#32) (ix2 p c)
      = ∑ k : Fin 1024, l (ix2 p k) * r (ix2 k c) :=
  Cert.PlainProduct.matmul_zero_entry dot_S1024x1024_S1024x128_S1024x128_1_0_0_1_n_n rfl rfl
    (fun j q => by
      unfold DotDims.lhsIdx
      rw [dif_neg (show ¬(0 : Fin 2) ∈ dot_S1024x1024_S1024x128_S1024x128_1_0_0_1_n_n.lhsBatch by decide), dif_pos (show (0 : Fin 2) ∈ dot_S1024x1024_S1024x128_S1024x128_1_0_0_1_n_n.lhsNonContracting by decide)]
      rfl)
    (fun j q => dot_S1024x1024_S1024x128_S1024x128_1_0_0_1_n_n.lhsIdx_val_of_single rfl j q)
    (fun j q => dot_S1024x1024_S1024x128_S1024x128_1_0_0_1_n_n.rhsIdx_val_of_single rfl j q)
    (fun j q => by
      unfold DotDims.rhsIdx
      rw [dif_neg (show ¬(1 : Fin 2) ∈ dot_S1024x1024_S1024x128_S1024x128_1_0_0_1_n_n.rhsBatch by decide), dif_pos (show (1 : Fin 2) ∈ dot_S1024x1024_S1024x128_S1024x128_1_0_0_1_n_n.rhsNonContracting by decide)]
      rfl)
    l r p c

/-- `dot_S1024x384_S384x384_S1024x384_1_0_0_1_n_n` contracts the left operand's columns against the right operand's rows: entry `(p, c)` of the product
    into the zero accumulator is `∑ k, l[p, k] · r[k, c]`. -/
theorem dot_S1024x384_S384x384_S1024x384_1_0_0_1_n_n_entry {φ₁ φ₂ : FTy} (l : FVec Ideal S1024x384 φ₁) (r : FVec Ideal S384x384 φ₂) (p : Fin 1024) (c : Fin 384) :
    FloatOps.matmul dot_S1024x384_S384x384_S1024x384_1_0_0_1_n_n none l r (constant (F := Ideal) S1024x384 .f32 0x00000000#32) (ix2 p c)
      = ∑ k : Fin 384, l (ix2 p k) * r (ix2 k c) :=
  Cert.PlainProduct.matmul_zero_entry dot_S1024x384_S384x384_S1024x384_1_0_0_1_n_n rfl rfl
    (fun j q => by
      unfold DotDims.lhsIdx
      rw [dif_neg (show ¬(0 : Fin 2) ∈ dot_S1024x384_S384x384_S1024x384_1_0_0_1_n_n.lhsBatch by decide), dif_pos (show (0 : Fin 2) ∈ dot_S1024x384_S384x384_S1024x384_1_0_0_1_n_n.lhsNonContracting by decide)]
      rfl)
    (fun j q => dot_S1024x384_S384x384_S1024x384_1_0_0_1_n_n.lhsIdx_val_of_single rfl j q)
    (fun j q => dot_S1024x384_S384x384_S1024x384_1_0_0_1_n_n.rhsIdx_val_of_single rfl j q)
    (fun j q => by
      unfold DotDims.rhsIdx
      rw [dif_neg (show ¬(1 : Fin 2) ∈ dot_S1024x384_S384x384_S1024x384_1_0_0_1_n_n.rhsBatch by decide), dif_pos (show (1 : Fin 2) ∈ dot_S1024x384_S384x384_S1024x384_1_0_0_1_n_n.rhsNonContracting by decide)]
      rfl)
    l r p c

/-- `dot_S1024x384_S384x256_S1024x256_1_0_0_1_n_n` contracts the left operand's columns against the right operand's rows: entry `(p, c)` of the product
    into the zero accumulator is `∑ k, l[p, k] · r[k, c]`. -/
theorem dot_S1024x384_S384x256_S1024x256_1_0_0_1_n_n_entry {φ₁ φ₂ : FTy} (l : FVec Ideal S1024x384 φ₁) (r : FVec Ideal S384x256 φ₂) (p : Fin 1024) (c : Fin 256) :
    FloatOps.matmul dot_S1024x384_S384x256_S1024x256_1_0_0_1_n_n none l r (constant (F := Ideal) S1024x256 .f32 0x00000000#32) (ix2 p c)
      = ∑ k : Fin 384, l (ix2 p k) * r (ix2 k c) :=
  Cert.PlainProduct.matmul_zero_entry dot_S1024x384_S384x256_S1024x256_1_0_0_1_n_n rfl rfl
    (fun j q => by
      unfold DotDims.lhsIdx
      rw [dif_neg (show ¬(0 : Fin 2) ∈ dot_S1024x384_S384x256_S1024x256_1_0_0_1_n_n.lhsBatch by decide), dif_pos (show (0 : Fin 2) ∈ dot_S1024x384_S384x256_S1024x256_1_0_0_1_n_n.lhsNonContracting by decide)]
      rfl)
    (fun j q => dot_S1024x384_S384x256_S1024x256_1_0_0_1_n_n.lhsIdx_val_of_single rfl j q)
    (fun j q => dot_S1024x384_S384x256_S1024x256_1_0_0_1_n_n.rhsIdx_val_of_single rfl j q)
    (fun j q => by
      unfold DotDims.rhsIdx
      rw [dif_neg (show ¬(1 : Fin 2) ∈ dot_S1024x384_S384x256_S1024x256_1_0_0_1_n_n.rhsBatch by decide), dif_pos (show (1 : Fin 2) ∈ dot_S1024x384_S384x256_S1024x256_1_0_0_1_n_n.rhsNonContracting by decide)]
      rfl)
    l r p c

/-- The scores' product contracts both operands along their rows: entry `(p, c)` is `∑ k, l[p, k] · r[c, k]`. -/
theorem dot_rows_entry {φ₁ φ₂ : FTy} (l : FVec Ideal S1024x128 φ₁) (r : FVec Ideal S1024x128 φ₂) (p c : Fin 1024) :
    FloatOps.matmul dot_S1024x128_S1024x128_S1024x1024_1_1_0_0_n_n none l r (constant (F := Ideal) S1024x1024 .f32 0x00000000#32) (ix2 p c)
      = ∑ k : Fin 128, l (ix2 p k) * r (ix2 c k) :=
  Cert.RowProduct.matmul_zero_entry dot_S1024x128_S1024x128_S1024x1024_1_1_0_0_n_n rfl rfl
    (fun j q => by
      unfold DotDims.lhsIdx
      rw [dif_neg (show ¬(0 : Fin 2) ∈ dot_S1024x128_S1024x128_S1024x1024_1_1_0_0_n_n.lhsBatch by decide), dif_pos (show (0 : Fin 2) ∈ dot_S1024x128_S1024x128_S1024x1024_1_1_0_0_n_n.lhsNonContracting by decide)]
      rfl)
    (fun j q => dot_S1024x128_S1024x128_S1024x1024_1_1_0_0_n_n.lhsIdx_val_of_single rfl j q)
    (fun j q => by
      unfold DotDims.rhsIdx
      rw [dif_neg (show ¬(0 : Fin 2) ∈ dot_S1024x128_S1024x128_S1024x1024_1_1_0_0_n_n.rhsBatch by decide), dif_pos (show (0 : Fin 2) ∈ dot_S1024x128_S1024x128_S1024x1024_1_1_0_0_n_n.rhsNonContracting by decide)]
      rfl)
    (fun j q => dot_S1024x128_S1024x128_S1024x1024_1_1_0_0_n_n.rhsIdx_val_of_single rfl j q)
    l r p c

/-- The out-edge aggregation contracts both operands along their columns: entry `(p, c)` is `∑ k, l[k, p] · r[k, c]`. -/
theorem dot_cols_entry {φ₁ φ₂ : FTy} (l : FVec Ideal S1024x1024 φ₁) (r : FVec Ideal S1024x128 φ₂) (p : Fin 1024) (c : Fin 128) :
    FloatOps.matmul dot_S1024x1024_S1024x128_S1024x128_0_0_1_1_n_n none l r (constant (F := Ideal) S1024x128 .f32 0x00000000#32) (ix2 p c)
      = ∑ k : Fin 1024, l (ix2 k p) * r (ix2 k c) :=
  Cert.ColumnProduct.matmul_zero_entry dot_S1024x1024_S1024x128_S1024x128_0_0_1_1_n_n rfl rfl
    (fun j q => dot_S1024x1024_S1024x128_S1024x128_0_0_1_1_n_n.lhsIdx_val_of_single rfl j q)
    (fun j q => by
      unfold DotDims.lhsIdx
      rw [dif_neg (show ¬(1 : Fin 2) ∈ dot_S1024x1024_S1024x128_S1024x128_0_0_1_1_n_n.lhsBatch by decide), dif_pos (show (1 : Fin 2) ∈ dot_S1024x1024_S1024x128_S1024x128_0_0_1_1_n_n.lhsNonContracting by decide)]
      rfl)
    (fun j q => dot_S1024x1024_S1024x128_S1024x128_0_0_1_1_n_n.rhsIdx_val_of_single rfl j q)
    (fun j q => by
      unfold DotDims.rhsIdx
      rw [dif_neg (show ¬(1 : Fin 2) ∈ dot_S1024x1024_S1024x128_S1024x128_0_0_1_1_n_n.rhsBatch by decide), dif_pos (show (1 : Fin 2) ∈ dot_S1024x1024_S1024x128_S1024x128_0_0_1_1_n_n.rhsNonContracting by decide)]
      rfl)
    l r p c

/-! ## Sums along one axis of a matrix -/

/-- The sum along the rows: entry `p` of the result is the sum of row `p`. -/
theorem rowSum_entry {a b : ℕ} (x : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ q : Fin b, x (ix2 p q) := by
  refine (Ideal.multiReduction_add_single x 0x00000000#32 h hφ hacc (ix1 p)).trans ?_
  refine Finset.sum_congr rfl fun q _ => congrArg x (funext fun d => Fin.ext ?_)
  match d with
  | ⟨0, _⟩ => rfl
  | ⟨1, _⟩ => rfl

/-- The sum along the columns: entry `c` of the result is the sum of column `c`. -/
theorem colSum_entry {a b : ℕ} (x : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ x 0x00000000#32 h hφ hacc (ix1 c) = ∑ q : Fin a, x (ix2 q c) := by
  refine (Ideal.multiReduction_add_single x 0x00000000#32 h hφ hacc (ix1 c)).trans ?_
  refine Finset.sum_congr rfl fun q _ => congrArg x (funext fun d => Fin.ext ?_)
  match d with
  | ⟨0, _⟩ => rfl
  | ⟨1, _⟩ => rfl

/-! ## Blocks of columns -/

/-- Three blocks of 128 columns side by side, read at `(p, c)`: the block that holds column `c`. -/
theorem concat3_entry (x y z : S1024x128.Idx → EReal)
    (h : Shape.Concatenates (([⟨S1024x128, x⟩, ⟨S1024x128, y⟩, ⟨S1024x128, z⟩] : List ((s : Shape) × (s.Idx → EReal))).map (·.1)) S1024x384 1)
    (p : Fin 1024) (c : Fin 384) :
    concatenate S1024x384 1 [⟨S1024x128, x⟩, ⟨S1024x128, y⟩, ⟨S1024x128, z⟩] h (ix2 p c)
      = cat3 (cur2 x) (cur2 y) (cur2 z) p c := by
  unfold cat3 cur2
  by_cases h1 : c.val < 128
  · rw [dif_pos h1]
    exact concatenate_apply_piece 1 _ h (ix2 p c) 0 (by show (0 : ℕ) < 3; omega) S1024x128 x rfl rfl 0 rfl (ix2 p ⟨c.val, h1⟩)
      (fun d hd => by match d with | ⟨0, _⟩ => rfl | ⟨1, _⟩ => exact absurd rfl hd) (by show 0 + c.val = c.val; omega)
  · rw [dif_neg h1]
    by_cases h2 : c.val < 256
    · rw [dif_pos h2]
      exact concatenate_apply_piece 1 _ h (ix2 p c) 1 (by show (1 : ℕ) < 3; omega) S1024x128 y rfl rfl 128 rfl (ix2 p ⟨c.val - 128, by omega⟩)
        (fun d hd => by match d with | ⟨0, _⟩ => rfl | ⟨1, _⟩ => exact absurd rfl hd) (by show 128 + (c.val - 128) = c.val; omega)
    · rw [dif_neg h2]
      exact concatenate_apply_piece 1 _ h (ix2 p c) 2 (by show (2 : ℕ) < 3; omega) S1024x128 z rfl rfl 256 rfl (ix2 p ⟨c.val - 256, by omega⟩)
        (fun d hd => by match d with | ⟨0, _⟩ => rfl | ⟨1, _⟩ => exact absurd rfl hd) (by show 256 + (c.val - 256) = c.val; omega)

/-- The first block of 128 columns. -/
theorem cols0_entry (x : S1024x384.Idx → EReal) (h : S1024x384.Slices ![0, 0] S1024x128) (p : Fin 1024) (c : Fin 128) :
    extractStridedSlice S1024x128 ![0, 0] x h (ix2 p c) = cols 0 (cur2 x) p c :=
  slice2_axis1_apply 0 x h p c ⟨0 + c.val, by omega⟩ rfl

/-- The second block of 128 columns. -/
theorem cols128_entry (x : S1024x384.Idx → EReal) (h : S1024x384.Slices ![0, 128] S1024x128) (p : Fin 1024) (c : Fin 128) :
    extractStridedSlice S1024x128 ![0, 128] x h (ix2 p c) = cols 128 (cur2 x) p c :=
  slice2_axis1_apply 128 x h p c ⟨128 + c.val, by omega⟩ rfl

/-- The third block of 128 columns. -/
theorem cols256_entry (x : S1024x384.Idx → EReal) (h : S1024x384.Slices ![0, 256] S1024x128) (p : Fin 1024) (c : Fin 128) :
    extractStridedSlice S1024x128 ![0, 256] x h (ix2 p c) = cols 256 (cur2 x) p c :=
  slice2_axis1_apply 256 x h p c ⟨256 + c.val, by omega⟩ rfl

/-! ## Entry-by-entry operations -/

theorem sqrt_entry {s : Shape} (x : FVec Ideal s .f32) (i : s.Idx) : sqrt x i = Ideal.sqrt (x i) := rfl

theorem exp_entry {s : Shape} (x : FVec Ideal s .f32) (i : s.Idx) : exp x i = Ideal.exp (x i) := rfl

theorem scalar_ofBits (b : BitVec 32) : (Scalar.ofBits (F := Ideal) .f32 b) = Ideal.ofBits .f32 b := rfl

/-! ## The same, as equations of matrices

Each operation of the body, read by coordinates, is one of the specification's matrix operations of its operands read
by coordinates. -/

section Matrices

variable {a b : ℕ}

theorem cur2_truncf {φ ψ : FTy} (x : FVec Ideal ⟨2, ![a, b]⟩ φ) (h : ψ.bits < φ.bits) : cur2 (truncf ψ x h) = cur2 x := rfl

/-- A leading unit axis dropped. -/
theorem cur2_cast3 (x : (⟨3, ![1, a, b]⟩ : Shape).Idx → EReal) (h : (⟨3, ![1, a, b]⟩ : Shape).ShapeCasts ⟨2, ![a, b]⟩) :
    cur2 (shapeCast ⟨2, ![a, b]⟩ x h) = cur3u x :=
  funext fun p => funext fun c => shapeCast_1ab_ab_apply x h p c

/-- A cast to the same shape. -/
theorem cur2_castSelf (x : (⟨2, ![a, b]⟩ : Shape).Idx → EReal) (h : (⟨2, ![a, b]⟩ : Shape).ShapeCasts ⟨2, ![a, b]⟩) :
    cur2 (shapeCast ⟨2, ![a, b]⟩ x h) = cur2 x := by rw [shapeCast_self]

theorem cur2_mm_256_128 {φ₁ φ₂ : FTy} (l : FVec Ideal S1024x256 φ₁) (r : FVec Ideal S256x128 φ₂) :
    cur2 (FloatOps.matmul dot_S1024x256_S256x128_S1024x128_1_0_0_1_n_n none l r (constant (F := Ideal) S1024x128 .f32 0x00000000#32)) = mm (cur2 l) (cur2 r) :=
  funext fun p => funext fun c => dot_S1024x256_S256x128_S1024x128_1_0_0_1_n_n_entry l r p c

theorem cur2_mm_1024_128 {φ₁ φ₂ : FTy} (l : FVec Ideal S1024x1024 φ₁) (r : FVec Ideal S1024x128 φ₂) :
    cur2 (FloatOps.matmul dot_S1024x1024_S1024x128_S1024x128_1_0_0_1_n_n none l r (constant (F := Ideal) S1024x128 .f32 0x00000000#32)) = mm (cur2 l) (cur2 r) :=
  funext fun p => funext fun c => dot_S1024x1024_S1024x128_S1024x128_1_0_0_1_n_n_entry l r p c

theorem cur2_mm_384_384 {φ₁ φ₂ : FTy} (l : FVec Ideal S1024x384 φ₁) (r : FVec Ideal S384x384 φ₂) :
    cur2 (FloatOps.matmul dot_S1024x384_S384x384_S1024x384_1_0_0_1_n_n none l r (constant (F := Ideal) S1024x384 .f32 0x00000000#32)) = mm (cur2 l) (cur2 r) :=
  funext fun p => funext fun c => dot_S1024x384_S384x384_S1024x384_1_0_0_1_n_n_entry l r p c

theorem cur2_mm_384_256 {φ₁ φ₂ : FTy} (l : FVec Ideal S1024x384 φ₁) (r : FVec Ideal S384x256 φ₂) :
    cur2 (FloatOps.matmul dot_S1024x384_S384x256_S1024x256_1_0_0_1_n_n none l r (constant (F := Ideal) S1024x256 .f32 0x00000000#32)) = mm (cur2 l) (cur2 r) :=
  funext fun p => funext fun c => dot_S1024x384_S384x256_S1024x256_1_0_0_1_n_n_entry l r p c

theorem cur2_dot_rows {φ₁ φ₂ : FTy} (l : FVec Ideal S1024x128 φ₁) (r : FVec Ideal S1024x128 φ₂) :
    cur2 (FloatOps.matmul dot_S1024x128_S1024x128_S1024x1024_1_1_0_0_n_n none l r (constant (F := Ideal) S1024x1024 .f32 0x00000000#32)) = mmR (cur2 l) (cur2 r) :=
  funext fun p => funext fun c => dot_rows_entry l r p c

theorem cur2_dot_cols {φ₁ φ₂ : FTy} (l : FVec Ideal S1024x1024 φ₁) (r : FVec Ideal S1024x128 φ₂) :
    cur2 (FloatOps.matmul dot_S1024x1024_S1024x128_S1024x128_0_0_1_1_n_n none l r (constant (F := Ideal) S1024x128 .f32 0x00000000#32)) = mmL (cur2 l) (cur2 r) :=
  funext fun p => funext fun c => dot_cols_entry l r p c

/-- A bias vector laid as one row, repeated down the rows and added. -/
theorem cur2_addBias (x : FVec Ideal ⟨2, ![a, b]⟩ .f32) (v : (⟨1, ![b]⟩ : Shape).Idx → EReal)
    (h1 : (⟨1, ![b]⟩ : Shape).ShapeCasts ⟨2, ![1, b]⟩) (h2 : (⟨2, ![1, b]⟩ : Shape).Broadcasts ⟨2, ![a, b]⟩) :
    cur2 (addf x (broadcastTo ⟨2, ![a, b]⟩ (shapeCast ⟨2, ![1, b]⟩ v h1) h2)) = addRow (cur2 x) (cur1 v) := by
  funext p c
  show x (ix2 p c) + broadcastTo ⟨2, ![a, b]⟩ (shapeCast ⟨2, ![1, b]⟩ v h1) h2 (ix2 p c) = _
  rw [broadcastTo_1b_ab_apply, shapeCast_a_1a_apply]
  rfl

theorem cur2_expMask (s adj : FVec Ideal ⟨2, ![a, b]⟩ .f32) : cur2 (mulf (exp s) adj) = expMask (cur2 s) (cur2 adj) := rfl

theorem cur2_relu (x : FVec Ideal ⟨2, ![a, b]⟩ .f32) :
    cur2 (maximumf x (broadcast ⟨2, ![a, b]⟩ (Scalar.ofBits (F := Ideal) .f32 0x00000000#32))) = relu (cur2 x) := rfl

/-- The row sums of squares. -/
theorem cur1_rowSq (y : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) :
    cur1 (multiReduction .add [1] ⟨1, ![a]⟩ (mulf y y) 0x00000000#32 h hφ hacc) = fun p => ∑ q : Fin b, cur2 y p q * cur2 y p q :=
  funext fun p => rowSum_entry (mulf y y) h hφ hacc p

/-- The column sums of squares. -/
theorem cur1_colSq (y : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) :
    cur1 (multiReduction .add [0] ⟨1, ![b]⟩ (mulf y y) 0x00000000#32 h hφ hacc) = fun c => ∑ q : Fin a, cur2 y q c * cur2 y q c :=
  funext fun c => colSum_entry (mulf y y) h hφ hacc c

/-- Every row divided by the larger of a given per-row number's root and ε. -/
theorem cur2_divRowBy (x : FVec Ideal ⟨2, ![a, b]⟩ .f32) (v : (⟨1, ![a]⟩ : Shape).Idx → EReal)
    (hc : (⟨1, ![a]⟩ : Shape).ShapeCasts ⟨2, ![a, 1]⟩) (hb : (⟨2, ![a, 1]⟩ : Shape).Broadcasts ⟨2, ![a, b]⟩) :
    cur2 (divf x (broadcastTo ⟨2, ![a, b]⟩ (maximumf (sqrt (shapeCast ⟨2, ![a, 1]⟩ v hc))
      (broadcast ⟨2, ![a, 1]⟩ (Scalar.ofBits (F := Ideal) .f32 0x2B8CBCCC#32))) hb))
      = fun p c => Ideal.div (cur2 x p c) (max (Ideal.sqrt (cur1 v p)) eps) := by
  funext p c
  show Ideal.div (x (ix2 p c)) (broadcastTo ⟨2, ![a, b]⟩ _ hb (ix2 p c)) = _
  rw [Cert.ColumnLayout.broadcastTo_a1_ab_apply]
  show Ideal.div (x (ix2 p c)) (max (Ideal.sqrt (shapeCast ⟨2, ![a, 1]⟩ v hc (ix2 p (0 : Fin 1)))) _) = _
  rw [Cert.ColumnLayout.shapeCast_a_a1_apply]
  rfl

/-- Every row divided by the larger of its Euclidean norm and ε. -/
theorem cur2_normRows (x : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩) :
    cur2 (divf x (broadcastTo ⟨2, ![a, b]⟩ (maximumf (sqrt (shapeCast ⟨2, ![a, 1]⟩
        (multiReduction .add [1] ⟨1, ![a]⟩ (mulf x x) 0x00000000#32 h hφ hacc) hc))
      (broadcast ⟨2, ![a, 1]⟩ (Scalar.ofBits (F := Ideal) .f32 0x2B8CBCCC#32))) hb))
      = normRows (cur2 x) := by
  rw [cur2_divRowBy, cur1_rowSq]
  rfl

/-- Every column divided by the larger of two given per-column numbers. -/
theorem cur2_divColMax (x : FVec Ideal ⟨2, ![a, b]⟩ .f32) (y z : FVec Ideal ⟨2, ![1, b]⟩ .f32)
    (hb : (⟨2, ![1, b]⟩ : Shape).Broadcasts ⟨2, ![a, b]⟩) :
    cur2 (divf x (broadcastTo ⟨2, ![a, b]⟩ (maximumf y z) hb))
      = fun p c => Ideal.div (cur2 x p c) (max (row1 y c) (row1 z c)) := by
  funext p c
  show Ideal.div (x (ix2 p c)) (broadcastTo ⟨2, ![a, b]⟩ (maximumf y z) hb (ix2 p c)) = _
  rw [broadcastTo_1b_ab_apply]
  rfl

/-- A per-column number's root laid as one row. -/
theorem row1_sqrtCast (v : (⟨1, ![b]⟩ : Shape).Idx → EReal) (hc : (⟨1, ![b]⟩ : Shape).ShapeCasts ⟨2, ![1, b]⟩) :
    row1 (sqrt (F := Ideal) (φ := .f32) (shapeCast ⟨2, ![1, b]⟩ v hc)) = fun c => Ideal.sqrt (cur1 v c) := by
  funext c
  show Ideal.sqrt (shapeCast ⟨2, ![1, b]⟩ v hc (ix2 (0 : Fin 1) c)) = _
  rw [shapeCast_a_1a_apply]
  rfl

theorem row1_eps : row1 (broadcast ⟨2, ![1, b]⟩ (Scalar.ofBits (F := Ideal) .f32 0x2B8CBCCC#32)) = fun _ : Fin b => eps := rfl

/-- Every column divided by the larger of a given per-column number's root and ε. -/
theorem cur2_divColBy (x : FVec Ideal ⟨2, ![a, b]⟩ .f32) (v : (⟨1, ![b]⟩ : Shape).Idx → EReal)
    (hc : (⟨1, ![b]⟩ : Shape).ShapeCasts ⟨2, ![1, b]⟩) (hb : (⟨2, ![1, b]⟩ : Shape).Broadcasts ⟨2, ![a, b]⟩) :
    cur2 (divf x (broadcastTo ⟨2, ![a, b]⟩ (maximumf (sqrt (shapeCast ⟨2, ![1, b]⟩ v hc))
      (broadcast ⟨2, ![1, b]⟩ (Scalar.ofBits (F := Ideal) .f32 0x2B8CBCCC#32))) hb))
      = fun p c => Ideal.div (cur2 x p c) (max (Ideal.sqrt (cur1 v c)) eps) := by
  rw [cur2_divColMax, row1_sqrtCast, row1_eps]

/-- Every column divided by the larger of its Euclidean norm and ε. -/
theorem cur2_normCols (x : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ)
    (hc : (⟨1, ![b]⟩ : Shape).ShapeCasts ⟨2, ![1, b]⟩) (hb : (⟨2, ![1, b]⟩ : Shape).Broadcasts ⟨2, ![a, b]⟩) :
    cur2 (divf x (broadcastTo ⟨2, ![a, b]⟩ (maximumf (sqrt (shapeCast ⟨2, ![1, b]⟩
        (multiReduction .add [0] ⟨1, ![b]⟩ (mulf x x) 0x00000000#32 h hφ hacc) hc))
      (broadcast ⟨2, ![1, b]⟩ (Scalar.ofBits (F := Ideal) .f32 0x2B8CBCCC#32))) hb))
      = normCols (cur2 x) := by
  rw [cur2_divColBy, cur1_colSq]
  rfl

theorem cur2_concat (x y z : S1024x128.Idx → EReal)
    (h : Shape.Concatenates (([⟨S1024x128, x⟩, ⟨S1024x128, y⟩, ⟨S1024x128, z⟩] : List ((s : Shape) × (s.Idx → EReal))).map (·.1)) S1024x384 1) :
    cur2 (concatenate S1024x384 1 [⟨S1024x128, x⟩, ⟨S1024x128, y⟩, ⟨S1024x128, z⟩] h) = cat3 (cur2 x) (cur2 y) (cur2 z) :=
  funext fun p => funext fun c => concat3_entry x y z h p c

theorem cur2_cols0 (x : S1024x384.Idx → EReal) (h : S1024x384.Slices ![0, 0] S1024x128) :
    cur2 (extractStridedSlice S1024x128 ![0, 0] x h) = cols 0 (cur2 x) := funext fun p => funext fun c => cols0_entry x h p c

theorem cur2_cols128 (x : S1024x384.Idx → EReal) (h : S1024x384.Slices ![0, 128] S1024x128) :
    cur2 (extractStridedSlice S1024x128 ![0, 128] x h) = cols 128 (cur2 x) := funext fun p => funext fun c => cols128_entry x h p c

theorem cur2_cols256 (x : S1024x384.Idx → EReal) (h : S1024x384.Slices ![0, 256] S1024x128) :
    cur2 (extractStridedSlice S1024x128 ![0, 256] x h) = cols 256 (cur2 x) := funext fun p => funext fun c => cols256_entry x h p c

end Matrices

end Cert.KerOps

end
-- ==== Proof.KerStages.lean ====
/-
  The kernel body's values, one matrix equation per named intermediate value.

  The body computes, for one graph, the layer of the specification with every weight matrix already transposed
  (a product `x · Wᵀ` appears as `x · T` with `T = Wᵀ`). Each intermediate value the body names is, read by
  coordinates, a composition of the specification's matrix operations of the values named before it: the two
  projections with their bias, the row sums of squares, the unit-length addresses, the masked scores, their row or
  column normalisation, the aggregation, the attention map on three blocks of columns, and the cuts of its result.
  Changes of float format are the identity on the extended reals, so they do not appear.
-/
import proofs.«128754_j89326729822492_1_alg».proof.Proof.Gen.KernelIdeal.Skeleton
import proofs.«128754_j89326729822492_1_alg».proof.Proof.KerOps

noncomputable section

namespace Cert.KerStages

open Idealize.ShloMosaic Idealize.ShloMosaic.ValueIdx Cert.KernelIdeal Cert.KernelIdeal.Gen Cert.Spec Cert.KerOps

variable {n : ℕ}

/-- The attention map with its weight stored transposed. -/
def attK (WT : Mat 384 384) (bt : Fin 384 → EReal) (src ad hid : Mat n 128) : Mat n 384 := addRow (mm (cat3 src ad hid) WT) bt

/-- The masked scores of addresses `ad` against node addresses `na`. -/
def scoresK (na : Mat n 128) (adj : Mat n n) (ad : Mat n 128) : Mat n n := expMask (mmR ad na) adj

/-- One in-edge step over given node addresses, representations and transposed attention weight. -/
def stepInK (na rp : Mat n 128) (adj : Mat n n) (WT : Mat 384 384) (bt : Fin 384 → EReal) (ad hid : Mat n 128) : Mat n 384 :=
  attK WT bt (mm (normRows (scoresK na adj ad)) rp) ad hid

/-- One out-edge step over the same. -/
def stepOutK (na rp : Mat n 128) (adj : Mat n n) (WT : Mat 384 384) (bt : Fin 384 → EReal) (ad hid : Mat n 128) : Mat n 384 :=
  attK WT bt (mmL (normCols (scoresK na adj ad)) rp) ad hid

/-- An entry of a matrix is the matrix read by coordinates. -/
theorem apply_cur2 {a b : ℕ} (x : (⟨2, ![a, b]⟩ : Shape).Idx → EReal) (p : Fin a) (c : Fin b) : x (ix2 p c) = cur2 x p c := rfl

theorem pay11_eq (v28 : FVec Ideal S1024x128 .f32) : cur2 (k0_pay11 (F := Ideal) v28) = cur2 v28 := rfl

theorem pay12_eq : cur2 (k0_pay12 (F := Ideal)) = (zeros : Mat 1024 128) := rfl

theorem pay2_eq (v2 : Vec Ideal S1x1024x1024 .f32) : cur2 (k0_pay2 (F := Ideal) v2) = cur3u v2 := by
  unfold k0_pay2
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]

theorem pay3_eq (v0 : Vec Ideal S1x1024x256 .f32) : cur2 (k0_pay3 (F := Ideal) v0) = cur3u v0 := by
  unfold k0_pay3
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]

theorem pay4_eq (v11 : Vec Ideal S256x128 .f32) : cur2 (k0_pay4 (F := Ideal) v11) = cur2 v11 := by
  unfold k0_pay4
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]

theorem pay5_eq (v14 : Vec Ideal S384x384 .f32) : cur2 (k0_pay5 (F := Ideal) v14) = cur2 v14 := by
  unfold k0_pay5
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]

theorem pay6_eq (v17 : Vec Ideal S384x256 .f32) : cur2 (k0_pay6 (F := Ideal) v17) = cur2 v17 := by
  unfold k0_pay6
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]

/-- The representations: the projection and its bias. -/
theorem pay7_eq (v0 : Vec Ideal S1x1024x256 .f32) (v5 : Vec Ideal S256x128 .f32) (v20 : Vec Ideal S128 .f32) :
    cur2 (k0_pay7 (F := Ideal) v0 v5 v20) = addRow (mm (cur3u v0) (cur2 v5)) (cur1 v20) := by
  unfold k0_pay7
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq, pay3_eq]

/-- The address features: the projection and its bias. -/
theorem pay8_eq (v0 : Vec Ideal S1x1024x256 .f32) (v8 : Vec Ideal S256x128 .f32) (v21 : Vec Ideal S128 .f32) :
    cur2 (k0_pay8 (F := Ideal) v0 v8 v21) = addRow (mm (cur3u v0) (cur2 v8)) (cur1 v21) := by
  unfold k0_pay8
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq, pay3_eq]

set_option backward.isDefEq.respectTransparency.types false in
/-- The address features' row sums of squares. -/
theorem pay9_eq (v0 : Vec Ideal S1x1024x256 .f32) (v8 : Vec Ideal S256x128 .f32) (v21 : Vec Ideal S128 .f32) :
    cur1 (k0_pay9 (F := Ideal) v0 v8 v21)
      = fun p => ∑ q : Fin 128, cur2 (k0_pay8 (F := Ideal) v0 v8 v21) p q * cur2 (k0_pay8 (F := Ideal) v0 v8 v21) p q := by
  unfold k0_pay9
  rw [cur1_rowSq]

/-- The addresses: each row over the larger of the root of its sum of squares and ε. -/
theorem pay10_eq (v32 : FVec Ideal S1024x128 .f32) (v34 : FVec Ideal S1024 .f32) :
    cur2 (k0_pay10 (F := Ideal) v32 v34) = fun p c => Ideal.div (cur2 v32 p c) (max (Ideal.sqrt (cur1 v34 p)) eps) := by
  unfold k0_pay10
  simp only [cur2_truncf, cur2_divRowBy]

set_option backward.isDefEq.respectTransparency.types false in
/-- The first in-edge step, from zero addresses and zero hidden state. -/
theorem pay13_eq (v3 : FVec Ideal S1024x1024 .f32) (v16 : FVec Ideal S384x384 .bf16) (v23 : Vec Ideal S384 .f32) (v28 : FVec Ideal S1024x128 .f32) (v32 : FVec Ideal S1024x128 .f32) (v34 : FVec Ideal S1024 .f32) :
    cur2 (k0_pay13 (F := Ideal) v3 v16 v23 v28 v32 v34)
      = stepInK (cur2 (k0_pay10 (F := Ideal) v32 v34)) (cur2 v28) (cur2 v3) (cur2 v16) (cur1 v23) zeros zeros := by
  unfold k0_pay13
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]
  rw [cur2_normRows]
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]
  rfl

theorem pay14_eq (v3 : FVec Ideal S1024x1024 .f32) (v16 : FVec Ideal S384x384 .bf16) (v23 : Vec Ideal S384 .f32) (v28 : FVec Ideal S1024x128 .f32) (v32 : FVec Ideal S1024x128 .f32) (v34 : FVec Ideal S1024 .f32) :
    cur2 (k0_pay14 (F := Ideal) v3 v16 v23 v28 v32 v34) = cols 128 (cur2 (k0_pay13 (F := Ideal) v3 v16 v23 v28 v32 v34)) := by
  unfold k0_pay14
  simp only [cur2_cols128]

theorem pay15_eq (v3 : FVec Ideal S1024x1024 .f32) (v16 : FVec Ideal S384x384 .bf16) (v23 : Vec Ideal S384 .f32) (v28 : FVec Ideal S1024x128 .f32) (v32 : FVec Ideal S1024x128 .f32) (v34 : FVec Ideal S1024 .f32) :
    cur2 (k0_pay15 (F := Ideal) v3 v16 v23 v28 v32 v34) = relu (cols 256 (cur2 (k0_pay13 (F := Ideal) v3 v16 v23 v28 v32 v34))) := by
  unfold k0_pay15
  simp only [cur2_relu, cur2_cols256]

set_option backward.isDefEq.respectTransparency.types false in
/-- The second in-edge step's row-normalised scores. -/
theorem pay16_eq (v3 : FVec Ideal S1024x1024 .f32) (v16 : FVec Ideal S384x384 .bf16) (v23 : Vec Ideal S384 .f32) (v28 : FVec Ideal S1024x128 .f32) (v32 : FVec Ideal S1024x128 .f32) (v34 : FVec Ideal S1024 .f32) :
    cur2 (k0_pay16 (F := Ideal) v3 v16 v23 v28 v32 v34)
      = normRows (scoresK (cur2 (k0_pay10 (F := Ideal) v32 v34)) (cur2 v3) (cur2 (k0_pay14 (F := Ideal) v3 v16 v23 v28 v32 v34))) := by
  unfold k0_pay16
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]
  rw [cur2_normRows]
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]
  rfl

set_option backward.isDefEq.respectTransparency.types false in
/-- The rest of the second in-edge step and the whole third: the in-edge aggregate. -/
theorem pay17_eq (v3 : FVec Ideal S1024x1024 .f32) (v16 : FVec Ideal S384x384 .bf16) (v23 : Vec Ideal S384 .f32) (v41 : FVec Ideal S1024x128 .bf16) (v42 : FVec Ideal S1024x128 .bf16) (v65 : FVec Ideal S1024x128 .f32) (v68 : FVec Ideal S1024x128 .f32) (v81 : FVec Ideal S1024x1024 .bf16) :
    cur2 (k0_pay17 (F := Ideal) v3 v16 v23 v41 v42 v65 v68 v81)
      = cols 0 (stepInK (cur2 v41) (cur2 v42) (cur2 v3) (cur2 v16) (cur1 v23)
          (cols 128 (attK (cur2 v16) (cur1 v23) (mm (cur2 v81) (cur2 v42)) (cur2 v65) (cur2 v68)))
          (relu (cols 256 (attK (cur2 v16) (cur1 v23) (mm (cur2 v81) (cur2 v42)) (cur2 v65) (cur2 v68))))) := by
  unfold k0_pay17
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]
  rw [cur2_normRows]
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]
  rfl

/-- The first out-edge step's masked scores. -/
theorem pay18_eq (v3 : FVec Ideal S1024x1024 .f32) (v41 : FVec Ideal S1024x128 .bf16) (v43 : FVec Ideal S1024x128 .f32) :
    cur2 (k0_pay18 (F := Ideal) v3 v41 v43) = scoresK (cur2 v41) (cur2 v3) (cur2 v43) := by
  unfold k0_pay18
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]
  rfl

set_option backward.isDefEq.respectTransparency.types false in
/-- Their columns' Euclidean norms. -/
theorem pay19_eq (v3 : FVec Ideal S1024x1024 .f32) (v41 : FVec Ideal S1024x128 .bf16) (v43 : FVec Ideal S1024x128 .f32) :
    row1 (k0_pay19 (F := Ideal) v3 v41 v43)
      = fun c => Ideal.sqrt (∑ q : Fin 1024, cur2 (k0_pay18 (F := Ideal) v3 v41 v43) q c * cur2 (k0_pay18 (F := Ideal) v3 v41 v43) q c) := by
  unfold k0_pay19
  simp only [row1_sqrtCast]
  rw [cur1_colSq]

theorem pay20_eq : row1 (k0_pay20 (F := Ideal)) = fun _ : Fin 1024 => eps := rfl

/-- The first out-edge step from its scores and their column norms. -/
theorem pay21_eq (v16 : FVec Ideal S384x384 .bf16) (v23 : Vec Ideal S384 .f32) (v42 : FVec Ideal S1024x128 .bf16) (v43 : FVec Ideal S1024x128 .f32) (v122 : FVec Ideal S1024x1024 .f32) (v126 : FVec Ideal S1x1024 .f32) (v127 : FVec Ideal S1x1024 .f32) :
    cur2 (k0_pay21 (F := Ideal) v16 v23 v42 v43 v122 v126 v127)
      = attK (cur2 v16) (cur1 v23) (mmL (fun p c => Ideal.div (cur2 v122 p c) (max (row1 v126 c) (row1 v127 c))) (cur2 v42)) (cur2 v43) (cur2 v43) := by
  unfold k0_pay21
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq, cur2_divColMax]
  rfl

set_option backward.isDefEq.respectTransparency.types false in
/-- The second out-edge step. -/
theorem pay22_eq (v3 : FVec Ideal S1024x1024 .f32) (v16 : FVec Ideal S384x384 .bf16) (v23 : Vec Ideal S384 .f32) (v41 : FVec Ideal S1024x128 .bf16) (v42 : FVec Ideal S1024x128 .bf16) (v43 : FVec Ideal S1024x128 .f32) (v122 : FVec Ideal S1024x1024 .f32) (v126 : FVec Ideal S1x1024 .f32) (v127 : FVec Ideal S1x1024 .f32) :
    cur2 (k0_pay22 (F := Ideal) v3 v16 v23 v41 v42 v43 v122 v126 v127)
      = stepOutK (cur2 v41) (cur2 v42) (cur2 v3) (cur2 v16) (cur1 v23)
          (cols 128 (cur2 (k0_pay21 (F := Ideal) v16 v23 v42 v43 v122 v126 v127)))
          (relu (cols 256 (cur2 (k0_pay21 (F := Ideal) v16 v23 v42 v43 v122 v126 v127)))) := by
  unfold k0_pay22
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]
  rw [cur2_normCols]
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]
  rfl

theorem pay23_eq (v3 : FVec Ideal S1024x1024 .f32) (v16 : FVec Ideal S384x384 .bf16) (v23 : Vec Ideal S384 .f32) (v41 : FVec Ideal S1024x128 .bf16) (v42 : FVec Ideal S1024x128 .bf16) (v43 : FVec Ideal S1024x128 .f32) (v122 : FVec Ideal S1024x1024 .f32) (v126 : FVec Ideal S1x1024 .f32) (v127 : FVec Ideal S1x1024 .f32) :
    cur2 (k0_pay23 (F := Ideal) v3 v16 v23 v41 v42 v43 v122 v126 v127) = cols 128 (cur2 (k0_pay22 (F := Ideal) v3 v16 v23 v41 v42 v43 v122 v126 v127)) := by
  unfold k0_pay23
  simp only [cur2_cols128]

theorem pay24_eq (v3 : FVec Ideal S1024x1024 .f32) (v16 : FVec Ideal S384x384 .bf16) (v23 : Vec Ideal S384 .f32) (v41 : FVec Ideal S1024x128 .bf16) (v42 : FVec Ideal S1024x128 .bf16) (v43 : FVec Ideal S1024x128 .f32) (v122 : FVec Ideal S1024x1024 .f32) (v126 : FVec Ideal S1x1024 .f32) (v127 : FVec Ideal S1x1024 .f32) :
    cur2 (k0_pay24 (F := Ideal) v3 v16 v23 v41 v42 v43 v122 v126 v127) = relu (cols 256 (cur2 (k0_pay22 (F := Ideal) v3 v16 v23 v41 v42 v43 v122 v126 v127))) := by
  unfold k0_pay24
  simp only [cur2_relu, cur2_cols256]

/-- The third out-edge step's masked scores. -/
theorem pay25_eq (v3 : FVec Ideal S1024x1024 .f32) (v16 : FVec Ideal S384x384 .bf16) (v23 : Vec Ideal S384 .f32) (v41 : FVec Ideal S1024x128 .bf16) (v42 : FVec Ideal S1024x128 .bf16) (v43 : FVec Ideal S1024x128 .f32) (v122 : FVec Ideal S1024x1024 .f32) (v126 : FVec Ideal S1x1024 .f32) (v127 : FVec Ideal S1x1024 .f32) :
    cur2 (k0_pay25 (F := Ideal) v3 v16 v23 v41 v42 v43 v122 v126 v127) = scoresK (cur2 v41) (cur2 v3) (cur2 (k0_pay23 (F := Ideal) v3 v16 v23 v41 v42 v43 v122 v126 v127)) := by
  unfold k0_pay25
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq]
  rfl

set_option backward.isDefEq.respectTransparency.types false in
/-- Their columns' sums of squares. -/
theorem pay26_eq (v3 : FVec Ideal S1024x1024 .f32) (v16 : FVec Ideal S384x384 .bf16) (v23 : Vec Ideal S384 .f32) (v41 : FVec Ideal S1024x128 .bf16) (v42 : FVec Ideal S1024x128 .bf16) (v43 : FVec Ideal S1024x128 .f32) (v122 : FVec Ideal S1024x1024 .f32) (v126 : FVec Ideal S1x1024 .f32) (v127 : FVec Ideal S1x1024 .f32) :
    cur1 (k0_pay26 (F := Ideal) v3 v16 v23 v41 v42 v43 v122 v126 v127)
      = fun c => ∑ q : Fin 1024, cur2 (k0_pay25 (F := Ideal) v3 v16 v23 v41 v42 v43 v122 v126 v127) q c * cur2 (k0_pay25 (F := Ideal) v3 v16 v23 v41 v42 v43 v122 v126 v127) q c := by
  unfold k0_pay26
  rw [cur1_colSq]

/-- The stored block: the third out-edge step finished, the nodes' own contribution, and the update. -/
theorem pay1_eq (v4 : FVec Ideal S1024x256 .bf16) (v13 : FVec Ideal S256x128 .bf16) (v16 : FVec Ideal S384x384 .bf16) (v19 : FVec Ideal S384x256 .bf16) (v22 : Vec Ideal S128 .f32) (v23 : Vec Ideal S384 .f32) (v24 : Vec Ideal S256 .f32) (v42 : FVec Ideal S1024x128 .bf16) (v114 : FVec Ideal S1024x128 .f32) (v165 : FVec Ideal S1024x128 .f32) (v168 : FVec Ideal S1024x128 .f32) (v172 : FVec Ideal S1024x1024 .f32) (v174 : FVec Ideal S1024 .f32)
    (u : Fin 1) (p : Fin 1024) (c : Fin 256) :
    k0_pay1 (F := Ideal) v4 v13 v16 v19 v22 v23 v24 v42 v114 v165 v168 v172 v174 (ix3 u p c)
      = relu (addRow (mm (cat3 (relu (cur2 v114)) (relu (addRow (mm (cur2 v4) (cur2 v13)) (cur1 v22)))
          (relu (cols 0 (attK (cur2 v16) (cur1 v23)
            (mmL (fun p c => Ideal.div (cur2 v172 p c) (max (Ideal.sqrt (cur1 v174 c)) eps)) (cur2 v42)) (cur2 v165) (cur2 v168)))))
          (cur2 v19)) (cur1 v24)) p c := by
  unfold k0_pay1
  rw [shapeCast_ab_1ab_apply]
  refine (apply_cur2 _ p c).trans (congrFun (congrFun ?_ p) c)
  simp only [cur2_truncf, cur2_addBias, cur2_relu, cur2_expMask, cur2_normRows, cur2_normCols, cur2_concat, cur2_cols0, cur2_cols128, cur2_cols256,
    cur2_mm_256_128, cur2_mm_1024_128, cur2_mm_384_384, cur2_mm_384_256, cur2_dot_rows, cur2_dot_cols, cur2_cast3, cur2_castSelf, pay11_eq, pay12_eq, cur2_divColBy]
  rfl

end Cert.KerStages

end
-- ==== Proof.KerBody.lean ====
/-
  The kernel body's stored block is the specification's result for the graph whose blocks it was given.

  The body's named values compose as the specification's stages do. With the inputs read off the blocks (the node
  features and the adjacency mask through their leading unit axis, each weight as the transpose of the block that
  holds it already transposed), the value chain reads: representations, unit addresses, the three in-edge steps
  (each step's result cut into aggregate, next addresses and rectified next hidden state), the three out-edge steps
  likewise with column normalisation, the nodes' own contribution, and the final update. Each link is one of the
  matrix equations of the body's named values, rewritten with the links before it.
-/
import proofs.«128754_j89326729822492_1_alg».proof.Proof.Gen.KernelIdeal.Frame
import proofs.«128754_j89326729822492_1_alg».proof.Proof.KerStages
import Idealize.ShloMosaic.Lib.Pipeline.Value

noncomputable section

namespace Cert.KerBody

open Idealize.ShloMosaic Idealize.ShloMosaic.ValueIdx Idealize.SL.Sem Cert.KernelIdeal Cert.KernelIdeal.Gen Cert.Spec Cert.KerOps Cert.KerStages

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The inputs of the graph whose blocks the body was given: the weights' blocks hold them transposed. -/
def inpBlk (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : Inp 1024 where
  nodes := cur3u x0
  adj := cur3u x1
  Wrep := tr (cur2 x2)
  brep := cur1 x3
  Waddr := tr (cur2 x4)
  baddr := cur1 x5
  Wnrep := tr (cur2 x6)
  bnrep := cur1 x7
  Watt := tr (cur2 x8)
  batt := cur1 x9
  Wupd := tr (cur2 x10)
  bupd := cur1 x11

/-! ## The body's named values, as terms of the blocks -/

abbrev Q2 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay2 (F := Ideal) x1
abbrev Q3 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay3 (F := Ideal) x0
abbrev Q4 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay4 (F := Ideal) x6
abbrev Q5 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay5 (F := Ideal) x8
abbrev Q6 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay6 (F := Ideal) x10
abbrev Q7 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay7 (F := Ideal) x0 x2 x3
abbrev Q8 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay8 (F := Ideal) x0 x4 x5
abbrev Q9 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay9 (F := Ideal) x0 x4 x5
abbrev Q10 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay10 (F := Ideal) (Q8 x0 x1 x2 x3 x4 x5 x6 x7 x8 x9 x10 x11) (Q9 x0 x1 x2 x3 x4 x5 x6 x7 x8 x9 x10 x11)
abbrev Q11 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay11 (F := Ideal) (Q7 x0 x1 x2 x3 x4 x5 x6 x7 x8 x9 x10 x11)
abbrev Q13 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay13 (F := Ideal) (Q2 x0 x1 x2 x3 x4 x5 x6 x7 x8 x9 x10 x11) (Q5 x0 x1 x2 x3 x4 x5 x6 x7 x8 x9 x10 x11) x9 (Q7 x0 x1 x2 x3 x4 x5 x6 x7 x8 x9 x10 x11) (Q8 x0 x1 x2 x3 x4 x5 x6 x7 x8 x9 x10 x11) (Q9 x0 x1 x2 x3 x4 x5 x6 x7 x8 x9 x10 x11)
abbrev Q14 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay14 (F := Ideal) (Q2 x0 x1 x2 x3 x4 x5 x6 x7 x8 x9 x10 x11) (Q5 x0 x1 x2 x3 x4 x5 x6 x7 x8 x9 x10 x11) x9 (Q7 x0 x1 x2 x3 x4 x5 x6 x7 x8 x9 x10 x11) (Q8 x0 x1 x2 x3 x4 x5 x6 x7 x8 x9 x10 x11) (Q9 x0 x1 x2 x3 x4 x5 x6 x7 x8 x9 x10 x11)
abbrev Q15 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay15 (F := Ideal) (Q2 x0 x1 x2 x3 x4 x5 x6 x7 x8 x9 x10 x11) (Q5 x0 x1 x2 x3 x4 x5 x6 x7 x8 x9 x10 x11) x9 (Q7 x0 x1 x2 x3 x4 x5 x6 x7 x8 x9 x10 x11) (Q8 x0 x1 x2 x3 x4 x5 x6 x7 x8 x9 x10 x11) (Q9 x0 x1 x2 x3 x4 x5 x6 x7 x8 x9 x10 x11)
abbrev Q16 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay16 (F := Ideal) (Q2 x0 x1 x2 x3 x4 x5 x6 x7 x8 x9 x10 x11) (Q5 x0 x1 x2 x3 x4 x5 x6 x7 x8 x9 x10 x11) x9 (Q7 x0 x1 x2 x3 x4 x5 x6 x7 x8 x9 x10 x11) (Q8 x0 x1 x2 x3 x4 x5 x6 x7 x8 x9 x10 x11) (Q9 x0 x1 x2 x3 x4 x5 x6 x7 x8 x9 x10 x11)
abbrev Q17 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay17 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (Q14 x0 x1 x2 x3 x4 x5 x6 x7 x8 x9 x10 x11) (Q15 x0 x1 x2 x3 x4 x5 x6 x7 x8 x9 x10 x11) (Q16 x0 x1 x2 x3 x4 x5 x6 x7 x8 x9 x10 x11)
abbrev Q18 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay18 (F := Ideal) (Q2 x0 x1 x2 x3 x4 x5 x6 x7 x8 x9 x10 x11) (Q10 x0 x1 x2 x3 x4 x5 x6 x7 x8 x9 x10 x11) (k0_pay12 (F := Ideal))
abbrev Q19 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay19 (F := Ideal) (Q2 x0 x1 x2 x3 x4 x5 x6 x7 x8 x9 x10 x11) (Q10 x0 x1 x2 x3 x4 x5 x6 x7 x8 x9 x10 x11) (k0_pay12 (F := Ideal))
abbrev Q21 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay21 (F := Ideal) (Q5 x0 x1 x2 x3 x4 x5 x6 x7 x8 x9 x10 x11) x9 (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal))
abbrev Q22 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay22 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal))
abbrev Q23 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay23 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal))
abbrev Q24 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay24 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal))
abbrev Q25 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay25 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal))
abbrev Q26 (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) := k0_pay26 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal))

/-! ## The chain -/

theorem rep_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q7 x0 x1 x2 x3 x4 x5 x6 x7 x8 x9 x10 x11) = rep (inpBlk x0 x1 x2 x3 x4 x5 x6 x7 x8 x9 x10 x11) := (pay7_eq x0 x2 x3).trans rfl

theorem rep_eq' (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q11 x0 x1 x2 x3 x4 x5 x6 x7 x8 x9 x10 x11) = rep (inpBlk x0 x1 x2 x3 x4 x5 x6 x7 x8 x9 x10 x11) := by
  exact (pay11_eq (Q7 x0 x1 x2 x3 x4 x5 x6 x7 x8 x9 x10 x11)).trans (rep_eq x0 x1 x2 x3 x4 x5 x6 x7 x8 x9 x10 x11)

theorem addrFeat_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q8 x0 x1 x2 x3 x4 x5 x6 x7 x8 x9 x10 x11) = addRow (mmR (inpBlk x0 x1 x2 x3 x4 x5 x6 x7 x8 x9 x10 x11).nodes (inpBlk x0 x1 x2 x3 x4 x5 x6 x7 x8 x9 x10 x11).Waddr) (inpBlk x0 x1 x2 x3 x4 x5 x6 x7 x8 x9 x10 x11).baddr := (pay8_eq x0 x4 x5).trans rfl

theorem nodeAddr_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q10 x0 x1 x2 x3 x4 x5 x6 x7 x8 x9 x10 x11) = nodeAddr (inpBlk x0 x1 x2 x3 x4 x5 x6 x7 x8 x9 x10 x11) := by
  rw [show Q10 x0 x1 x2 x3 x4 x5 x6 x7 x8 x9 x10 x11 = k0_pay10 (F := Ideal) (Q8 x0 x1 x2 x3 x4 x5 x6 x7 x8 x9 x10 x11) (Q9 x0 x1 x2 x3 x4 x5 x6 x7 x8 x9 x10 x11) from rfl, pay10_eq,
    show Q9 x0 x1 x2 x3 x4 x5 x6 x7 x8 x9 x10 x11 = k0_pay9 (F := Ideal) x0 x4 x5 from rfl, pay9_eq, addrFeat_eq]
  rfl

theorem in0_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q13 x0 x1 x2 x3 x4 x5 x6 x7 x8 x9 x10 x11) = in0 (inpBlk x0 x1 x2 x3 x4 x5 x6 x7 x8 x9 x10 x11) := by
  rw [show Q13 x0 x1 x2 x3 x4 x5 x6 x7 x8 x9 x10 x11 = k0_pay13 (F := Ideal) (Q2 x0 x1 x2 x3 x4 x5 x6 x7 x8 x9 x10 x11) (Q5 x0 x1 x2 x3 x4 x5 x6 x7 x8 x9 x10 x11) x9 (Q7 x0 x1 x2 x3 x4 x5 x6 x7 x8 x9 x10 x11) (Q8 x0 x1 x2 x3 x4 x5 x6 x7 x8 x9 x10 x11) (Q9 x0 x1 x2 x3 x4 x5 x6 x7 x8 x9 x10 x11) from rfl, pay13_eq, nodeAddr_eq, rep_eq, pay2_eq, pay5_eq]
  rfl

theorem addr1_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q14 x0 x1 x2 x3 x4 x5 x6 x7 x8 x9 x10 x11) = cols 128 (in0 (inpBlk x0 x1 x2 x3 x4 x5 x6 x7 x8 x9 x10 x11)) := by
  rw [show Q14 x0 x1 x2 x3 x4 x5 x6 x7 x8 x9 x10 x11 = k0_pay14 (F := Ideal) (Q2 x0 x1 x2 x3 x4 x5 x6 x7 x8 x9 x10 x11) (Q5 x0 x1 x2 x3 x4 x5 x6 x7 x8 x9 x10 x11) x9 (Q7 x0 x1 x2 x3 x4 x5 x6 x7 x8 x9 x10 x11) (Q8 x0 x1 x2 x3 x4 x5 x6 x7 x8 x9 x10 x11) (Q9 x0 x1 x2 x3 x4 x5 x6 x7 x8 x9 x10 x11) from rfl, pay14_eq, in0_eq]

theorem hid1_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q15 x0 x1 x2 x3 x4 x5 x6 x7 x8 x9 x10 x11) = relu (cols 256 (in0 (inpBlk x0 x1 x2 x3 x4 x5 x6 x7 x8 x9 x10 x11))) := by
  rw [show Q15 x0 x1 x2 x3 x4 x5 x6 x7 x8 x9 x10 x11 = k0_pay15 (F := Ideal) (Q2 x0 x1 x2 x3 x4 x5 x6 x7 x8 x9 x10 x11) (Q5 x0 x1 x2 x3 x4 x5 x6 x7 x8 x9 x10 x11) x9 (Q7 x0 x1 x2 x3 x4 x5 x6 x7 x8 x9 x10 x11) (Q8 x0 x1 x2 x3 x4 x5 x6 x7 x8 x9 x10 x11) (Q9 x0 x1 x2 x3 x4 x5 x6 x7 x8 x9 x10 x11) from rfl, pay15_eq, in0_eq]

theorem dpn1_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q16 x0 x1 x2 x3 x4 x5 x6 x7 x8 x9 x10 x11) = normRows (scores (inpBlk x0 x1 x2 x3 x4 x5 x6 x7 x8 x9 x10 x11) (cols 128 (in0 (inpBlk x0 x1 x2 x3 x4 x5 x6 x7 x8 x9 x10 x11)))) := by
  rw [show Q16 x0 x1 x2 x3 x4 x5 x6 x7 x8 x9 x10 x11 = k0_pay16 (F := Ideal) (Q2 x0 x1 x2 x3 x4 x5 x6 x7 x8 x9 x10 x11) (Q5 x0 x1 x2 x3 x4 x5 x6 x7 x8 x9 x10 x11) x9 (Q7 x0 x1 x2 x3 x4 x5 x6 x7 x8 x9 x10 x11) (Q8 x0 x1 x2 x3 x4 x5 x6 x7 x8 x9 x10 x11) (Q9 x0 x1 x2 x3 x4 x5 x6 x7 x8 x9 x10 x11) from rfl, pay16_eq, nodeAddr_eq, pay2_eq, addr1_eq]
  rfl

theorem aggIn_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q17 x0 x1 x2 x3 x4 x5 x6 x7 x8 x9 x10 x11) = cols 0 (in2 (inpBlk x0 x1 x2 x3 x4 x5 x6 x7 x8 x9 x10 x11)) := by
  rw [show Q17 x0 x1 x2 x3 x4 x5 x6 x7 x8 x9 x10 x11 = k0_pay17 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (Q14 x0 x1 x2 x3 x4 x5 x6 x7 x8 x9 x10 x11) (Q15 x0 x1 x2 x3 x4 x5 x6 x7 x8 x9 x10 x11) (Q16 x0 x1 x2 x3 x4 x5 x6 x7 x8 x9 x10 x11) from rfl,
    pay17_eq, pay2_eq, pay5_eq, nodeAddr_eq, rep_eq', addr1_eq, hid1_eq, dpn1_eq]
  rfl

theorem scores0_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q18 x0 x1 x2 x3 x4 x5 x6 x7 x8 x9 x10 x11) = scores (inpBlk x0 x1 x2 x3 x4 x5 x6 x7 x8 x9 x10 x11) zeros := by
  rw [show Q18 x0 x1 x2 x3 x4 x5 x6 x7 x8 x9 x10 x11 = k0_pay18 (F := Ideal) (Q2 x0 x1 x2 x3 x4 x5 x6 x7 x8 x9 x10 x11) (Q10 x0 x1 x2 x3 x4 x5 x6 x7 x8 x9 x10 x11) (k0_pay12 (F := Ideal)) from rfl, pay18_eq, nodeAddr_eq, pay2_eq, pay12_eq]
  rfl

theorem colNorm0_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) :
    row1 (Q19 x0 x1 x2 x3 x4 x5 x6 x7 x8 x9 x10 x11) = fun c => Ideal.sqrt (∑ q : Fin 1024, scores (inpBlk x0 x1 x2 x3 x4 x5 x6 x7 x8 x9 x10 x11) zeros q c * scores (inpBlk x0 x1 x2 x3 x4 x5 x6 x7 x8 x9 x10 x11) zeros q c) := by
  rw [show Q19 x0 x1 x2 x3 x4 x5 x6 x7 x8 x9 x10 x11 = k0_pay19 (F := Ideal) (Q2 x0 x1 x2 x3 x4 x5 x6 x7 x8 x9 x10 x11) (Q10 x0 x1 x2 x3 x4 x5 x6 x7 x8 x9 x10 x11) (k0_pay12 (F := Ideal)) from rfl, pay19_eq,
    show k0_pay18 (F := Ideal) (Q2 x0 x1 x2 x3 x4 x5 x6 x7 x8 x9 x10 x11) (Q10 x0 x1 x2 x3 x4 x5 x6 x7 x8 x9 x10 x11) (k0_pay12 (F := Ideal)) = Q18 x0 x1 x2 x3 x4 x5 x6 x7 x8 x9 x10 x11 from rfl, scores0_eq]

theorem out0_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q21 x0 x1 x2 x3 x4 x5 x6 x7 x8 x9 x10 x11) = out0 (inpBlk x0 x1 x2 x3 x4 x5 x6 x7 x8 x9 x10 x11) := by
  rw [show Q21 x0 x1 x2 x3 x4 x5 x6 x7 x8 x9 x10 x11 = k0_pay21 (F := Ideal) (Q5 x0 x1 x2 x3 x4 x5 x6 x7 x8 x9 x10 x11) x9 (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) from rfl,
    pay21_eq, pay5_eq, rep_eq', pay12_eq, scores0_eq, colNorm0_eq, pay20_eq]
  rfl

theorem out1_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q22 x0 x1 x2 x3 x4 x5 x6 x7 x8 x9 x10 x11) = out1 (inpBlk x0 x1 x2 x3 x4 x5 x6 x7 x8 x9 x10 x11) := by
  rw [show Q22 x0 x1 x2 x3 x4 x5 x6 x7 x8 x9 x10 x11 = k0_pay22 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) from rfl, pay22_eq, pay2_eq, pay5_eq, nodeAddr_eq, rep_eq',
    show k0_pay21 (F := Ideal) (Q5 x0 x1 x2 x3 x4 x5 x6 x7 x8 x9 x10 x11) x9 (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) = Q21 x0 x1 x2 x3 x4 x5 x6 x7 x8 x9 x10 x11 from rfl, out0_eq]
  rfl

theorem addr2o_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q23 x0 x1 x2 x3 x4 x5 x6 x7 x8 x9 x10 x11) = cols 128 (out1 (inpBlk x0 x1 x2 x3 x4 x5 x6 x7 x8 x9 x10 x11)) := by
  rw [show Q23 x0 x1 x2 x3 x4 x5 x6 x7 x8 x9 x10 x11 = k0_pay23 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) from rfl, pay23_eq,
    show k0_pay22 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) = Q22 x0 x1 x2 x3 x4 x5 x6 x7 x8 x9 x10 x11 from rfl, out1_eq]

theorem hid2o_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q24 x0 x1 x2 x3 x4 x5 x6 x7 x8 x9 x10 x11) = relu (cols 256 (out1 (inpBlk x0 x1 x2 x3 x4 x5 x6 x7 x8 x9 x10 x11))) := by
  rw [show Q24 x0 x1 x2 x3 x4 x5 x6 x7 x8 x9 x10 x11 = k0_pay24 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) from rfl, pay24_eq,
    show k0_pay22 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) = Q22 x0 x1 x2 x3 x4 x5 x6 x7 x8 x9 x10 x11 from rfl, out1_eq]

theorem scores2o_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) : cur2 (Q25 x0 x1 x2 x3 x4 x5 x6 x7 x8 x9 x10 x11) = scores (inpBlk x0 x1 x2 x3 x4 x5 x6 x7 x8 x9 x10 x11) (cols 128 (out1 (inpBlk x0 x1 x2 x3 x4 x5 x6 x7 x8 x9 x10 x11))) := by
  rw [show Q25 x0 x1 x2 x3 x4 x5 x6 x7 x8 x9 x10 x11 = k0_pay25 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) from rfl, pay25_eq, nodeAddr_eq, pay2_eq,
    show k0_pay23 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) = Q23 x0 x1 x2 x3 x4 x5 x6 x7 x8 x9 x10 x11 from rfl, addr2o_eq]
  rfl

theorem colSq2o_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) :
    cur1 (Q26 x0 x1 x2 x3 x4 x5 x6 x7 x8 x9 x10 x11) = fun c => ∑ q : Fin 1024, scores (inpBlk x0 x1 x2 x3 x4 x5 x6 x7 x8 x9 x10 x11) (cols 128 (out1 (inpBlk x0 x1 x2 x3 x4 x5 x6 x7 x8 x9 x10 x11))) q c * scores (inpBlk x0 x1 x2 x3 x4 x5 x6 x7 x8 x9 x10 x11) (cols 128 (out1 (inpBlk x0 x1 x2 x3 x4 x5 x6 x7 x8 x9 x10 x11))) q c := by
  rw [show Q26 x0 x1 x2 x3 x4 x5 x6 x7 x8 x9 x10 x11 = k0_pay26 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) from rfl, pay26_eq,
    show k0_pay25 (F := Ideal) (Q2 x0 x1 x2 x3 x4 x5 x6 x7 x8 x9 x10 x11) (Q5 x0 x1 x2 x3 x4 x5 x6 x7 x8 x9 x10 x11) x9 (Q10 x0 x1 x2 x3 x4 x5 x6 x7 x8 x9 x10 x11) (Q11 x0 x1 x2 x3 x4 x5 x6 x7 x8 x9 x10 x11) (k0_pay12 (F := Ideal)) (Q18 x0 x1 x2 x3 x4 x5 x6 x7 x8 x9 x10 x11) (Q19 x0 x1 x2 x3 x4 x5 x6 x7 x8 x9 x10 x11) (k0_pay20 (F := Ideal)) = Q25 x0 x1 x2 x3 x4 x5 x6 x7 x8 x9 x10 x11 from rfl, scores2o_eq]

/-- The body's stored block, read at `(u, p, c)`, is the specification's result at `(p, c)` for the blocks' graph. -/
theorem body_eq (x0 : Vec Ideal S1x1024x256 .f32) (x1 : Vec Ideal S1x1024x1024 .f32) (x2 : Vec Ideal S256x128 .f32) (x3 : Vec Ideal S128 .f32) (x4 : Vec Ideal S256x128 .f32) (x5 : Vec Ideal S128 .f32) (x6 : Vec Ideal S256x128 .f32) (x7 : Vec Ideal S128 .f32) (x8 : Vec Ideal S384x384 .f32) (x9 : Vec Ideal S384 .f32) (x10 : Vec Ideal S384x256 .f32) (x11 : Vec Ideal S256 .f32) (u : Fin 1) (p : Fin 1024) (c : Fin 256) :
    out0_12 (F := Ideal) x0 x1 x2 x3 x4 x5 x6 x7 x8 x9 x10 x11 (ix3 u p c) = result (inpBlk x0 x1 x2 x3 x4 x5 x6 x7 x8 x9 x10 x11) p c := by
  unfold out0_12
  rw [View.canon_unit_zero hz3]
  simp only [View.ld_unit_zero (S := S1x1024x256) hz3, View.ld_unit_zero (S := S1x1024x1024) hz3, View.ld_unit_zero (S := S256x128) hz2,
    View.ld_unit_zero (S := S384x384) hz2, View.ld_unit_zero (S := S384x256) hz2, View.ld_unit_zero (S := S128) hz1,
    View.ld_unit_zero (S := S384) hz1, View.ld_unit_zero (S := S256) hz1]
  refine (pay1_eq (Q3 x0 x1 x2 x3 x4 x5 x6 x7 x8 x9 x10 x11) (Q4 x0 x1 x2 x3 x4 x5 x6 x7 x8 x9 x10 x11) (Q5 x0 x1 x2 x3 x4 x5 x6 x7 x8 x9 x10 x11) (Q6 x0 x1 x2 x3 x4 x5 x6 x7 x8 x9 x10 x11) x7 x9 x11 (Q11 x0 x1 x2 x3 x4 x5 x6 x7 x8 x9 x10 x11) (Q17 x0 x1 x2 x3 x4 x5 x6 x7 x8 x9 x10 x11) (Q23 x0 x1 x2 x3 x4 x5 x6 x7 x8 x9 x10 x11) (Q24 x0 x1 x2 x3 x4 x5 x6 x7 x8 x9 x10 x11) (Q25 x0 x1 x2 x3 x4 x5 x6 x7 x8 x9 x10 x11) (Q26 x0 x1 x2 x3 x4 x5 x6 x7 x8 x9 x10 x11) u p c).trans ?_
  rw [aggIn_eq, pay3_eq, pay4_eq, pay5_eq, pay6_eq, rep_eq', addr2o_eq, hid2o_eq, scores2o_eq, colSq2o_eq]
  rfl

end Cert.KerBody

end
-- ==== Proof.KerValue.lean ====
/-
  The kernel's result array is the specification's result of each graph, for all sixteen graphs.

  The grid has one point per graph. Point `t` is given graph `t`'s node features and adjacency mask as its blocks and
  the whole of every weight and bias; the weights reach it transposed by the host before the launch. It writes back
  the block of the result array that is graph `t`'s. The sixteen blocks are disjoint and cover the array, so after the
  run the array holds, at `(g, p, c)`, the specification's result for graph `g` at `(p, c)`.
-/
import proofs.«128754_j89326729822492_1_alg».proof.Proof.Gen.KernelIdeal.Value
import proofs.«128754_j89326729822492_1_alg».proof.Proof.KerBody
import Idealize.ShloMosaic.Lib.StableHlo.Run
import Idealize.ShloMosaic.Lib.ValueLayout

noncomputable section

namespace Cert.KerValue

open Cert.KernelIdeal Cert.KernelIdeal.Gen Idealize.ShloMosaic Idealize.ShloMosaic.TcCoe Idealize.SL.Sem Idealize.ShloMosaic.StableHlo
open Idealize.ShloMosaic.ValueIdx Cert.Spec Cert.KerOps Cert.KerBody
open Idealize.ShloMosaic.Pipeline (Dat)

variable (m : (ℓ : Loc nD τ sig) → Buf (Elt Ideal) ℓ) (ρ : Dev nD → PrngReg)

/-- The result array as one function of the twelve argument arrays: graph `g`'s result at `(g, p, c)`. -/
def G (a0 : S16x1024x256.Idx → EReal) (a1 : S16x1024x1024.Idx → EReal) (a2 : S128x256.Idx → EReal) (a3 : S128.Idx → EReal)
    (a4 : S128x256.Idx → EReal) (a5 : S128.Idx → EReal) (a6 : S128x256.Idx → EReal) (a7 : S128.Idx → EReal)
    (a8 : S384x384.Idx → EReal) (a9 : S384.Idx → EReal) (a10 : S256x384.Idx → EReal) (a11 : S256.Idx → EReal) :
    S16x1024x256.Idx → EReal :=
  fun i => result (inpAt a0 a1 a2 a3 a4 a5 a6 a7 a8 a9 a10 a11 ⟨(i 0).val, (i 0).isLt⟩) ⟨(i 1).val, (i 1).isLt⟩ ⟨(i 2).val, (i 2).isLt⟩

/-- The grid point as a graph number. -/
def gOf (t : Fin cfg0.N) : Fin 16 := ⟨t.val, by have h := t.isLt; have hN : cfg0.N = 16 := N_0; omega⟩

/-! ## The index maps, decided over the sixteen points -/

theorem idx_w0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_w1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx_w12 : ∀ t : Fin cfg0.N, win0_12.index t (0 : Fin 3) = t.val ∧ win0_12.index t (1 : Fin 3) = 0 ∧ win0_12.index t (2 : Fin 3) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 1) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 1) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 1) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w9 : ∀ t : Fin cfg0.N, win0_9.index t (0 : Fin 1) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w11 : ∀ t : Fin cfg0.N, win0_11.index t (0 : Fin 1) = 0 :=
  (by decide +kernel : ∀ t : Fin grid0.N, _)

/-! ## The blocks a point is given, in terms of the argument arrays -/

/-- Window 0's block at point `t` is graph `t`'s node features. -/
theorem blk0_entry (c : Dev nD) (t : Fin cfg0.N) (p : Fin 1024) (k : Fin 256) :
    iblk m c 0 t (ix3 (0 : Fin 1) p k) = m ((c : Thread nD τ).loc main_arg0) (ix3 (gOf t) p k) := by
  obtain ⟨e0, e1, e2⟩ := idx_w0 t
  show V m c main_arg0 (((cfg0.win 0).blk t).view.emb (ix3 (0 : Fin 1) p k)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 256 + 1 * k.val = k.val; omega

/-- Window 1's block at point `t` is graph `t`'s adjacency mask. -/
theorem blk1_entry (c : Dev nD) (t : Fin cfg0.N) (p : Fin 1024) (k : Fin 1024) :
    iblk m c 1 t (ix3 (0 : Fin 1) p k) = m ((c : Thread nD τ).loc main_arg1) (ix3 (gOf t) p k) := by
  obtain ⟨e0, e1, e2⟩ := idx_w1 t
  show V m c main_arg1 (((cfg0.win 1).blk t).view.emb (ix3 (0 : Fin 1) p k)) = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 1024 + 1 * p.val = p.val; omega
  | ⟨2, _⟩ => show win0_1.index t (2 : Fin 3) * 1024 + 1 * k.val = k.val; omega

/-- Window 2 holds the whole of the transposed weight: its entry `(k, r)` is the argument's entry `(r, k)`. -/
theorem blk2_entry (c : Dev nD) (t : Fin cfg0.N) (k : Fin 256) (r : Fin 128) :
    iblk m c 2 t (ix2 k r) = m ((c : Thread nD τ).loc main_arg2) (ix2 r k) := by
  obtain ⟨e0, e1⟩ := idx_w2 t
  have e : (V m c main_v0 : S256x128.Idx → EReal) = transpose S256x128 [1, 0] (m ((c : Thread nD τ).loc main_arg2)) transposes_S128x256_S256x128_1_0 := by
    dsimp only [Gen.V, Gen.hostOps0]; after_results
  show V m c main_v0 (((cfg0.win 2).blk t).view.emb (ix2 k r)) = _
  rw [e]
  have hi : ((cfg0.win 2).blk t).view.emb (ix2 k r) = ix2 k r := by
    funext a; apply Fin.ext
    match a with
    | ⟨0, _⟩ => show win0_2.index t (0 : Fin 2) * 256 + 1 * k.val = k.val; omega
    | ⟨1, _⟩ => show win0_2.index t (1 : Fin 2) * 128 + 1 * r.val = r.val; omega
  rw [hi]
  exact transpose_ix2_apply _ _ k r

/-- Window 4 holds the whole of the transposed weight: its entry `(k, r)` is the argument's entry `(r, k)`. -/
theorem blk4_entry (c : Dev nD) (t : Fin cfg0.N) (k : Fin 256) (r : Fin 128) :
    iblk m c 4 t (ix2 k r) = m ((c : Thread nD τ).loc main_arg4) (ix2 r k) := by
  obtain ⟨e0, e1⟩ := idx_w4 t
  have e : (V m c main_v1 : S256x128.Idx → EReal) = transpose S256x128 [1, 0] (m ((c : Thread nD τ).loc main_arg4)) transposes_S128x256_S256x128_1_0 := by
    dsimp only [Gen.V, Gen.hostOps0]; after_results
  show V m c main_v1 (((cfg0.win 4).blk t).view.emb (ix2 k r)) = _
  rw [e]
  have hi : ((cfg0.win 4).blk t).view.emb (ix2 k r) = ix2 k r := by
    funext a; apply Fin.ext
    match a with
    | ⟨0, _⟩ => show win0_4.index t (0 : Fin 2) * 256 + 1 * k.val = k.val; omega
    | ⟨1, _⟩ => show win0_4.index t (1 : Fin 2) * 128 + 1 * r.val = r.val; omega
  rw [hi]
  exact transpose_ix2_apply _ _ k r

/-- Window 6 holds the whole of the transposed weight: its entry `(k, r)` is the argument's entry `(r, k)`. -/
theorem blk6_entry (c : Dev nD) (t : Fin cfg0.N) (k : Fin 256) (r : Fin 128) :
    iblk m c 6 t (ix2 k r) = m ((c : Thread nD τ).loc main_arg6) (ix2 r k) := by
  obtain ⟨e0, e1⟩ := idx_w6 t
  have e : (V m c main_v2 : S256x128.Idx → EReal) = transpose S256x128 [1, 0] (m ((c : Thread nD τ).loc main_arg6)) transposes_S128x256_S256x128_1_0 := by
    dsimp only [Gen.V, Gen.hostOps0]; after_results
  show V m c main_v2 (((cfg0.win 6).blk t).view.emb (ix2 k r)) = _
  rw [e]
  have hi : ((cfg0.win 6).blk t).view.emb (ix2 k r) = ix2 k r := by
    funext a; apply Fin.ext
    match a with
    | ⟨0, _⟩ => show win0_6.index t (0 : Fin 2) * 256 + 1 * k.val = k.val; omega
    | ⟨1, _⟩ => show win0_6.index t (1 : Fin 2) * 128 + 1 * r.val = r.val; omega
  rw [hi]
  exact transpose_ix2_apply _ _ k r

/-- Window 8 holds the whole of the transposed weight: its entry `(k, r)` is the argument's entry `(r, k)`. -/
theorem blk8_entry (c : Dev nD) (t : Fin cfg0.N) (k : Fin 384) (r : Fin 384) :
    iblk m c 8 t (ix2 k r) = m ((c : Thread nD τ).loc main_arg8) (ix2 r k) := by
  obtain ⟨e0, e1⟩ := idx_w8 t
  have e : (V m c main_v3 : S384x384.Idx → EReal) = transpose S384x384 [1, 0] (m ((c : Thread nD τ).loc main_arg8)) transposes_S384x384_S384x384_1_0 := by
    dsimp only [Gen.V, Gen.hostOps0]; after_results
  show V m c main_v3 (((cfg0.win 8).blk t).view.emb (ix2 k r)) = _
  rw [e]
  have hi : ((cfg0.win 8).blk t).view.emb (ix2 k r) = ix2 k r := by
    funext a; apply Fin.ext
    match a with
    | ⟨0, _⟩ => show win0_8.index t (0 : Fin 2) * 384 + 1 * k.val = k.val; omega
    | ⟨1, _⟩ => show win0_8.index t (1 : Fin 2) * 384 + 1 * r.val = r.val; omega
  rw [hi]
  exact transpose_ix2_apply _ _ k r

/-- Window 10 holds the whole of the transposed weight: its entry `(k, r)` is the argument's entry `(r, k)`. -/
theorem blk10_entry (c : Dev nD) (t : Fin cfg0.N) (k : Fin 384) (r : Fin 256) :
    iblk m c 10 t (ix2 k r) = m ((c : Thread nD τ).loc main_arg10) (ix2 r k) := by
  obtain ⟨e0, e1⟩ := idx_w10 t
  have e : (V m c main_v4 : S384x256.Idx → EReal) = transpose S384x256 [1, 0] (m ((c : Thread nD τ).loc main_arg10)) transposes_S256x384_S384x256_1_0 := by
    dsimp only [Gen.V, Gen.hostOps0]; after_results
  show V m c main_v4 (((cfg0.win 10).blk t).view.emb (ix2 k r)) = _
  rw [e]
  have hi : ((cfg0.win 10).blk t).view.emb (ix2 k r) = ix2 k r := by
    funext a; apply Fin.ext
    match a with
    | ⟨0, _⟩ => show win0_10.index t (0 : Fin 2) * 384 + 1 * k.val = k.val; omega
    | ⟨1, _⟩ => show win0_10.index t (1 : Fin 2) * 256 + 1 * r.val = r.val; omega
  rw [hi]
  exact transpose_ix2_apply _ _ k r

/-- Window 3 holds the whole bias vector. -/
theorem blk3_entry (c : Dev nD) (t : Fin cfg0.N) (r : Fin 128) :
    iblk m c 3 t (ix1 r) = m ((c : Thread nD τ).loc main_arg3) (ix1 r) := by
  have e0 := idx_w3 t
  show V m c main_arg3 (((cfg0.win 3).blk t).view.emb (ix1 r)) = _
  rw [V_main_arg3]
  refine congrArg _ (funext fun a => Fin.ext ?_)
  match a with
  | ⟨0, _⟩ => show win0_3.index t (0 : Fin 1) * 128 + 1 * r.val = r.val; omega

/-- Window 5 holds the whole bias vector. -/
theorem blk5_entry (c : Dev nD) (t : Fin cfg0.N) (r : Fin 128) :
    iblk m c 5 t (ix1 r) = m ((c : Thread nD τ).loc main_arg5) (ix1 r) := by
  have e0 := idx_w5 t
  show V m c main_arg5 (((cfg0.win 5).blk t).view.emb (ix1 r)) = _
  rw [V_main_arg5]
  refine congrArg _ (funext fun a => Fin.ext ?_)
  match a with
  | ⟨0, _⟩ => show win0_5.index t (0 : Fin 1) * 128 + 1 * r.val = r.val; omega

/-- Window 7 holds the whole bias vector. -/
theorem blk7_entry (c : Dev nD) (t : Fin cfg0.N) (r : Fin 128) :
    iblk m c 7 t (ix1 r) = m ((c : Thread nD τ).loc main_arg7) (ix1 r) := by
  have e0 := idx_w7 t
  show V m c main_arg7 (((cfg0.win 7).blk t).view.emb (ix1 r)) = _
  rw [V_main_arg7]
  refine congrArg _ (funext fun a => Fin.ext ?_)
  match a with
  | ⟨0, _⟩ => show win0_7.index t (0 : Fin 1) * 128 + 1 * r.val = r.val; omega

/-- Window 9 holds the whole bias vector. -/
theorem blk9_entry (c : Dev nD) (t : Fin cfg0.N) (r : Fin 384) :
    iblk m c 9 t (ix1 r) = m ((c : Thread nD τ).loc main_arg9) (ix1 r) := by
  have e0 := idx_w9 t
  show V m c main_arg9 (((cfg0.win 9).blk t).view.emb (ix1 r)) = _
  rw [V_main_arg9]
  refine congrArg _ (funext fun a => Fin.ext ?_)
  match a with
  | ⟨0, _⟩ => show win0_9.index t (0 : Fin 1) * 384 + 1 * r.val = r.val; omega

/-- Window 11 holds the whole bias vector. -/
theorem blk11_entry (c : Dev nD) (t : Fin cfg0.N) (r : Fin 256) :
    iblk m c 11 t (ix1 r) = m ((c : Thread nD τ).loc main_arg11) (ix1 r) := by
  have e0 := idx_w11 t
  show V m c main_arg11 (((cfg0.win 11).blk t).view.emb (ix1 r)) = _
  rw [V_main_arg11]
  refine congrArg _ (funext fun a => Fin.ext ?_)
  match a with
  | ⟨0, _⟩ => show win0_11.index t (0 : Fin 1) * 256 + 1 * r.val = r.val; omega

/-- The inputs the body reads off its blocks at point `t` are graph `t`'s inputs read off the argument arrays. -/
theorem inp_eq (c : Dev nD) (t : Fin cfg0.N) :
    inpBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) = inpAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (gOf t) := by
  have h0 : cur3u (iblk m c 0 t) = fun p k => (m ((c : Thread nD τ).loc main_arg0)) (ix3 (gOf t) p k) := funext fun p => funext fun k => blk0_entry m c t p k
  have h1 : cur3u (iblk m c 1 t) = fun p k => (m ((c : Thread nD τ).loc main_arg1)) (ix3 (gOf t) p k) := funext fun p => funext fun k => blk1_entry m c t p k
  have h2 : tr (cur2 (iblk m c 2 t)) = fun p k => (m ((c : Thread nD τ).loc main_arg2)) (ix2 p k) := funext fun p => funext fun k => blk2_entry m c t k p
  have h3 : cur1 (iblk m c 3 t) = fun r => (m ((c : Thread nD τ).loc main_arg3)) (ix1 r) := funext fun r => blk3_entry m c t r
  have h4 : tr (cur2 (iblk m c 4 t)) = fun p k => (m ((c : Thread nD τ).loc main_arg4)) (ix2 p k) := funext fun p => funext fun k => blk4_entry m c t k p
  have h5 : cur1 (iblk m c 5 t) = fun r => (m ((c : Thread nD τ).loc main_arg5)) (ix1 r) := funext fun r => blk5_entry m c t r
  have h6 : tr (cur2 (iblk m c 6 t)) = fun p k => (m ((c : Thread nD τ).loc main_arg6)) (ix2 p k) := funext fun p => funext fun k => blk6_entry m c t k p
  have h7 : cur1 (iblk m c 7 t) = fun r => (m ((c : Thread nD τ).loc main_arg7)) (ix1 r) := funext fun r => blk7_entry m c t r
  have h8 : tr (cur2 (iblk m c 8 t)) = fun p k => (m ((c : Thread nD τ).loc main_arg8)) (ix2 p k) := funext fun p => funext fun k => blk8_entry m c t k p
  have h9 : cur1 (iblk m c 9 t) = fun r => (m ((c : Thread nD τ).loc main_arg9)) (ix1 r) := funext fun r => blk9_entry m c t r
  have h10 : tr (cur2 (iblk m c 10 t)) = fun p k => (m ((c : Thread nD τ).loc main_arg10)) (ix2 p k) := funext fun p => funext fun k => blk10_entry m c t k p
  have h11 : cur1 (iblk m c 11 t) = fun r => (m ((c : Thread nD τ).loc main_arg11)) (ix1 r) := funext fun r => blk11_entry m c t r
  unfold inpBlk inpAt
  rw [h0, h1, h2, h3, h4, h5, h6, h7, h8, h9, h10, h11]

/-! ## What a point writes back, the cover, and the array after the run -/

/-- The result array after the run, as a function of the launch memory. -/
abbrev Gm (c : Dev nD) : S16x1024x256.Idx → EReal := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- Point `t` writes back graph `t`'s block of the result. -/
theorem flushed_eq (c : Dev nD) (t : Fin cfg0.N) :
    (dats m 0 c).flushed 12 t = ((cfg0.win 12).blk t).view.read (Elt Ideal) (Gm m c) := by
  show (cfg0.win 12).cut (grid0.coords t) ((dats m 0 c).after 12 t) = _
  rw [after0_12]
  obtain ⟨e0, e1, e2⟩ := idx_w12 t
  funext j
  obtain ⟨u, p, q, rfl⟩ : ∃ (u : Fin 1) (p : Fin 1024) (q : Fin 256), j = ix3 u p q := ⟨j 0, j 1, j 2, eq_ix3 j⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix3 u p q) = Gm m c (((cfg0.win 12).blk t).view.emb (ix3 u p q))
  refine (body_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) u p q).trans ?_
  rw [inp_eq m c t]
  have hu : u.val = 0 := by omega
  have hg : (⟨((((cfg0.win 12).blk t).view.emb (ix3 u p q)) 0).val, ((((cfg0.win 12).blk t).view.emb (ix3 u p q)) 0).isLt⟩ : Fin 16) = gOf t :=
    Fin.ext (by show win0_12.index t (0 : Fin 3) * 1 + 1 * u.val = t.val; omega)
  have hp : (⟨((((cfg0.win 12).blk t).view.emb (ix3 u p q)) 1).val, ((((cfg0.win 12).blk t).view.emb (ix3 u p q)) 1).isLt⟩ : Fin 1024) = p :=
    Fin.ext (by show win0_12.index t (1 : Fin 3) * 1024 + 1 * p.val = p.val; omega)
  have hq : (⟨((((cfg0.win 12).blk t).view.emb (ix3 u p q)) 2).val, ((((cfg0.win 12).blk t).view.emb (ix3 u p q)) 2).isLt⟩ : Fin 256) = q :=
    Fin.ext (by show win0_12.index t (2 : Fin 3) * 256 + 1 * q.val = q.val; omega)
  show _ = result (inpAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) _) _ _
  rw [hg, hp, hq]

/-- An index of the result array is in point `t`'s block iff each coordinate is in the block's range on its axis. -/
theorem mem_blk (t : Fin cfg0.N) (i : S16x1024x256.Idx) :
    i ∈ ((cfg0.win 12).blk t).view.set ↔ ∀ a : Fin 3, win0_12.index t a * S1x1024x256.size a ≤ (i a).val ∧ (i a).val < win0_12.index t a * S1x1024x256.size a + S1x1024x256.size a := by
  show i ∈ ((View.whole main_v5).slice (win0_12.rect t)).set ↔ _
  rw [View.set_slice_whole, Rect.mem_set_unit]
  exact Iff.rfl

/-- Every index of the result array is in the block of the point that is its graph. -/
theorem cover (i : S16x1024x256.Idx) : ∃ t : Fin cfg0.N, (cfg0.win 12).flush t = true ∧ i ∈ ((cfg0.win 12).blk t).view.set := by
  have hN : cfg0.N = 16 := N_0
  have h0 : (i 0).val < 16 := (i 0).isLt
  have h1 : (i 1).val < 1024 := (i 1).isLt
  have h2 : (i 2).val < 256 := (i 2).isLt
  let t : Fin cfg0.N := ⟨(i 0).val, by omega⟩
  have htv : t.val = (i 0).val := rfl
  obtain ⟨e0, e1, e2⟩ := idx_w12 t
  refine ⟨t, flush0_12 t, ?_⟩
  rw [mem_blk]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 1024 ≤ (i 1).val ∧ (i 1).val < win0_12.index t (1 : Fin 3) * 1024 + 1024; omega
  | ⟨2, _⟩ => show win0_12.index t (2 : Fin 3) * 256 ≤ (i 2).val ∧ (i 2).val < win0_12.index t (2 : Fin 3) * 256 + 256; omega

/-- The result array after the run. -/
theorem final (c : Dev nD) : (dats m 0 c).arrAt 12 cfg0.N = Gm m c :=
  (dats m 0 c).arrAt_eq_of_cover 12 (Gm m c) (fun t _ => flushed_eq m c t) cover

/-- The kernel's run with its result array named by the specification, the arguments unchanged. -/
theorem run : θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.KerValue

end
-- ==== Proof.RefDefs.lean ====
/-
  The reference program's operations in order and the value each writes, named.

  `val_main_vN` is the array that operation %N of the program writes, as a function of those argument arrays of the
  program it depends on; `val_main_cst…` are the program's scalar constants and `val_main_callK_…` the values inside
  the K-th call of the rectifier. Each definition applies one array operation to the values defined before it, so the
  whole program is a chain of 191 short definitions; the last, `val_main_v155`, is the program's result.
-/
import proofs.«128754_j89326729822492_1_alg».proof.Proof.Gen.ReferenceIdeal

noncomputable section

namespace Cert.RefDefs

open Cert.ReferenceIdeal Cert.ReferenceIdeal.Gen Idealize.ShloMosaic Idealize.ShloMosaic.TcCoe Idealize.SL.Sem Idealize.ShloMosaic.StableHlo

variable {F : FTy → Type} [FloatOps F]

def val_main_v0 (x0 : (⟨S16x1024x256, .f32⟩ : BufTy).Contents (Elt F)) (x2 : (⟨S128x256, .f32⟩ : BufTy).Contents (Elt F)) : (⟨S16x1024x128, .f32⟩ : BufTy).Contents (Elt F) :=
  Host.dotGeneral dot_S16x1024x256_S128x256_S16x1024x128_2_1_01_0_n_n none (x0) (x2)
def val_main_v1 (x3 : (⟨S128, .f32⟩ : BufTy).Contents (Elt F)) : (⟨S1x1x128, .f32⟩ : BufTy).Contents (Elt F) :=
  broadcastInDim S1x1x128 ![2] bcast_S128_S1x1x128_2 (x3)
def val_main_v2 (x3 : (⟨S128, .f32⟩ : BufTy).Contents (Elt F)) : (⟨S16x1024x128, .f32⟩ : BufTy).Contents (Elt F) :=
  broadcastInDim S16x1024x128 ![0, 1, 2] bcast_S1x1x128_S16x1024x128_0_1_2 (val_main_v1 (F := F) x3)
def val_main_v3 (x0 : (⟨S16x1024x256, .f32⟩ : BufTy).Contents (Elt F)) (x2 : (⟨S128x256, .f32⟩ : BufTy).Contents (Elt F)) (x3 : (⟨S128, .f32⟩ : BufTy).Contents (Elt F)) : (⟨S16x1024x128, .f32⟩ : BufTy).Contents (Elt F) :=
  addf (val_main_v0 (F := F) x0 x2) (val_main_v2 (F := F) x3)
def val_main_v4 (x0 : (⟨S16x1024x256, .f32⟩ : BufTy).Contents (Elt F)) (x4 : (⟨S128x256, .f32⟩ : BufTy).Contents (Elt F)) : (⟨S16x1024x128, .f32⟩ : BufTy).Contents (Elt F) :=
  Host.dotGeneral dot_S16x1024x256_S128x256_S16x1024x128_2_1_01_0_n_n none (x0) (x4)
def val_main_v5 (x5 : (⟨S128, .f32⟩ : BufTy).Contents (Elt F)) : (⟨S1x1x128, .f32⟩ : BufTy).Contents (Elt F) :=
  broadcastInDim S1x1x128 ![2] bcast_S128_S1x1x128_2 (x5)
def val_main_v6 (x5 : (⟨S128, .f32⟩ : BufTy).Contents (Elt F)) : (⟨S16x1024x128, .f32⟩ : BufTy).Contents (Elt F) :=
  broadcastInDim S16x1024x128 ![0, 1, 2] bcast_S1x1x128_S16x1024x128_0_1_2 (val_main_v5 (F := F) x5)
def val_main_v7 (x0 : (⟨S16x1024x256, .f32⟩ : BufTy).Contents (Elt F)) (x4 : (⟨S128x256, .f32⟩ : BufTy).Contents (Elt F)) (x5 : (⟨S128, .f32⟩ : BufTy).Contents (Elt F)) : (⟨S16x1024x128, .f32⟩ : BufTy).Contents (Elt F) :=
  addf (val_main_v4 (F := F) x0 x4) (val_main_v6 (F := F) x5)
def val_main_v8 (x0 : (⟨S16x1024x256, .f32⟩ : BufTy).Contents (Elt F)) (x4 : (⟨S128x256, .f32⟩ : BufTy).Contents (Elt F)) (x5 : (⟨S128, .f32⟩ : BufTy).Contents (Elt F)) : (⟨S16x1024x128, .f32⟩ : BufTy).Contents (Elt F) :=
  mulf (val_main_v7 (F := F) x0 x4 x5) (val_main_v7 (F := F) x0 x4 x5)
def val_main_cst  : (⟨S_, .f32⟩ : BufTy).Contents (Elt F) :=
  constant S_ .f32 0x00000000#32
def val_main_v9 (x0 : (⟨S16x1024x256, .f32⟩ : BufTy).Contents (Elt F)) (x4 : (⟨S128x256, .f32⟩ : BufTy).Contents (Elt F)) (x5 : (⟨S128, .f32⟩ : BufTy).Contents (Elt F)) : (⟨S16x1024, .f32⟩ : BufTy).Contents (Elt F) :=
  Host.reduceAdd (val_main_v8 (F := F) x0 x4 x5) (val_main_cst (F := F)) reducesTo_S16x1024x128_S16x1024_d2 h_S_
def val_main_v10 (x0 : (⟨S16x1024x256, .f32⟩ : BufTy).Contents (Elt F)) (x4 : (⟨S128x256, .f32⟩ : BufTy).Contents (Elt F)) (x5 : (⟨S128, .f32⟩ : BufTy).Contents (Elt F)) : (⟨S16x1024x1, .f32⟩ : BufTy).Contents (Elt F) :=
  broadcastInDim S16x1024x1 ![0, 1] bcast_S16x1024_S16x1024x1_0_1 (val_main_v9 (F := F) x0 x4 x5)
def val_main_v11 (x0 : (⟨S16x1024x256, .f32⟩ : BufTy).Contents (Elt F)) (x4 : (⟨S128x256, .f32⟩ : BufTy).Contents (Elt F)) (x5 : (⟨S128, .f32⟩ : BufTy).Contents (Elt F)) : (⟨S16x1024x1, .f32⟩ : BufTy).Contents (Elt F) :=
  Host.sqrt (val_main_v10 (F := F) x0 x4 x5)
def val_main_cst_0  : (⟨S_, .f32⟩ : BufTy).Contents (Elt F) :=
  constant S_ .f32 0x2B8CBCCC#32
def val_main_v12  : (⟨S16x1024x1, .f32⟩ : BufTy).Contents (Elt F) :=
  broadcastInDim S16x1024x1 ![] bcast_S_S16x1024x1 (val_main_cst_0 (F := F))
def val_main_v13 (x0 : (⟨S16x1024x256, .f32⟩ : BufTy).Contents (Elt F)) (x4 : (⟨S128x256, .f32⟩ : BufTy).Contents (Elt F)) (x5 : (⟨S128, .f32⟩ : BufTy).Contents (Elt F)) : (⟨S16x1024x1, .f32⟩ : BufTy).Contents (Elt F) :=
  maximumf (val_main_v11 (F := F) x0 x4 x5) (val_main_v12 (F := F))
def val_main_v14 (x0 : (⟨S16x1024x256, .f32⟩ : BufTy).Contents (Elt F)) (x4 : (⟨S128x256, .f32⟩ : BufTy).Contents (Elt F)) (x5 : (⟨S128, .f32⟩ : BufTy).Contents (Elt F)) : (⟨S16x1024x128, .f32⟩ : BufTy).Contents (Elt F) :=
  broadcastInDim S16x1024x128 ![0, 1, 2] bcast_S16x1024x1_S16x1024x128_0_1_2 (val_main_v13 (F := F) x0 x4 x5)
def val_main_v15 (x0 : (⟨S16x1024x256, .f32⟩ : BufTy).Contents (Elt F)) (x4 : (⟨S128x256, .f32⟩ : BufTy).Contents (Elt F)) (x5 : (⟨S128, .f32⟩ : BufTy).Contents (Elt F)) : (⟨S16x1024x128, .f32⟩ : BufTy).Contents (Elt F) :=
  Host.divf (val_main_v7 (F := F) x0 x4 x5) (val_main_v14 (F := F) x0 x4 x5)
def val_main_cst_1  : (⟨S_, .f32⟩ : BufTy).Contents (Elt F) :=
  constant S_ .f32 0x00000000#32
def val_main_v16  : (⟨S16x1024x128, .f32⟩ : BufTy).Contents (Elt F) :=
  broadcastInDim S16x1024x128 ![] bcast_S_S16x1024x128 (val_main_cst_1 (F := F))
def val_main_v17 (x0 : (⟨S16x1024x256, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  Host.dotGeneral dot_S16x1024x128_S16x1024x128_S16x1024x1024_2_2_1_1_0_0 none (val_main_v16 (F := F)) (val_main_v15 (F := F) x0 x4 x5)
def val_main_v18 (x0 : (⟨S16x1024x256, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  Host.exp (val_main_v17 (F := F) x0 x4 x5)
def val_main_v19 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  mulf (val_main_v18 (F := F) x0 x4 x5) (x1)
def val_main_v20 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  mulf (val_main_v19 (F := F) x0 x1 x4 x5) (val_main_v19 (F := F) x0 x1 x4 x5)
def val_main_cst_2  : (⟨S_, .f32⟩ : BufTy).Contents (Elt F) :=
  constant S_ .f32 0x00000000#32
def val_main_v21 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024, .f32⟩ : BufTy).Contents (Elt F) :=
  Host.reduceAdd (val_main_v20 (F := F) x0 x1 x4 x5) (val_main_cst_2 (F := F)) reducesTo_S16x1024x1024_S16x1024_d2 h_S_
def val_main_v22 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1, .f32⟩ : BufTy).Contents (Elt F) :=
  broadcastInDim S16x1024x1 ![0, 1] bcast_S16x1024_S16x1024x1_0_1 (val_main_v21 (F := F) x0 x1 x4 x5)
def val_main_v23 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1, .f32⟩ : BufTy).Contents (Elt F) :=
  Host.sqrt (val_main_v22 (F := F) x0 x1 x4 x5)
def val_main_cst_3  : (⟨S_, .f32⟩ : BufTy).Contents (Elt F) :=
  constant S_ .f32 0x2B8CBCCC#32
def val_main_v24  : (⟨S16x1024x1, .f32⟩ : BufTy).Contents (Elt F) :=
  broadcastInDim S16x1024x1 ![] bcast_S_S16x1024x1 (val_main_cst_3 (F := F))
def val_main_v25 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1, .f32⟩ : BufTy).Contents (Elt F) :=
  maximumf (val_main_v23 (F := F) x0 x1 x4 x5) (val_main_v24 (F := F))
def val_main_v26 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  broadcastInDim S16x1024x1024 ![0, 1, 2] bcast_S16x1024x1_S16x1024x1024_0_1_2 (val_main_v25 (F := F) x0 x1 x4 x5)
def val_main_v27 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  Host.divf (val_main_v19 (F := F) x0 x1 x4 x5) (val_main_v26 (F := F) x0 x1 x4 x5)
def val_main_v28 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) : (⟨S16x1024x128, .f32⟩ : BufTy).Contents (Elt F) :=
  Host.dotGeneral dot_S16x1024x1024_S16x1024x128_S16x1024x128_2_1_1_2_0_0 none (val_main_v27 (F := F) x0 x1 x4 x5) (val_main_v3 (F := F) x0 x2 x3)
def val_main_v29 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) : (⟨S16x1024x384, .f32⟩ : BufTy).Contents (Elt F) :=
  concatenate S16x1024x384 2 [⟨S16x1024x128, (val_main_v28 (F := F) x0 x1 x2 x3 x4 x5)⟩, ⟨S16x1024x128, (val_main_v16 (F := F))⟩, ⟨S16x1024x128, (val_main_v16 (F := F))⟩] concatenates_S16x1024x128_S16x1024x128_S16x1024x128_S16x1024x384_d2
def val_main_v30 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) : (⟨S16x1024x384, .f32⟩ : BufTy).Contents (Elt F) :=
  Host.dotGeneral dot_S16x1024x384_S384x384_S16x1024x384_2_1_01_0_n_n none (val_main_v29 (F := F) x0 x1 x2 x3 x4 x5) (x8)
def val_main_v31 (x9 : (⟨S384, .f32⟩ : BufTy).Contents (Elt F)) : (⟨S1x1x384, .f32⟩ : BufTy).Contents (Elt F) :=
  broadcastInDim S1x1x384 ![2] bcast_S384_S1x1x384_2 (x9)
def val_main_v32 (x9 : (⟨S384, .f32⟩ : BufTy).Contents (Elt F)) : (⟨S16x1024x384, .f32⟩ : BufTy).Contents (Elt F) :=
  broadcastInDim S16x1024x384 ![0, 1, 2] bcast_S1x1x384_S16x1024x384_0_1_2 (val_main_v31 (F := F) x9)
def val_main_v33 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  addf (val_main_v30 (F := F) x0 x1 x2 x3 x4 x5 x8) (val_main_v32 (F := F) x9)
def val_main_v34 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 0] (val_main_v33 (F := F) x0 x1 x2 x3 x4 x5 x8 x9) slices_S16x1024x384_S16x1024x128_0_0_0
def val_main_v35 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 128] (val_main_v33 (F := F) x0 x1 x2 x3 x4 x5 x8 x9) slices_S16x1024x384_S16x1024x128_0_0_128
def val_main_v36 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 256] (val_main_v33 (F := F) x0 x1 x2 x3 x4 x5 x8 x9) slices_S16x1024x384_S16x1024x128_0_0_256
def val_main_call0_cst  : (⟨S_, .f32⟩ : BufTy).Contents (Elt F) :=
  constant S_ .f32 0x00000000#32
def val_main_call0_v0  : (⟨S16x1024x128, .f32⟩ : BufTy).Contents (Elt F) :=
  broadcastInDim S16x1024x128 ![] bcast_S_S16x1024x128 (val_main_call0_cst (F := F))
def val_main_v37 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  maximumf (val_main_v36 (F := F) x0 x1 x2 x3 x4 x5 x8 x9) (val_main_call0_v0 (F := F))
def val_main_v38 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.dotGeneral dot_S16x1024x128_S16x1024x128_S16x1024x1024_2_2_1_1_0_0 none (val_main_v35 (F := F) x0 x1 x2 x3 x4 x5 x8 x9) (val_main_v15 (F := F) x0 x4 x5)
def val_main_v39 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.exp (val_main_v38 (F := F) x0 x1 x2 x3 x4 x5 x8 x9)
def val_main_v40 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  mulf (val_main_v39 (F := F) x0 x1 x2 x3 x4 x5 x8 x9) (x1)
def val_main_v41 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  mulf (val_main_v40 (F := F) x0 x1 x2 x3 x4 x5 x8 x9) (val_main_v40 (F := F) x0 x1 x2 x3 x4 x5 x8 x9)
def val_main_cst_4  : (⟨S_, .f32⟩ : BufTy).Contents (Elt F) :=
  constant S_ .f32 0x00000000#32
def val_main_v42 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024, .f32⟩ : BufTy).Contents (Elt F) :=
  Host.reduceAdd (val_main_v41 (F := F) x0 x1 x2 x3 x4 x5 x8 x9) (val_main_cst_4 (F := F)) reducesTo_S16x1024x1024_S16x1024_d2 h_S_
def val_main_v43 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1, .f32⟩ : BufTy).Contents (Elt F) :=
  broadcastInDim S16x1024x1 ![0, 1] bcast_S16x1024_S16x1024x1_0_1 (val_main_v42 (F := F) x0 x1 x2 x3 x4 x5 x8 x9)
def val_main_v44 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1, .f32⟩ : BufTy).Contents (Elt F) :=
  Host.sqrt (val_main_v43 (F := F) x0 x1 x2 x3 x4 x5 x8 x9)
def val_main_cst_5  : (⟨S_, .f32⟩ : BufTy).Contents (Elt F) :=
  constant S_ .f32 0x2B8CBCCC#32
def val_main_v45  : (⟨S16x1024x1, .f32⟩ : BufTy).Contents (Elt F) :=
  broadcastInDim S16x1024x1 ![] bcast_S_S16x1024x1 (val_main_cst_5 (F := F))
def val_main_v46 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1, .f32⟩ : BufTy).Contents (Elt F) :=
  maximumf (val_main_v44 (F := F) x0 x1 x2 x3 x4 x5 x8 x9) (val_main_v45 (F := F))
def val_main_v47 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  broadcastInDim S16x1024x1024 ![0, 1, 2] bcast_S16x1024x1_S16x1024x1024_0_1_2 (val_main_v46 (F := F) x0 x1 x2 x3 x4 x5 x8 x9)
def val_main_v48 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.divf (val_main_v40 (F := F) x0 x1 x2 x3 x4 x5 x8 x9) (val_main_v47 (F := F) x0 x1 x2 x3 x4 x5 x8 x9)
def val_main_v49 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  Host.dotGeneral dot_S16x1024x1024_S16x1024x128_S16x1024x128_2_1_1_2_0_0 none (val_main_v48 (F := F) x0 x1 x2 x3 x4 x5 x8 x9) (val_main_v3 (F := F) x0 x2 x3)
def val_main_v50 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  concatenate S16x1024x384 2 [⟨S16x1024x128, (val_main_v49 (F := F) x0 x1 x2 x3 x4 x5 x8 x9)⟩, ⟨S16x1024x128, (val_main_v35 (F := F) x0 x1 x2 x3 x4 x5 x8 x9)⟩, ⟨S16x1024x128, (val_main_v37 (F := F) x0 x1 x2 x3 x4 x5 x8 x9)⟩] concatenates_S16x1024x128_S16x1024x128_S16x1024x128_S16x1024x384_d2
def val_main_v51 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  Host.dotGeneral dot_S16x1024x384_S384x384_S16x1024x384_2_1_01_0_n_n none (val_main_v50 (F := F) x0 x1 x2 x3 x4 x5 x8 x9) (x8)
def val_main_v52 (x9 : (⟨S384, .f32⟩ : BufTy).Contents (Elt F)) : (⟨S1x1x384, .f32⟩ : BufTy).Contents (Elt F) :=
  broadcastInDim S1x1x384 ![2] bcast_S384_S1x1x384_2 (x9)
def val_main_v53 (x9 : (⟨S384, .f32⟩ : BufTy).Contents (Elt F)) : (⟨S16x1024x384, .f32⟩ : BufTy).Contents (Elt F) :=
  broadcastInDim S16x1024x384 ![0, 1, 2] bcast_S1x1x384_S16x1024x384_0_1_2 (val_main_v52 (F := F) x9)
def val_main_v54 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  addf (val_main_v51 (F := F) x0 x1 x2 x3 x4 x5 x8 x9) (val_main_v53 (F := F) x9)
def val_main_v55 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 0] (val_main_v54 (F := F) x0 x1 x2 x3 x4 x5 x8 x9) slices_S16x1024x384_S16x1024x128_0_0_0
def val_main_v56 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 128] (val_main_v54 (F := F) x0 x1 x2 x3 x4 x5 x8 x9) slices_S16x1024x384_S16x1024x128_0_0_128
def val_main_v57 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 256] (val_main_v54 (F := F) x0 x1 x2 x3 x4 x5 x8 x9) slices_S16x1024x384_S16x1024x128_0_0_256
def val_main_call1_cst  : (⟨S_, .f32⟩ : BufTy).Contents (Elt F) :=
  constant S_ .f32 0x00000000#32
def val_main_call1_v0  : (⟨S16x1024x128, .f32⟩ : BufTy).Contents (Elt F) :=
  broadcastInDim S16x1024x128 ![] bcast_S_S16x1024x128 (val_main_call1_cst (F := F))
def val_main_v58 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  maximumf (val_main_v57 (F := F) x0 x1 x2 x3 x4 x5 x8 x9) (val_main_call1_v0 (F := F))
def val_main_v59 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.dotGeneral dot_S16x1024x128_S16x1024x128_S16x1024x1024_2_2_1_1_0_0 none (val_main_v56 (F := F) x0 x1 x2 x3 x4 x5 x8 x9) (val_main_v15 (F := F) x0 x4 x5)
def val_main_v60 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.exp (val_main_v59 (F := F) x0 x1 x2 x3 x4 x5 x8 x9)
def val_main_v61 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  mulf (val_main_v60 (F := F) x0 x1 x2 x3 x4 x5 x8 x9) (x1)
def val_main_v62 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  mulf (val_main_v61 (F := F) x0 x1 x2 x3 x4 x5 x8 x9) (val_main_v61 (F := F) x0 x1 x2 x3 x4 x5 x8 x9)
def val_main_cst_6  : (⟨S_, .f32⟩ : BufTy).Contents (Elt F) :=
  constant S_ .f32 0x00000000#32
def val_main_v63 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024, .f32⟩ : BufTy).Contents (Elt F) :=
  Host.reduceAdd (val_main_v62 (F := F) x0 x1 x2 x3 x4 x5 x8 x9) (val_main_cst_6 (F := F)) reducesTo_S16x1024x1024_S16x1024_d2 h_S_
def val_main_v64 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1, .f32⟩ : BufTy).Contents (Elt F) :=
  broadcastInDim S16x1024x1 ![0, 1] bcast_S16x1024_S16x1024x1_0_1 (val_main_v63 (F := F) x0 x1 x2 x3 x4 x5 x8 x9)
def val_main_v65 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1, .f32⟩ : BufTy).Contents (Elt F) :=
  Host.sqrt (val_main_v64 (F := F) x0 x1 x2 x3 x4 x5 x8 x9)
def val_main_cst_7  : (⟨S_, .f32⟩ : BufTy).Contents (Elt F) :=
  constant S_ .f32 0x2B8CBCCC#32
def val_main_v66  : (⟨S16x1024x1, .f32⟩ : BufTy).Contents (Elt F) :=
  broadcastInDim S16x1024x1 ![] bcast_S_S16x1024x1 (val_main_cst_7 (F := F))
def val_main_v67 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1, .f32⟩ : BufTy).Contents (Elt F) :=
  maximumf (val_main_v65 (F := F) x0 x1 x2 x3 x4 x5 x8 x9) (val_main_v66 (F := F))
def val_main_v68 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  broadcastInDim S16x1024x1024 ![0, 1, 2] bcast_S16x1024x1_S16x1024x1024_0_1_2 (val_main_v67 (F := F) x0 x1 x2 x3 x4 x5 x8 x9)
def val_main_v69 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.divf (val_main_v61 (F := F) x0 x1 x2 x3 x4 x5 x8 x9) (val_main_v68 (F := F) x0 x1 x2 x3 x4 x5 x8 x9)
def val_main_v70 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  Host.dotGeneral dot_S16x1024x1024_S16x1024x128_S16x1024x128_2_1_1_2_0_0 none (val_main_v69 (F := F) x0 x1 x2 x3 x4 x5 x8 x9) (val_main_v3 (F := F) x0 x2 x3)
def val_main_v71 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  concatenate S16x1024x384 2 [⟨S16x1024x128, (val_main_v70 (F := F) x0 x1 x2 x3 x4 x5 x8 x9)⟩, ⟨S16x1024x128, (val_main_v56 (F := F) x0 x1 x2 x3 x4 x5 x8 x9)⟩, ⟨S16x1024x128, (val_main_v58 (F := F) x0 x1 x2 x3 x4 x5 x8 x9)⟩] concatenates_S16x1024x128_S16x1024x128_S16x1024x128_S16x1024x384_d2
def val_main_v72 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  Host.dotGeneral dot_S16x1024x384_S384x384_S16x1024x384_2_1_01_0_n_n none (val_main_v71 (F := F) x0 x1 x2 x3 x4 x5 x8 x9) (x8)
def val_main_v73 (x9 : (⟨S384, .f32⟩ : BufTy).Contents (Elt F)) : (⟨S1x1x384, .f32⟩ : BufTy).Contents (Elt F) :=
  broadcastInDim S1x1x384 ![2] bcast_S384_S1x1x384_2 (x9)
def val_main_v74 (x9 : (⟨S384, .f32⟩ : BufTy).Contents (Elt F)) : (⟨S16x1024x384, .f32⟩ : BufTy).Contents (Elt F) :=
  broadcastInDim S16x1024x384 ![0, 1, 2] bcast_S1x1x384_S16x1024x384_0_1_2 (val_main_v73 (F := F) x9)
def val_main_v75 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  addf (val_main_v72 (F := F) x0 x1 x2 x3 x4 x5 x8 x9) (val_main_v74 (F := F) x9)
def val_main_v76 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 0] (val_main_v75 (F := F) x0 x1 x2 x3 x4 x5 x8 x9) slices_S16x1024x384_S16x1024x128_0_0_0
def val_main_v77 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 128] (val_main_v75 (F := F) x0 x1 x2 x3 x4 x5 x8 x9) slices_S16x1024x384_S16x1024x128_0_0_128
def val_main_v78 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 256] (val_main_v75 (F := F) x0 x1 x2 x3 x4 x5 x8 x9) slices_S16x1024x384_S16x1024x128_0_0_256
def val_main_call2_cst  : (⟨S_, .f32⟩ : BufTy).Contents (Elt F) :=
  constant S_ .f32 0x00000000#32
def val_main_call2_v0  : (⟨S16x1024x128, .f32⟩ : BufTy).Contents (Elt F) :=
  broadcastInDim S16x1024x128 ![] bcast_S_S16x1024x128 (val_main_call2_cst (F := F))
def val_main_v79 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  maximumf (val_main_v78 (F := F) x0 x1 x2 x3 x4 x5 x8 x9) (val_main_call2_v0 (F := F))
def val_main_v80 (x0 : (⟨S16x1024x256, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  Host.dotGeneral dot_S16x1024x128_S16x1024x128_S16x1024x1024_2_2_1_1_0_0 none (val_main_v16 (F := F)) (val_main_v15 (F := F) x0 x4 x5)
def val_main_v81 (x0 : (⟨S16x1024x256, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  Host.exp (val_main_v80 (F := F) x0 x4 x5)
def val_main_v82 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  mulf (val_main_v81 (F := F) x0 x4 x5) (x1)
def val_main_v83 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  mulf (val_main_v82 (F := F) x0 x1 x4 x5) (val_main_v82 (F := F) x0 x1 x4 x5)
def val_main_cst_8  : (⟨S_, .f32⟩ : BufTy).Contents (Elt F) :=
  constant S_ .f32 0x00000000#32
def val_main_v84 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024, .f32⟩ : BufTy).Contents (Elt F) :=
  Host.reduceAdd (val_main_v83 (F := F) x0 x1 x4 x5) (val_main_cst_8 (F := F)) reducesTo_S16x1024x1024_S16x1024_d1 h_S_
def val_main_v85 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1x1024, .f32⟩ : BufTy).Contents (Elt F) :=
  broadcastInDim S16x1x1024 ![0, 2] bcast_S16x1024_S16x1x1024_0_2 (val_main_v84 (F := F) x0 x1 x4 x5)
def val_main_v86 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1x1024, .f32⟩ : BufTy).Contents (Elt F) :=
  Host.sqrt (val_main_v85 (F := F) x0 x1 x4 x5)
def val_main_cst_9  : (⟨S_, .f32⟩ : BufTy).Contents (Elt F) :=
  constant S_ .f32 0x2B8CBCCC#32
def val_main_v87  : (⟨S16x1x1024, .f32⟩ : BufTy).Contents (Elt F) :=
  broadcastInDim S16x1x1024 ![] bcast_S_S16x1x1024 (val_main_cst_9 (F := F))
def val_main_v88 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1x1024, .f32⟩ : BufTy).Contents (Elt F) :=
  maximumf (val_main_v86 (F := F) x0 x1 x4 x5) (val_main_v87 (F := F))
def val_main_v89 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  broadcastInDim S16x1024x1024 ![0, 1, 2] bcast_S16x1x1024_S16x1024x1024_0_1_2 (val_main_v88 (F := F) x0 x1 x4 x5)
def val_main_v90 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) : (⟨S16x1024x1024, .f32⟩ : BufTy).Contents (Elt F) :=
  Host.divf (val_main_v82 (F := F) x0 x1 x4 x5) (val_main_v89 (F := F) x0 x1 x4 x5)
def val_main_v91 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) : (⟨S16x1024x128, .f32⟩ : BufTy).Contents (Elt F) :=
  Host.dotGeneral dot_S16x1024x1024_S16x1024x128_S16x1024x128_1_1_2_2_0_0 none (val_main_v90 (F := F) x0 x1 x4 x5) (val_main_v3 (F := F) x0 x2 x3)
def val_main_v92 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) : (⟨S16x1024x384, .f32⟩ : BufTy).Contents (Elt F) :=
  concatenate S16x1024x384 2 [⟨S16x1024x128, (val_main_v91 (F := F) x0 x1 x2 x3 x4 x5)⟩, ⟨S16x1024x128, (val_main_v16 (F := F))⟩, ⟨S16x1024x128, (val_main_v16 (F := F))⟩] concatenates_S16x1024x128_S16x1024x128_S16x1024x128_S16x1024x384_d2
def val_main_v93 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) : (⟨S16x1024x384, .f32⟩ : BufTy).Contents (Elt F) :=
  Host.dotGeneral dot_S16x1024x384_S384x384_S16x1024x384_2_1_01_0_n_n none (val_main_v92 (F := F) x0 x1 x2 x3 x4 x5) (x8)
def val_main_v94 (x9 : (⟨S384, .f32⟩ : BufTy).Contents (Elt F)) : (⟨S1x1x384, .f32⟩ : BufTy).Contents (Elt F) :=
  broadcastInDim S1x1x384 ![2] bcast_S384_S1x1x384_2 (x9)
def val_main_v95 (x9 : (⟨S384, .f32⟩ : BufTy).Contents (Elt F)) : (⟨S16x1024x384, .f32⟩ : BufTy).Contents (Elt F) :=
  broadcastInDim S16x1024x384 ![0, 1, 2] bcast_S1x1x384_S16x1024x384_0_1_2 (val_main_v94 (F := F) x9)
def val_main_v96 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  addf (val_main_v93 (F := F) x0 x1 x2 x3 x4 x5 x8) (val_main_v95 (F := F) x9)
def val_main_v97 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 0] (val_main_v96 (F := F) x0 x1 x2 x3 x4 x5 x8 x9) slices_S16x1024x384_S16x1024x128_0_0_0
def val_main_v98 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 128] (val_main_v96 (F := F) x0 x1 x2 x3 x4 x5 x8 x9) slices_S16x1024x384_S16x1024x128_0_0_128
def val_main_v99 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 256] (val_main_v96 (F := F) x0 x1 x2 x3 x4 x5 x8 x9) slices_S16x1024x384_S16x1024x128_0_0_256
def val_main_call3_cst  : (⟨S_, .f32⟩ : BufTy).Contents (Elt F) :=
  constant S_ .f32 0x00000000#32
def val_main_call3_v0  : (⟨S16x1024x128, .f32⟩ : BufTy).Contents (Elt F) :=
  broadcastInDim S16x1024x128 ![] bcast_S_S16x1024x128 (val_main_call3_cst (F := F))
def val_main_v100 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  maximumf (val_main_v99 (F := F) x0 x1 x2 x3 x4 x5 x8 x9) (val_main_call3_v0 (F := F))
def val_main_v101 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.dotGeneral dot_S16x1024x128_S16x1024x128_S16x1024x1024_2_2_1_1_0_0 none (val_main_v98 (F := F) x0 x1 x2 x3 x4 x5 x8 x9) (val_main_v15 (F := F) x0 x4 x5)
def val_main_v102 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.exp (val_main_v101 (F := F) x0 x1 x2 x3 x4 x5 x8 x9)
def val_main_v103 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  mulf (val_main_v102 (F := F) x0 x1 x2 x3 x4 x5 x8 x9) (x1)
def val_main_v104 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  mulf (val_main_v103 (F := F) x0 x1 x2 x3 x4 x5 x8 x9) (val_main_v103 (F := F) x0 x1 x2 x3 x4 x5 x8 x9)
def val_main_cst_10  : (⟨S_, .f32⟩ : BufTy).Contents (Elt F) :=
  constant S_ .f32 0x00000000#32
def val_main_v105 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024, .f32⟩ : BufTy).Contents (Elt F) :=
  Host.reduceAdd (val_main_v104 (F := F) x0 x1 x2 x3 x4 x5 x8 x9) (val_main_cst_10 (F := F)) reducesTo_S16x1024x1024_S16x1024_d1 h_S_
def val_main_v106 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1x1024, .f32⟩ : BufTy).Contents (Elt F) :=
  broadcastInDim S16x1x1024 ![0, 2] bcast_S16x1024_S16x1x1024_0_2 (val_main_v105 (F := F) x0 x1 x2 x3 x4 x5 x8 x9)
def val_main_v107 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1x1024, .f32⟩ : BufTy).Contents (Elt F) :=
  Host.sqrt (val_main_v106 (F := F) x0 x1 x2 x3 x4 x5 x8 x9)
def val_main_cst_11  : (⟨S_, .f32⟩ : BufTy).Contents (Elt F) :=
  constant S_ .f32 0x2B8CBCCC#32
def val_main_v108  : (⟨S16x1x1024, .f32⟩ : BufTy).Contents (Elt F) :=
  broadcastInDim S16x1x1024 ![] bcast_S_S16x1x1024 (val_main_cst_11 (F := F))
def val_main_v109 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1x1024, .f32⟩ : BufTy).Contents (Elt F) :=
  maximumf (val_main_v107 (F := F) x0 x1 x2 x3 x4 x5 x8 x9) (val_main_v108 (F := F))
def val_main_v110 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  broadcastInDim S16x1024x1024 ![0, 1, 2] bcast_S16x1x1024_S16x1024x1024_0_1_2 (val_main_v109 (F := F) x0 x1 x2 x3 x4 x5 x8 x9)
def val_main_v111 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.divf (val_main_v103 (F := F) x0 x1 x2 x3 x4 x5 x8 x9) (val_main_v110 (F := F) x0 x1 x2 x3 x4 x5 x8 x9)
def val_main_v112 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  Host.dotGeneral dot_S16x1024x1024_S16x1024x128_S16x1024x128_1_1_2_2_0_0 none (val_main_v111 (F := F) x0 x1 x2 x3 x4 x5 x8 x9) (val_main_v3 (F := F) x0 x2 x3)
def val_main_v113 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  concatenate S16x1024x384 2 [⟨S16x1024x128, (val_main_v112 (F := F) x0 x1 x2 x3 x4 x5 x8 x9)⟩, ⟨S16x1024x128, (val_main_v98 (F := F) x0 x1 x2 x3 x4 x5 x8 x9)⟩, ⟨S16x1024x128, (val_main_v100 (F := F) x0 x1 x2 x3 x4 x5 x8 x9)⟩] concatenates_S16x1024x128_S16x1024x128_S16x1024x128_S16x1024x384_d2
def val_main_v114 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  Host.dotGeneral dot_S16x1024x384_S384x384_S16x1024x384_2_1_01_0_n_n none (val_main_v113 (F := F) x0 x1 x2 x3 x4 x5 x8 x9) (x8)
def val_main_v115 (x9 : (⟨S384, .f32⟩ : BufTy).Contents (Elt F)) : (⟨S1x1x384, .f32⟩ : BufTy).Contents (Elt F) :=
  broadcastInDim S1x1x384 ![2] bcast_S384_S1x1x384_2 (x9)
def val_main_v116 (x9 : (⟨S384, .f32⟩ : BufTy).Contents (Elt F)) : (⟨S16x1024x384, .f32⟩ : BufTy).Contents (Elt F) :=
  broadcastInDim S16x1024x384 ![0, 1, 2] bcast_S1x1x384_S16x1024x384_0_1_2 (val_main_v115 (F := F) x9)
def val_main_v117 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  addf (val_main_v114 (F := F) x0 x1 x2 x3 x4 x5 x8 x9) (val_main_v116 (F := F) x9)
def val_main_v118 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 0] (val_main_v117 (F := F) x0 x1 x2 x3 x4 x5 x8 x9) slices_S16x1024x384_S16x1024x128_0_0_0
def val_main_v119 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 128] (val_main_v117 (F := F) x0 x1 x2 x3 x4 x5 x8 x9) slices_S16x1024x384_S16x1024x128_0_0_128
def val_main_v120 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 256] (val_main_v117 (F := F) x0 x1 x2 x3 x4 x5 x8 x9) slices_S16x1024x384_S16x1024x128_0_0_256
def val_main_call4_cst  : (⟨S_, .f32⟩ : BufTy).Contents (Elt F) :=
  constant S_ .f32 0x00000000#32
def val_main_call4_v0  : (⟨S16x1024x128, .f32⟩ : BufTy).Contents (Elt F) :=
  broadcastInDim S16x1024x128 ![] bcast_S_S16x1024x128 (val_main_call4_cst (F := F))
def val_main_v121 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  maximumf (val_main_v120 (F := F) x0 x1 x2 x3 x4 x5 x8 x9) (val_main_call4_v0 (F := F))
def val_main_v122 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.dotGeneral dot_S16x1024x128_S16x1024x128_S16x1024x1024_2_2_1_1_0_0 none (val_main_v119 (F := F) x0 x1 x2 x3 x4 x5 x8 x9) (val_main_v15 (F := F) x0 x4 x5)
def val_main_v123 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.exp (val_main_v122 (F := F) x0 x1 x2 x3 x4 x5 x8 x9)
def val_main_v124 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  mulf (val_main_v123 (F := F) x0 x1 x2 x3 x4 x5 x8 x9) (x1)
def val_main_v125 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  mulf (val_main_v124 (F := F) x0 x1 x2 x3 x4 x5 x8 x9) (val_main_v124 (F := F) x0 x1 x2 x3 x4 x5 x8 x9)
def val_main_cst_12  : (⟨S_, .f32⟩ : BufTy).Contents (Elt F) :=
  constant S_ .f32 0x00000000#32
def val_main_v126 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024, .f32⟩ : BufTy).Contents (Elt F) :=
  Host.reduceAdd (val_main_v125 (F := F) x0 x1 x2 x3 x4 x5 x8 x9) (val_main_cst_12 (F := F)) reducesTo_S16x1024x1024_S16x1024_d1 h_S_
def val_main_v127 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1x1024, .f32⟩ : BufTy).Contents (Elt F) :=
  broadcastInDim S16x1x1024 ![0, 2] bcast_S16x1024_S16x1x1024_0_2 (val_main_v126 (F := F) x0 x1 x2 x3 x4 x5 x8 x9)
def val_main_v128 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1x1024, .f32⟩ : BufTy).Contents (Elt F) :=
  Host.sqrt (val_main_v127 (F := F) x0 x1 x2 x3 x4 x5 x8 x9)
def val_main_cst_13  : (⟨S_, .f32⟩ : BufTy).Contents (Elt F) :=
  constant S_ .f32 0x2B8CBCCC#32
def val_main_v129  : (⟨S16x1x1024, .f32⟩ : BufTy).Contents (Elt F) :=
  broadcastInDim S16x1x1024 ![] bcast_S_S16x1x1024 (val_main_cst_13 (F := F))
def val_main_v130 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1x1024, .f32⟩ : BufTy).Contents (Elt F) :=
  maximumf (val_main_v128 (F := F) x0 x1 x2 x3 x4 x5 x8 x9) (val_main_v129 (F := F))
def val_main_v131 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  broadcastInDim S16x1024x1024 ![0, 1, 2] bcast_S16x1x1024_S16x1024x1024_0_1_2 (val_main_v130 (F := F) x0 x1 x2 x3 x4 x5 x8 x9)
def val_main_v132 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x1024, .f32⟩ : BufTy).Contents (Elt F) :=
  Host.divf (val_main_v124 (F := F) x0 x1 x2 x3 x4 x5 x8 x9) (val_main_v131 (F := F) x0 x1 x2 x3 x4 x5 x8 x9)
def val_main_v133 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  Host.dotGeneral dot_S16x1024x1024_S16x1024x128_S16x1024x128_1_1_2_2_0_0 none (val_main_v132 (F := F) x0 x1 x2 x3 x4 x5 x8 x9) (val_main_v3 (F := F) x0 x2 x3)
def val_main_v134 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  concatenate S16x1024x384 2 [⟨S16x1024x128, (val_main_v133 (F := F) x0 x1 x2 x3 x4 x5 x8 x9)⟩, ⟨S16x1024x128, (val_main_v119 (F := F) x0 x1 x2 x3 x4 x5 x8 x9)⟩, ⟨S16x1024x128, (val_main_v121 (F := F) x0 x1 x2 x3 x4 x5 x8 x9)⟩] concatenates_S16x1024x128_S16x1024x128_S16x1024x128_S16x1024x384_d2
def val_main_v135 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  Host.dotGeneral dot_S16x1024x384_S384x384_S16x1024x384_2_1_01_0_n_n none (val_main_v134 (F := F) x0 x1 x2 x3 x4 x5 x8 x9) (x8)
def val_main_v136 (x9 : (⟨S384, .f32⟩ : BufTy).Contents (Elt F)) : (⟨S1x1x384, .f32⟩ : BufTy).Contents (Elt F) :=
  broadcastInDim S1x1x384 ![2] bcast_S384_S1x1x384_2 (x9)
def val_main_v137 (x9 : (⟨S384, .f32⟩ : BufTy).Contents (Elt F)) : (⟨S16x1024x384, .f32⟩ : BufTy).Contents (Elt F) :=
  broadcastInDim S16x1024x384 ![0, 1, 2] bcast_S1x1x384_S16x1024x384_0_1_2 (val_main_v136 (F := F) x9)
def val_main_v138 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  addf (val_main_v135 (F := F) x0 x1 x2 x3 x4 x5 x8 x9) (val_main_v137 (F := F) x9)
def val_main_v139 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 0] (val_main_v138 (F := F) x0 x1 x2 x3 x4 x5 x8 x9) slices_S16x1024x384_S16x1024x128_0_0_0
def val_main_v140 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 128] (val_main_v138 (F := F) x0 x1 x2 x3 x4 x5 x8 x9) slices_S16x1024x384_S16x1024x128_0_0_128
def val_main_v141 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  extractStridedSlice S16x1024x128 ![0, 0, 256] (val_main_v138 (F := F) x0 x1 x2 x3 x4 x5 x8 x9) slices_S16x1024x384_S16x1024x128_0_0_256
def val_main_call5_cst  : (⟨S_, .f32⟩ : BufTy).Contents (Elt F) :=
  constant S_ .f32 0x00000000#32
def val_main_call5_v0  : (⟨S16x1024x128, .f32⟩ : BufTy).Contents (Elt F) :=
  broadcastInDim S16x1024x128 ![] bcast_S_S16x1024x128 (val_main_call5_cst (F := F))
def val_main_v142 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  maximumf (val_main_v141 (F := F) x0 x1 x2 x3 x4 x5 x8 x9) (val_main_call5_v0 (F := F))
def val_main_v143 (x0 : (⟨S16x1024x256, .f32⟩ : BufTy).Contents (Elt F)) (x6 : (⟨S128x256, .f32⟩ : BufTy).Contents (Elt F)) : (⟨S16x1024x128, .f32⟩ : BufTy).Contents (Elt F) :=
  Host.dotGeneral dot_S16x1024x256_S128x256_S16x1024x128_2_1_01_0_n_n none (x0) (x6)
def val_main_v144 (x7 : (⟨S128, .f32⟩ : BufTy).Contents (Elt F)) : (⟨S1x1x128, .f32⟩ : BufTy).Contents (Elt F) :=
  broadcastInDim S1x1x128 ![2] bcast_S128_S1x1x128_2 (x7)
def val_main_v145 (x7 : (⟨S128, .f32⟩ : BufTy).Contents (Elt F)) : (⟨S16x1024x128, .f32⟩ : BufTy).Contents (Elt F) :=
  broadcastInDim S16x1024x128 ![0, 1, 2] bcast_S1x1x128_S16x1024x128_0_1_2 (val_main_v144 (F := F) x7)
def val_main_v146 (x0 : (⟨S16x1024x256, .f32⟩ : BufTy).Contents (Elt F)) (x6 : (⟨S128x256, .f32⟩ : BufTy).Contents (Elt F)) (x7 : (⟨S128, .f32⟩ : BufTy).Contents (Elt F)) : (⟨S16x1024x128, .f32⟩ : BufTy).Contents (Elt F) :=
  addf (val_main_v143 (F := F) x0 x6) (val_main_v145 (F := F) x7)
def val_main_call6_cst  : (⟨S_, .f32⟩ : BufTy).Contents (Elt F) :=
  constant S_ .f32 0x00000000#32
def val_main_call6_v0  : (⟨S16x1024x128, .f32⟩ : BufTy).Contents (Elt F) :=
  broadcastInDim S16x1024x128 ![] bcast_S_S16x1024x128 (val_main_call6_cst (F := F))
def val_main_v147 (x0 : (⟨S16x1024x256, .f32⟩ : BufTy).Contents (Elt F)) (x6 : (⟨S128x256, .f32⟩ : BufTy).Contents (Elt F)) (x7 : (⟨S128, .f32⟩ : BufTy).Contents (Elt F)) : (⟨S16x1024x128, .f32⟩ : BufTy).Contents (Elt F) :=
  maximumf (val_main_v146 (F := F) x0 x6 x7) (val_main_call6_v0 (F := F))
def val_main_call7_cst  : (⟨S_, .f32⟩ : BufTy).Contents (Elt F) :=
  constant S_ .f32 0x00000000#32
def val_main_call7_v0  : (⟨S16x1024x128, .f32⟩ : BufTy).Contents (Elt F) :=
  broadcastInDim S16x1024x128 ![] bcast_S_S16x1024x128 (val_main_call7_cst (F := F))
def val_main_v148 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  maximumf (val_main_v76 (F := F) x0 x1 x2 x3 x4 x5 x8 x9) (val_main_call7_v0 (F := F))
def val_main_call8_cst  : (⟨S_, .f32⟩ : BufTy).Contents (Elt F) :=
  constant S_ .f32 0x00000000#32
def val_main_call8_v0  : (⟨S16x1024x128, .f32⟩ : BufTy).Contents (Elt F) :=
  broadcastInDim S16x1024x128 ![] bcast_S_S16x1024x128 (val_main_call8_cst (F := F))
def val_main_v149 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) : (⟨S16x1024x128, .f32⟩ : BufTy).Contents (Elt F) :=
  maximumf (val_main_v139 (F := F) x0 x1 x2 x3 x4 x5 x8 x9) (val_main_call8_v0 (F := F))
def val_main_v150 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F)) (x8 : (⟨S384x384, .f32⟩ : BufTy).Contents (Elt F)) (x9 : (⟨S384, .f32⟩ : BufTy).Contents (Elt F)) : (⟨S16x1024x384, .f32⟩ : BufTy).Contents (Elt F) :=
  concatenate S16x1024x384 2 [⟨S16x1024x128, (val_main_v148 (F := F) x0 x1 x2 x3 x4 x5 x8 x9)⟩, ⟨S16x1024x128, (val_main_v147 (F := F) x0 x6 x7)⟩, ⟨S16x1024x128, (val_main_v149 (F := F) x0 x1 x2 x3 x4 x5 x8 x9)⟩] concatenates_S16x1024x128_S16x1024x128_S16x1024x128_S16x1024x384_d2
def val_main_v151 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F)) (x8 : (⟨S384x384, .f32⟩ : BufTy).Contents (Elt F)) (x9 : (⟨S384, .f32⟩ : BufTy).Contents (Elt F)) (x10 : (⟨S256x384, .f32⟩ : BufTy).Contents (Elt F)) : (⟨S16x1024x256, .f32⟩ : BufTy).Contents (Elt F) :=
  Host.dotGeneral dot_S16x1024x384_S256x384_S16x1024x256_2_1_01_0_n_n none (val_main_v150 (F := F) x0 x1 x2 x3 x4 x5 x6 x7 x8 x9) (x10)
def val_main_v152 (x11 : (⟨S256, .f32⟩ : BufTy).Contents (Elt F)) : (⟨S1x1x256, .f32⟩ : BufTy).Contents (Elt F) :=
  broadcastInDim S1x1x256 ![2] bcast_S256_S1x1x256_2 (x11)
def val_main_v153 (x11 : (⟨S256, .f32⟩ : BufTy).Contents (Elt F)) : (⟨S16x1024x256, .f32⟩ : BufTy).Contents (Elt F) :=
  broadcastInDim S16x1024x256 ![0, 1, 2] bcast_S1x1x256_S16x1024x256_0_1_2 (val_main_v152 (F := F) x11)
def val_main_v154 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F)) (x8 : (⟨S384x384, .f32⟩ : BufTy).Contents (Elt F)) (x9 : (⟨S384, .f32⟩ : BufTy).Contents (Elt F)) (x10 : (⟨S256x384, .f32⟩ : BufTy).Contents (Elt F)) (x11 : (⟨S256, .f32⟩ : BufTy).Contents (Elt F)) : (⟨S16x1024x256, .f32⟩ : BufTy).Contents (Elt F) :=
  addf (val_main_v151 (F := F) x0 x1 x2 x3 x4 x5 x6 x7 x8 x9 x10) (val_main_v153 (F := F) x11)
def val_main_call9_cst  : (⟨S_, .f32⟩ : BufTy).Contents (Elt F) :=
  constant S_ .f32 0x00000000#32
def val_main_call9_v0  : (⟨S16x1024x256, .f32⟩ : BufTy).Contents (Elt F) :=
  broadcastInDim S16x1024x256 ![] bcast_S_S16x1024x256 (val_main_call9_cst (F := F))
def val_main_v155 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F)) (x8 : (⟨S384x384, .f32⟩ : BufTy).Contents (Elt F)) (x9 : (⟨S384, .f32⟩ : BufTy).Contents (Elt F)) (x10 : (⟨S256x384, .f32⟩ : BufTy).Contents (Elt F)) (x11 : (⟨S256, .f32⟩ : BufTy).Contents (Elt F)) : (⟨S16x1024x256, .f32⟩ : BufTy).Contents (Elt F) :=
  maximumf (val_main_v154 (F := F) x0 x1 x2 x3 x4 x5 x6 x7 x8 x9 x10 x11) (val_main_call9_v0 (F := F))

end Cert.RefDefs

end
-- ==== Proof.RefRun.lean ====
/-
  The reference program as the list of its operations in order, and the value its run leaves in the result buffer.

  `ops` lists the program's 191 array operations in program order, each with the buffers it reads and the buffer it
  writes (the ten calls of the rectifier are written out: a zero constant, its repetition over the array, a maximum).
  The program is the sequence of these operations (`main_eq`). Running them from buffer contents `V` leaves in the
  result buffer the value `val_main_v155` of the twelve argument buffers' contents (`eval_v155`): reading a buffer after
  the run goes back, operation by operation, to the operation that wrote it, whose value is its function applied to the
  values of the buffers it read; each such value is recognised as the named value `val_main_vN` as soon as its operands
  are (operations with the same function and operands define the same value, and one name stands for all of them).
  `run` states this for every execution of the program, together with the arguments being left unchanged.
-/
import proofs.«128754_j89326729822492_1_alg».proof.Proof.RefDefs
import Idealize.ShloMosaic.Lib.StableHlo.Run
import Idealize.ShloMosaic.PureOps.Ideal

noncomputable section

namespace Cert.RefRun

open Cert.ReferenceIdeal Cert.ReferenceIdeal.Gen Cert.RefDefs Idealize.ShloMosaic Idealize.ShloMosaic.TcCoe Idealize.SL.Sem Idealize.ShloMosaic.StableHlo

variable {F : FTy → Type} [FloatOps F]

/-- The program's 191 operations, in order. -/
abbrev ops : List (HloOp τ sig (Elt F)) :=
  [ binary main_arg0 main_arg2 main_v0 ((fun l r => Host.dotGeneral dot_S16x1024x256_S128x256_S16x1024x128_2_1_01_0_n_n none l r) : (⟨S16x1024x256, .f32⟩ : BufTy).Contents (Elt F) → (⟨S128x256, .f32⟩ : BufTy).Contents (Elt F) → (⟨S16x1024x128, .f32⟩ : BufTy).Contents (Elt F)),
    unary main_arg3 main_v1 (broadcastInDim S1x1x128 ![2] bcast_S128_S1x1x128_2 : (⟨S128, .f32⟩ : BufTy).Contents (Elt F) → (⟨S1x1x128, .f32⟩ : BufTy).Contents (Elt F)),
    unary main_v1 main_v2 (broadcastInDim S16x1024x128 ![0, 1, 2] bcast_S1x1x128_S16x1024x128_0_1_2 : (⟨S1x1x128, .f32⟩ : BufTy).Contents (Elt F) → (⟨S16x1024x128, .f32⟩ : BufTy).Contents (Elt F)),
    binary main_v0 main_v2 main_v3 (addf : (⟨S16x1024x128, .f32⟩ : BufTy).Contents (Elt F) → (⟨S16x1024x128, .f32⟩ : BufTy).Contents (Elt F) → (⟨S16x1024x128, .f32⟩ : BufTy).Contents (Elt F)),
    binary main_arg0 main_arg4 main_v4 ((fun l r => Host.dotGeneral dot_S16x1024x256_S128x256_S16x1024x128_2_1_01_0_n_n none l r) : (⟨S16x1024x256, .f32⟩ : BufTy).Contents (Elt F) → (⟨S128x256, .f32⟩ : BufTy).Contents (Elt F) → (⟨S16x1024x128, .f32⟩ : BufTy).Contents (Elt F)),
    unary main_arg5 main_v5 (broadcastInDim S1x1x128 ![2] bcast_S128_S1x1x128_2 : (⟨S128, .f32⟩ : BufTy).Contents (Elt F) → (⟨S1x1x128, .f32⟩ : BufTy).Contents (Elt F)),
    unary main_v5 main_v6 (broadcastInDim S16x1024x128 ![0, 1, 2] bcast_S1x1x128_S16x1024x128_0_1_2 : (⟨S1x1x128, .f32⟩ : BufTy).Contents (Elt F) → (⟨S16x1024x128, .f32⟩ : BufTy).Contents (Elt F)),
    binary main_v4 main_v6 main_v7 (addf : (⟨S16x1024x128, .f32⟩ : BufTy).Contents (Elt F) → (⟨S16x1024x128, .f32⟩ : BufTy).Contents (Elt F) → (⟨S16x1024x128, .f32⟩ : BufTy).Contents (Elt F)),
    binary main_v7 main_v7 main_v8 (mulf : (⟨S16x1024x128, .f32⟩ : BufTy).Contents (Elt F) → (⟨S16x1024x128, .f32⟩ : BufTy).Contents (Elt F) → (⟨S16x1024x128, .f32⟩ : BufTy).Contents (Elt F)),
    nullary main_cst (constant S_ .f32 0x00000000#32),
    binary main_v8 main_cst main_v9 ((fun x v => Host.reduceAdd x v reducesTo_S16x1024x128_S16x1024_d2 h_S_) : (⟨S16x1024x128, .f32⟩ : BufTy).Contents (Elt F) → (⟨S_, .f32⟩ : BufTy).Contents (Elt F) → (⟨S16x1024, .f32⟩ : BufTy).Contents (Elt F)),
    unary main_v9 main_v10 (broadcastInDim S16x1024x1 ![0, 1] bcast_S16x1024_S16x1024x1_0_1 : (⟨S16x1024, .f32⟩ : BufTy).Contents (Elt F) → (⟨S16x1024x1, .f32⟩ : BufTy).Contents (Elt F)),
    unary main_v10 main_v11 (Host.sqrt : (⟨S16x1024x1, .f32⟩ : BufTy).Contents (Elt F) → (⟨S16x1024x1, .f32⟩ : BufTy).Contents (Elt F)),
    nullary main_cst_0 (constant S_ .f32 0x2B8CBCCC#32),
    unary main_cst_0 main_v12 (broadcastInDim S16x1024x1 ![] bcast_S_S16x1024x1 : (⟨S_, .f32⟩ : BufTy).Contents (Elt F) → (⟨S16x1024x1, .f32⟩ : BufTy).Contents (Elt F)),
    binary main_v11 main_v12 main_v13 (maximumf : (⟨S16x1024x1, .f32⟩ : BufTy).Contents (Elt F) → (⟨S16x1024x1, .f32⟩ : BufTy).Contents (Elt F) → (⟨S16x1024x1, .f32⟩ : BufTy).Contents (Elt F)),
    unary main_v13 main_v14 (broadcastInDim S16x1024x128 ![0, 1, 2] bcast_S16x1024x1_S16x1024x128_0_1_2 : (⟨S16x1024x1, .f32⟩ : BufTy).Contents (Elt F) → (⟨S16x1024x128, .f32⟩ : BufTy).Contents (Elt F)),
    binary main_v7 main_v14 main_v15 (Host.divf : (⟨S16x1024x128, .f32⟩ : BufTy).Contents (Elt F) → (⟨S16x1024x128, .f32⟩ : BufTy).Contents (Elt F) → (⟨S16x1024x128, .f32⟩ : BufTy).Contents (Elt F)),
    nullary main_cst_1 (constant S_ .f32 0x00000000#32),
    unary main_cst_1 main_v16 (broadcastInDim S16x1024x128 ![] bcast_S_S16x1024x128 : (⟨S_, .f32⟩ : BufTy).Contents (Elt F) → (⟨S16x1024x128, .f32⟩ : BufTy).Contents (Elt F)),
    binary main_v16 main_v15 main_v17 ((fun l r => Host.dotGeneral dot_S16x1024x128_S16x1024x128_S16x1024x1024_2_2_1_1_0_0 none l r) : (⟨S16x1024x128, .f32⟩ : BufTy).Contents (Elt F) → (⟨S16x1024x128, .f32⟩ : BufTy).Contents (Elt F) → (⟨S16x1024x1024, .f32⟩ : BufTy).Contents (Elt F)),
    unary main_v17 main_v18 (Host.exp : (⟨S16x1024x1024, .f32⟩ : BufTy).Contents (Elt F) → (⟨S16x1024x1024, .f32⟩ : BufTy).Contents (Elt F)),
    binary main_v18 main_arg1 main_v19 (mulf : (⟨S16x1024x1024, .f32⟩ : BufTy).Contents (Elt F) → (⟨S16x1024x1024, .f32⟩ : BufTy).Contents (Elt F) → (⟨S16x1024x1024, .f32⟩ : BufTy).Contents (Elt F)),
    binary main_v19 main_v19 main_v20 (mulf : (⟨S16x1024x1024, .f32⟩ : BufTy).Contents (Elt F) → (⟨S16x1024x1024, .f32⟩ : BufTy).Contents (Elt F) → (⟨S16x1024x1024, .f32⟩ : BufTy).Contents (Elt F)),
    nullary main_cst_2 (constant S_ .f32 0x00000000#32),
    binary main_v20 main_cst_2 main_v21 ((fun x v => Host.reduceAdd x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)),
    unary main_v21 main_v22 (broadcastInDim S16x1024x1 ![0, 1] bcast_S16x1024_S16x1024x1_0_1 : (⟨S16x1024, .f32⟩ : BufTy).Contents (Elt F) → (⟨S16x1024x1, .f32⟩ : BufTy).Contents (Elt F)),
    unary main_v22 main_v23 (Host.sqrt : (⟨S16x1024x1, .f32⟩ : BufTy).Contents (Elt F) → (⟨S16x1024x1, .f32⟩ : BufTy).Contents (Elt F)),
    nullary main_cst_3 (constant S_ .f32 0x2B8CBCCC#32),
    unary main_cst_3 main_v24 (broadcastInDim S16x1024x1 ![] bcast_S_S16x1024x1 : (⟨S_, .f32⟩ : BufTy).Contents (Elt F) → (⟨S16x1024x1, .f32⟩ : BufTy).Contents (Elt F)),
    binary main_v23 main_v24 main_v25 (maximumf : (⟨S16x1024x1, .f32⟩ : BufTy).Contents (Elt F) → (⟨S16x1024x1, .f32⟩ : BufTy).Contents (Elt F) → (⟨S16x1024x1, .f32⟩ : BufTy).Contents (Elt F)),
    unary main_v25 main_v26 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    binary main_v19 main_v26 main_v27 (Host.divf : (⟨S16x1024x1024, .f32⟩ : BufTy).Contents (Elt F) → (⟨S16x1024x1024, .f32⟩ : BufTy).Contents (Elt F) → (⟨S16x1024x1024, .f32⟩ : BufTy).Contents (Elt F)),
    binary main_v27 main_v3 main_v28 ((fun l r => Host.dotGeneral dot_S16x1024x1024_S16x1024x128_S16x1024x128_2_1_1_2_0_0 none l r) : (⟨S16x1024x1024, .f32⟩ : BufTy).Contents (Elt F) → (⟨S16x1024x128, .f32⟩ : BufTy).Contents (Elt F) → (⟨S16x1024x128, .f32⟩ : BufTy).Contents (Elt F)),
    nary ![main_v28, main_v16, main_v16] main_v29 (fun u => concatenate S16x1024x384 2 [⟨S16x1024x128, u 0⟩, ⟨S16x1024x128, u 1⟩, ⟨S16x1024x128, u 2⟩] concatenates_S16x1024x128_S16x1024x128_S16x1024x128_S16x1024x384_d2),
    binary main_v29 main_arg8 main_v30 ((fun l r => Host.dotGeneral dot_S16x1024x384_S384x384_S16x1024x384_2_1_01_0_n_n none l r) : (⟨S16x1024x384, .f32⟩ : BufTy).Contents (Elt F) → (⟨S384x384, .f32⟩ : BufTy).Contents (Elt F) → (⟨S16x1024x384, .f32⟩ : BufTy).Contents (Elt F)),
    unary main_arg9 main_v31 (broadcastInDim S1x1x384 ![2] bcast_S384_S1x1x384_2 : (⟨S384, .f32⟩ : BufTy).Contents (Elt F) → (⟨S1x1x384, .f32⟩ : BufTy).Contents (Elt F)),
    unary main_v31 main_v32 (broadcastInDim S16x1024x384 ![0, 1, 2] bcast_S1x1x384_S16x1024x384_0_1_2 : (⟨S1x1x384, .f32⟩ : BufTy).Contents (Elt F) → (⟨S16x1024x384, .f32⟩ : BufTy).Contents (Elt F)),
    binary main_v30 main_v32 main_v33 (addf : (⟨S16x1024x384, .f32⟩ : BufTy).Contents (Elt F) → (⟨S16x1024x384, .f32⟩ : BufTy).Contents (Elt F) → (⟨S16x1024x384, .f32⟩ : BufTy).Contents (Elt F)),
    unary main_v33 main_v34 ((extractStridedSlice S16x1024x128 ![0, 0, 0] · slices_S16x1024x384_S16x1024x128_0_0_0) : (⟨S16x1024x384, .f32⟩ : BufTy).Contents (Elt F) → (⟨S16x1024x128, .f32⟩ : BufTy).Contents (Elt F)),
    unary main_v33 main_v35 ((extractStridedSlice S16x1024x128 ![0, 0, 128] · slices_S16x1024x384_S16x1024x128_0_0_128) : (⟨S16x1024x384, .f32⟩ : BufTy).Contents (Elt F) → (⟨S16x1024x128, .f32⟩ : BufTy).Contents (Elt F)),
    unary main_v33 main_v36 ((extractStridedSlice S16x1024x128 ![0, 0, 256] · slices_S16x1024x384_S16x1024x128_0_0_256) : (⟨S16x1024x384, .f32⟩ : BufTy).Contents (Elt F) → (⟨S16x1024x128, .f32⟩ : BufTy).Contents (Elt F)),
    nullary main_call0_cst (constant S_ .f32 0x00000000#32),
    unary main_call0_cst main_call0_v0 (broadcastInDim S16x1024x128 ![] bcast_S_S16x1024x128 : (⟨S_, .f32⟩ : BufTy).Contents (Elt F) → (⟨S16x1024x128, .f32⟩ : BufTy).Contents (Elt F)),
    binary main_v36 main_call0_v0 main_v37 (maximumf : (⟨S16x1024x128, .f32⟩ : BufTy).Contents (Elt F) → (⟨S16x1024x128, .f32⟩ : BufTy).Contents (Elt F) → (⟨S16x1024x128, .f32⟩ : BufTy).Contents (Elt F)),
    binary main_v35 main_v15 main_v38 ((fun l r => Host.dotGeneral dot_S16x1024x128_S16x1024x128_S16x1024x1024_2_2_1_1_0_0 none l r) : (⟨S16x1024x128, .f32⟩ : BufTy).Contents (Elt F) → (⟨S16x1024x128, .f32⟩ : BufTy).Contents (Elt F) → (⟨S16x1024x1024, .f32⟩ : BufTy).Contents (Elt F)),
    unary main_v38 main_v39 (Host.exp : (⟨S16x1024x1024, .f32⟩ : BufTy).Contents (Elt F) → (⟨S16x1024x1024, .f32⟩ : BufTy).Contents (Elt F)),
    binary main_v39 main_arg1 main_v40 (mulf : (⟨S16x1024x1024, .f32⟩ : BufTy).Contents (Elt F) → (⟨S16x1024x1024, .f32⟩ : BufTy).Contents (Elt F) → (⟨S16x1024x1024, .f32⟩ : BufTy).Contents (Elt F)),
    binary main_v40 main_v40 main_v41 (mulf : (⟨S16x1024x1024, .f32⟩ : BufTy).Contents (Elt F) → (⟨S16x1024x1024, .f32⟩ : BufTy).Contents (Elt F) → (⟨S16x1024x1024, .f32⟩ : BufTy).Contents (Elt F)),
    nullary main_cst_4 (constant S_ .f32 0x00000000#32),
    binary main_v41 main_cst_4 main_v42 ((fun x v => Host.reduceAdd x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)),
    unary main_v42 main_v43 (broadcastInDim S16x1024x1 ![0, 1] bcast_S16x1024_S16x1024x1_0_1 : (⟨S16x1024, .f32⟩ : BufTy).Contents (Elt F) → (⟨S16x1024x1, .f32⟩ : BufTy).Contents (Elt F)),
    unary main_v43 main_v44 (Host.sqrt : (⟨S16x1024x1, .f32⟩ : BufTy).Contents (Elt F) → (⟨S16x1024x1, .f32⟩ : BufTy).Contents (Elt F)),
    nullary main_cst_5 (constant S_ .f32 0x2B8CBCCC#32),
    unary main_cst_5 main_v45 (broadcastInDim S16x1024x1 ![] bcast_S_S16x1024x1 : (⟨S_, .f32⟩ : BufTy).Contents (Elt F) → (⟨S16x1024x1, .f32⟩ : BufTy).Contents (Elt F)),
    binary main_v44 main_v45 main_v46 (maximumf : (⟨S16x1024x1, .f32⟩ : BufTy).Contents (Elt F) → (⟨S16x1024x1, .f32⟩ : BufTy).Contents (Elt F) → (⟨S16x1024x1, .f32⟩ : BufTy).Contents (Elt F)),
    unary main_v46 main_v47 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    binary main_v40 main_v47 main_v48 (Host.divf : (⟨S16x1024x1024, .f32⟩ : BufTy).Contents (Elt F) → (⟨S16x1024x1024, .f32⟩ : BufTy).Contents (Elt F) → (⟨S16x1024x1024, .f32⟩ : BufTy).Contents (Elt F)),
    binary main_v48 main_v3 main_v49 ((fun l r => Host.dotGeneral dot_S16x1024x1024_S16x1024x128_S16x1024x128_2_1_1_2_0_0 none l r) : (⟨S16x1024x1024, .f32⟩ : BufTy).Contents (Elt F) → (⟨S16x1024x128, .f32⟩ : BufTy).Contents (Elt F) → (⟨S16x1024x128, .f32⟩ : BufTy).Contents (Elt F)),
    nary ![main_v49, main_v35, main_v37] main_v50 (fun u => concatenate S16x1024x384 2 [⟨S16x1024x128, u 0⟩, ⟨S16x1024x128, u 1⟩, ⟨S16x1024x128, u 2⟩] concatenates_S16x1024x128_S16x1024x128_S16x1024x128_S16x1024x384_d2),
    binary main_v50 main_arg8 main_v51 ((fun l r => Host.dotGeneral dot_S16x1024x384_S384x384_S16x1024x384_2_1_01_0_n_n none l r) : (⟨S16x1024x384, .f32⟩ : BufTy).Contents (Elt F) → (⟨S384x384, .f32⟩ : BufTy).Contents (Elt F) → (⟨S16x1024x384, .f32⟩ : BufTy).Contents (Elt F)),
    unary main_arg9 main_v52 (broadcastInDim S1x1x384 ![2] bcast_S384_S1x1x384_2 : (⟨S384, .f32⟩ : BufTy).Contents (Elt F) → (⟨S1x1x384, .f32⟩ : BufTy).Contents (Elt F)),
    unary main_v52 main_v53 (broadcastInDim S16x1024x384 ![0, 1, 2] bcast_S1x1x384_S16x1024x384_0_1_2 : (⟨S1x1x384, .f32⟩ : BufTy).Contents (Elt F) → (⟨S16x1024x384, .f32⟩ : BufTy).Contents (Elt F)),
    binary main_v51 main_v53 main_v54 (addf : (⟨S16x1024x384, .f32⟩ : BufTy).Contents (Elt F) → (⟨S16x1024x384, .f32⟩ : BufTy).Contents (Elt F) → (⟨S16x1024x384, .f32⟩ : BufTy).Contents (Elt F)),
    unary main_v54 main_v55 ((extractStridedSlice S16x1024x128 ![0, 0, 0] · slices_S16x1024x384_S16x1024x128_0_0_0) : (⟨S16x1024x384, .f32⟩ : BufTy).Contents (Elt F) → (⟨S16x1024x128, .f32⟩ : BufTy).Contents (Elt F)),
    unary main_v54 main_v56 ((extractStridedSlice S16x1024x128 ![0, 0, 128] · slices_S16x1024x384_S16x1024x128_0_0_128) : (⟨S16x1024x384, .f32⟩ : BufTy).Contents (Elt F) → (⟨S16x1024x128, .f32⟩ : BufTy).Contents (Elt F)),
    unary main_v54 main_v57 ((extractStridedSlice S16x1024x128 ![0, 0, 256] · slices_S16x1024x384_S16x1024x128_0_0_256) : (⟨S16x1024x384, .f32⟩ : BufTy).Contents (Elt F) → (⟨S16x1024x128, .f32⟩ : BufTy).Contents (Elt F)),
    nullary main_call1_cst (constant S_ .f32 0x00000000#32),
    unary main_call1_cst main_call1_v0 (broadcastInDim S16x1024x128 ![] bcast_S_S16x1024x128 : (⟨S_, .f32⟩ : BufTy).Contents (Elt F) → (⟨S16x1024x128, .f32⟩ : BufTy).Contents (Elt F)),
    binary main_v57 main_call1_v0 main_v58 (maximumf : (⟨S16x1024x128, .f32⟩ : BufTy).Contents (Elt F) → (⟨S16x1024x128, .f32⟩ : BufTy).Contents (Elt F) → (⟨S16x1024x128, .f32⟩ : BufTy).Contents (Elt F)),
    binary main_v56 main_v15 main_v59 ((fun l r => Host.dotGeneral dot_S16x1024x128_S16x1024x128_S16x1024x1024_2_2_1_1_0_0 none l r) : (⟨S16x1024x128, .f32⟩ : BufTy).Contents (Elt F) → (⟨S16x1024x128, .f32⟩ : BufTy).Contents (Elt F) → (⟨S16x1024x1024, .f32⟩ : BufTy).Contents (Elt F)),
    unary main_v59 main_v60 (Host.exp : (⟨S16x1024x1024, .f32⟩ : BufTy).Contents (Elt F) → (⟨S16x1024x1024, .f32⟩ : BufTy).Contents (Elt F)),
    binary main_v60 main_arg1 main_v61 (mulf : (⟨S16x1024x1024, .f32⟩ : BufTy).Contents (Elt F) → (⟨S16x1024x1024, .f32⟩ : BufTy).Contents (Elt F) → (⟨S16x1024x1024, .f32⟩ : BufTy).Contents (Elt F)),
    binary main_v61 main_v61 main_v62 (mulf : (⟨S16x1024x1024, .f32⟩ : BufTy).Contents (Elt F) → (⟨S16x1024x1024, .f32⟩ : BufTy).Contents (Elt F) → (⟨S16x1024x1024, .f32⟩ : BufTy).Contents (Elt F)),
    nullary main_cst_6 (constant S_ .f32 0x00000000#32),
    binary main_v62 main_cst_6 main_v63 ((fun x v => Host.reduceAdd x v reducesTo_S16x1024x1024_S16x1024_d2 h_S_) : (⟨S16x1024x1024, .f32⟩ : BufTy).Contents (Elt F) → (⟨S_, .f32⟩ : BufTy).Contents (Elt F) → (⟨S16x1024, .f32⟩ : BufTy).Contents (Elt F)),
    unary main_v63 main_v64 (broadcastInDim S16x1024x1 ![0, 1] bcast_S16x1024_S16x1024x1_0_1 : (⟨S16x1024, .f32⟩ : BufTy).Contents (Elt F) → (⟨S16x1024x1, .f32⟩ : BufTy).Contents (Elt F)),
    unary main_v64 main_v65 (Host.sqrt : (⟨S16x1024x1, .f32⟩ : BufTy).Contents (Elt F) → (⟨S16x1024x1, .f32⟩ : BufTy).Contents (Elt F)),
    nullary main_cst_7 (constant S_ .f32 0x2B8CBCCC#32),
    unary main_cst_7 main_v66 (broadcastInDim S16x1024x1 ![] bcast_S_S16x1024x1 : (⟨S_, .f32⟩ : BufTy).Contents (Elt F) → (⟨S16x1024x1, .f32⟩ : BufTy).Contents (Elt F)),
    binary main_v65 main_v66 main_v67 (maximumf : (⟨S16x1024x1, .f32⟩ : BufTy).Contents (Elt F) → (⟨S16x1024x1, .f32⟩ : BufTy).Contents (Elt F) → (⟨S16x1024x1, .f32⟩ : BufTy).Contents (Elt F)),
    unary main_v67 main_v68 (broadcastInDim S16x1024x1024 ![0, 1, 2] bcast_S16x1024x1_S16x1024x1024_0_1_2 : (⟨S16x1024x1, .f32⟩ : BufTy).Contents (Elt F) → (⟨S16x1024x1024, .f32⟩ : BufTy).Contents (Elt F)),
    binary main_v61 main_v68 main_v69 (Host.divf : (⟨S16x1024x1024, .f32⟩ : BufTy).Contents (Elt F) → (⟨S16x1024x1024, .f32⟩ : BufTy).Contents (Elt F) → (⟨S16x1024x1024, .f32⟩ : BufTy).Contents (Elt F)),
    binary main_v69 main_v3 main_v70 ((fun l r => Host.dotGeneral dot_S16x1024x1024_S16x1024x128_S16x1024x128_2_1_1_2_0_0 none l r) : (⟨S16x1024x1024, .f32⟩ : BufTy).Contents (Elt F) → (⟨S16x1024x128, .f32⟩ : BufTy).Contents (Elt F) → (⟨S16x1024x128, .f32⟩ : BufTy).Contents (Elt F)),
    nary ![main_v70, main_v56, main_v58] main_v71 (fun u => concatenate S16x1024x384 2 [⟨S16x1024x128, u 0⟩, ⟨S16x1024x128, u 1⟩, ⟨S16x1024x128, u 2⟩] concatenates_S16x1024x128_S16x1024x128_S16x1024x128_S16x1024x384_d2),
    binary main_v71 main_arg8 main_v72 ((fun l r => Host.dotGeneral dot_S16x1024x384_S384x384_S16x1024x384_2_1_01_0_n_n none l r) : (⟨S16x1024x384, .f32⟩ : BufTy).Contents (Elt F) → (⟨S384x384, .f32⟩ : BufTy).Contents (Elt F) → (⟨S16x1024x384, .f32⟩ : BufTy).Contents (Elt F)),
    unary main_arg9 main_v73 (broadcastInDim S1x1x384 ![2] bcast_S384_S1x1x384_2 : (⟨S384, .f32⟩ : BufTy).Contents (Elt F) → (⟨S1x1x384, .f32⟩ : BufTy).Contents (Elt F)),
    unary main_v73 main_v74 (broadcastInDim S16x1024x384 ![0, 1, 2] bcast_S1x1x384_S16x1024x384_0_1_2 : (⟨S1x1x384, .f32⟩ : BufTy).Contents (Elt F) → (⟨S16x1024x384, .f32⟩ : BufTy).Contents (Elt F)),
    binary main_v72 main_v74 main_v75 (addf : (⟨S16x1024x384, .f32⟩ : BufTy).Contents (Elt F) → (⟨S16x1024x384, .f32⟩ : BufTy).Contents (Elt F) → (⟨S16x1024x384, .f32⟩ : BufTy).Contents (Elt F)),
    unary main_v75 main_v76 ((extractStridedSlice S16x1024x128 ![0, 0, 0] · slices_S16x1024x384_S16x1024x128_0_0_0) : (⟨S16x1024x384, .f32⟩ : BufTy).Contents (Elt F) → (⟨S16x1024x128, .f32⟩ : BufTy).Contents (Elt F)),
    unary main_v75 main_v77 ((extractStridedSlice S16x1024x128 ![0, 0, 128] · slices_S16x1024x384_S16x1024x128_0_0_128) : (⟨S16x1024x384, .f32⟩ : BufTy).Contents (Elt F) → (⟨S16x1024x128, .f32⟩ : BufTy).Contents (Elt F)),
    unary main_v75 main_v78 ((extractStridedSlice S16x1024x128 ![0, 0, 256] · slices_S16x1024x384_S16x1024x128_0_0_256) : (⟨S16x1024x384, .f32⟩ : BufTy).Contents (Elt F) → (⟨S16x1024x128, .f32⟩ : BufTy).Contents (Elt F)),
    nullary main_call2_cst (constant S_ .f32 0x00000000#32),
    unary main_call2_cst main_call2_v0 (broadcastInDim S16x1024x128 ![] bcast_S_S16x1024x128 : (⟨S_, .f32⟩ : BufTy).Contents (Elt F) → (⟨S16x1024x128, .f32⟩ : BufTy).Contents (Elt F)),
    binary main_v78 main_call2_v0 main_v79 (maximumf : (⟨S16x1024x128, .f32⟩ : BufTy).Contents (Elt F) → (⟨S16x1024x128, .f32⟩ : BufTy).Contents (Elt F) → (⟨S16x1024x128, .f32⟩ : BufTy).Contents (Elt F)),
    binary main_v16 main_v15 main_v80 ((fun l r => Host.dotGeneral dot_S16x1024x128_S16x1024x128_S16x1024x1024_2_2_1_1_0_0 none l r) : (⟨S16x1024x128, .f32⟩ : BufTy).Contents (Elt F) → (⟨S16x1024x128, .f32⟩ : BufTy).Contents (Elt F) → (⟨S16x1024x1024, .f32⟩ : BufTy).Contents (Elt F)),
    unary main_v80 main_v81 (Host.exp : (⟨S16x1024x1024, .f32⟩ : BufTy).Contents (Elt F) → (⟨S16x1024x1024, .f32⟩ : BufTy).Contents (Elt F)),
    binary main_v81 main_arg1 main_v82 (mulf : (⟨S16x1024x1024, .f32⟩ : BufTy).Contents (Elt F) → (⟨S16x1024x1024, .f32⟩ : BufTy).Contents (Elt F) → (⟨S16x1024x1024, .f32⟩ : BufTy).Contents (Elt F)),
    binary main_v82 main_v82 main_v83 (mulf : (⟨S16x1024x1024, .f32⟩ : BufTy).Contents (Elt F) → (⟨S16x1024x1024, .f32⟩ : BufTy).Contents (Elt F) → (⟨S16x1024x1024, .f32⟩ : BufTy).Contents (Elt F)),
    nullary main_cst_8 (constant S_ .f32 0x00000000#32),
    binary main_v83 main_cst_8 main_v84 ((fun x v => Host.reduceAdd x v reducesTo_S16x1024x1024_S16x1024_d1 h_S_) : (⟨S16x1024x1024, .f32⟩ : BufTy).Contents (Elt F) → (⟨S_, .f32⟩ : BufTy).Contents (Elt F) → (⟨S16x1024, .f32⟩ : BufTy).Contents (Elt F)),
    unary main_v84 main_v85 (broadcastInDim S16x1x1024 ![0, 2] bcast_S16x1024_S16x1x1024_0_2 : (⟨S16x1024, .f32⟩ : BufTy).Contents (Elt F) → (⟨S16x1x1024, .f32⟩ : BufTy).Contents (Elt F)),
    unary main_v85 main_v86 (Host.sqrt : (⟨S16x1x1024, .f32⟩ : BufTy).Contents (Elt F) → (⟨S16x1x1024, .f32⟩ : BufTy).Contents (Elt F)),
    nullary main_cst_9 (constant S_ .f32 0x2B8CBCCC#32),
    unary main_cst_9 main_v87 (broadcastInDim S16x1x1024 ![] bcast_S_S16x1x1024 : (⟨S_, .f32⟩ : BufTy).Contents (Elt F) → (⟨S16x1x1024, .f32⟩ : BufTy).Contents (Elt F)),
    binary main_v86 main_v87 main_v88 (maximumf : (⟨S16x1x1024, .f32⟩ : BufTy).Contents (Elt F) → (⟨S16x1x1024, .f32⟩ : BufTy).Contents (Elt F) → (⟨S16x1x1024, .f32⟩ : BufTy).Contents (Elt F)),
    unary main_v88 main_v89 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v82 main_v89 main_v90 (Host.divf : (⟨S16x1024x1024, .f32⟩ : BufTy).Contents (Elt F) → (⟨S16x1024x1024, .f32⟩ : BufTy).Contents (Elt F) → (⟨S16x1024x1024, .f32⟩ : BufTy).Contents (Elt F)),
    binary main_v90 main_v3 main_v91 ((fun l r => Host.dotGeneral dot_S16x1024x1024_S16x1024x128_S16x1024x128_1_1_2_2_0_0 none l r) : (⟨S16x1024x1024, .f32⟩ : BufTy).Contents (Elt F) → (⟨S16x1024x128, .f32⟩ : BufTy).Contents (Elt F) → (⟨S16x1024x128, .f32⟩ : BufTy).Contents (Elt F)),
    nary ![main_v91, main_v16, main_v16] main_v92 (fun u => concatenate S16x1024x384 2 [⟨S16x1024x128, u 0⟩, ⟨S16x1024x128, u 1⟩, ⟨S16x1024x128, u 2⟩] concatenates_S16x1024x128_S16x1024x128_S16x1024x128_S16x1024x384_d2),
    binary main_v92 main_arg8 main_v93 ((fun l r => Host.dotGeneral dot_S16x1024x384_S384x384_S16x1024x384_2_1_01_0_n_n none l r) : (⟨S16x1024x384, .f32⟩ : BufTy).Contents (Elt F) → (⟨S384x384, .f32⟩ : BufTy).Contents (Elt F) → (⟨S16x1024x384, .f32⟩ : BufTy).Contents (Elt F)),
    unary main_arg9 main_v94 (broadcastInDim S1x1x384 ![2] bcast_S384_S1x1x384_2 : (⟨S384, .f32⟩ : BufTy).Contents (Elt F) → (⟨S1x1x384, .f32⟩ : BufTy).Contents (Elt F)),
    unary main_v94 main_v95 (broadcastInDim S16x1024x384 ![0, 1, 2] bcast_S1x1x384_S16x1024x384_0_1_2 : (⟨S1x1x384, .f32⟩ : BufTy).Contents (Elt F) → (⟨S16x1024x384, .f32⟩ : BufTy).Contents (Elt F)),
    binary main_v93 main_v95 main_v96 (addf : (⟨S16x1024x384, .f32⟩ : BufTy).Contents (Elt F) → (⟨S16x1024x384, .f32⟩ : BufTy).Contents (Elt F) → (⟨S16x1024x384, .f32⟩ : BufTy).Contents (Elt F)),
    unary main_v96 main_v97 ((extractStridedSlice S16x1024x128 ![0, 0, 0] · slices_S16x1024x384_S16x1024x128_0_0_0) : (⟨S16x1024x384, .f32⟩ : BufTy).Contents (Elt F) → (⟨S16x1024x128, .f32⟩ : BufTy).Contents (Elt F)),
    unary main_v96 main_v98 ((extractStridedSlice S16x1024x128 ![0, 0, 128] · slices_S16x1024x384_S16x1024x128_0_0_128) : (⟨S16x1024x384, .f32⟩ : BufTy).Contents (Elt F) → (⟨S16x1024x128, .f32⟩ : BufTy).Contents (Elt F)),
    unary main_v96 main_v99 ((extractStridedSlice S16x1024x128 ![0, 0, 256] · slices_S16x1024x384_S16x1024x128_0_0_256) : (⟨S16x1024x384, .f32⟩ : BufTy).Contents (Elt F) → (⟨S16x1024x128, .f32⟩ : BufTy).Contents (Elt F)),
    nullary main_call3_cst (constant S_ .f32 0x00000000#32),
    unary main_call3_cst main_call3_v0 (broadcastInDim S16x1024x128 ![] bcast_S_S16x1024x128 : (⟨S_, .f32⟩ : BufTy).Contents (Elt F) → (⟨S16x1024x128, .f32⟩ : BufTy).Contents (Elt F)),
    binary main_v99 main_call3_v0 main_v100 (maximumf : (⟨S16x1024x128, .f32⟩ : BufTy).Contents (Elt F) → (⟨S16x1024x128, .f32⟩ : BufTy).Contents (Elt F) → (⟨S16x1024x128, .f32⟩ : BufTy).Contents (Elt F)),
    binary main_v98 main_v15 main_v101 ((fun l r => Host.dotGeneral dot_S16x1024x128_S16x1024x128_S16x1024x1024_2_2_1_1_0_0 none l r) : (⟨S16x1024x128, .f32⟩ : BufTy).Contents (Elt F) → (⟨S16x1024x128, .f32⟩ : BufTy).Contents (Elt F) → (⟨S16x1024x1024, .f32⟩ : BufTy).Contents (Elt F)),
    unary main_v101 main_v102 (Host.exp : (⟨S16x1024x1024, .f32⟩ : BufTy).Contents (Elt F) → (⟨S16x1024x1024, .f32⟩ : BufTy).Contents (Elt F)),
    binary main_v102 main_arg1 main_v103 (mulf : (⟨S16x1024x1024, .f32⟩ : BufTy).Contents (Elt F) → (⟨S16x1024x1024, .f32⟩ : BufTy).Contents (Elt F) → (⟨S16x1024x1024, .f32⟩ : BufTy).Contents (Elt F)),
    binary main_v103 main_v103 main_v104 (mulf : (⟨S16x1024x1024, .f32⟩ : BufTy).Contents (Elt F) → (⟨S16x1024x1024, .f32⟩ : BufTy).Contents (Elt F) → (⟨S16x1024x1024, .f32⟩ : BufTy).Contents (Elt F)),
    nullary main_cst_10 (constant S_ .f32 0x00000000#32),
    binary main_v104 main_cst_10 main_v105 ((fun x v => Host.reduceAdd x v reducesTo_S16x1024x1024_S16x1024_d1 h_S_) : (⟨S16x1024x1024, .f32⟩ : BufTy).Contents (Elt F) → (⟨S_, .f32⟩ : BufTy).Contents (Elt F) → (⟨S16x1024, .f32⟩ : BufTy).Contents (Elt F)),
    unary main_v105 main_v106 (broadcastInDim S16x1x1024 ![0, 2] bcast_S16x1024_S16x1x1024_0_2 : (⟨S16x1024, .f32⟩ : BufTy).Contents (Elt F) → (⟨S16x1x1024, .f32⟩ : BufTy).Contents (Elt F)),
    unary main_v106 main_v107 (Host.sqrt : (⟨S16x1x1024, .f32⟩ : BufTy).Contents (Elt F) → (⟨S16x1x1024, .f32⟩ : BufTy).Contents (Elt F)),
    nullary main_cst_11 (constant S_ .f32 0x2B8CBCCC#32),
    unary main_cst_11 main_v108 (broadcastInDim S16x1x1024 ![] bcast_S_S16x1x1024 : (⟨S_, .f32⟩ : BufTy).Contents (Elt F) → (⟨S16x1x1024, .f32⟩ : BufTy).Contents (Elt F)),
    binary main_v107 main_v108 main_v109 (maximumf : (⟨S16x1x1024, .f32⟩ : BufTy).Contents (Elt F) → (⟨S16x1x1024, .f32⟩ : BufTy).Contents (Elt F) → (⟨S16x1x1024, .f32⟩ : BufTy).Contents (Elt F)),
    unary main_v109 main_v110 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v103 main_v110 main_v111 (Host.divf : (⟨S16x1024x1024, .f32⟩ : BufTy).Contents (Elt F) → (⟨S16x1024x1024, .f32⟩ : BufTy).Contents (Elt F) → (⟨S16x1024x1024, .f32⟩ : BufTy).Contents (Elt F)),
    binary main_v111 main_v3 main_v112 ((fun l r => Host.dotGeneral dot_S16x1024x1024_S16x1024x128_S16x1024x128_1_1_2_2_0_0 none l r) : (⟨S16x1024x1024, .f32⟩ : BufTy).Contents (Elt F) → (⟨S16x1024x128, .f32⟩ : BufTy).Contents (Elt F) → (⟨S16x1024x128, .f32⟩ : BufTy).Contents (Elt F)),
    nary ![main_v112, main_v98, main_v100] main_v113 (fun u => concatenate S16x1024x384 2 [⟨S16x1024x128, u 0⟩, ⟨S16x1024x128, u 1⟩, ⟨S16x1024x128, u 2⟩] concatenates_S16x1024x128_S16x1024x128_S16x1024x128_S16x1024x384_d2),
    binary main_v113 main_arg8 main_v114 ((fun l r => Host.dotGeneral dot_S16x1024x384_S384x384_S16x1024x384_2_1_01_0_n_n none l r) : (⟨S16x1024x384, .f32⟩ : BufTy).Contents (Elt F) → (⟨S384x384, .f32⟩ : BufTy).Contents (Elt F) → (⟨S16x1024x384, .f32⟩ : BufTy).Contents (Elt F)),
    unary main_arg9 main_v115 (broadcastInDim S1x1x384 ![2] bcast_S384_S1x1x384_2 : (⟨S384, .f32⟩ : BufTy).Contents (Elt F) → (⟨S1x1x384, .f32⟩ : BufTy).Contents (Elt F)),
    unary main_v115 main_v116 (broadcastInDim S16x1024x384 ![0, 1, 2] bcast_S1x1x384_S16x1024x384_0_1_2 : (⟨S1x1x384, .f32⟩ : BufTy).Contents (Elt F) → (⟨S16x1024x384, .f32⟩ : BufTy).Contents (Elt F)),
    binary main_v114 main_v116 main_v117 (addf : (⟨S16x1024x384, .f32⟩ : BufTy).Contents (Elt F) → (⟨S16x1024x384, .f32⟩ : BufTy).Contents (Elt F) → (⟨S16x1024x384, .f32⟩ : BufTy).Contents (Elt F)),
    unary main_v117 main_v118 ((extractStridedSlice S16x1024x128 ![0, 0, 0] · slices_S16x1024x384_S16x1024x128_0_0_0) : (⟨S16x1024x384, .f32⟩ : BufTy).Contents (Elt F) → (⟨S16x1024x128, .f32⟩ : BufTy).Contents (Elt F)),
    unary main_v117 main_v119 ((extractStridedSlice S16x1024x128 ![0, 0, 128] · slices_S16x1024x384_S16x1024x128_0_0_128) : (⟨S16x1024x384, .f32⟩ : BufTy).Contents (Elt F) → (⟨S16x1024x128, .f32⟩ : BufTy).Contents (Elt F)),
    unary main_v117 main_v120 ((extractStridedSlice S16x1024x128 ![0, 0, 256] · slices_S16x1024x384_S16x1024x128_0_0_256) : (⟨S16x1024x384, .f32⟩ : BufTy).Contents (Elt F) → (⟨S16x1024x128, .f32⟩ : BufTy).Contents (Elt F)),
    nullary main_call4_cst (constant S_ .f32 0x00000000#32),
    unary main_call4_cst main_call4_v0 (broadcastInDim S16x1024x128 ![] bcast_S_S16x1024x128 : (⟨S_, .f32⟩ : BufTy).Contents (Elt F) → (⟨S16x1024x128, .f32⟩ : BufTy).Contents (Elt F)),
    binary main_v120 main_call4_v0 main_v121 (maximumf : (⟨S16x1024x128, .f32⟩ : BufTy).Contents (Elt F) → (⟨S16x1024x128, .f32⟩ : BufTy).Contents (Elt F) → (⟨S16x1024x128, .f32⟩ : BufTy).Contents (Elt F)),
    binary main_v119 main_v15 main_v122 ((fun l r => Host.dotGeneral dot_S16x1024x128_S16x1024x128_S16x1024x1024_2_2_1_1_0_0 none l r) : (⟨S16x1024x128, .f32⟩ : BufTy).Contents (Elt F) → (⟨S16x1024x128, .f32⟩ : BufTy).Contents (Elt F) → (⟨S16x1024x1024, .f32⟩ : BufTy).Contents (Elt F)),
    unary main_v122 main_v123 (Host.exp : (⟨S16x1024x1024, .f32⟩ : BufTy).Contents (Elt F) → (⟨S16x1024x1024, .f32⟩ : BufTy).Contents (Elt F)),
    binary main_v123 main_arg1 main_v124 (mulf : (⟨S16x1024x1024, .f32⟩ : BufTy).Contents (Elt F) → (⟨S16x1024x1024, .f32⟩ : BufTy).Contents (Elt F) → (⟨S16x1024x1024, .f32⟩ : BufTy).Contents (Elt F)),
    binary main_v124 main_v124 main_v125 (mulf : (⟨S16x1024x1024, .f32⟩ : BufTy).Contents (Elt F) → (⟨S16x1024x1024, .f32⟩ : BufTy).Contents (Elt F) → (⟨S16x1024x1024, .f32⟩ : BufTy).Contents (Elt F)),
    nullary main_cst_12 (constant S_ .f32 0x00000000#32),
    binary main_v125 main_cst_12 main_v126 ((fun x v => Host.reduceAdd x v reducesTo_S16x1024x1024_S16x1024_d1 h_S_) : (⟨S16x1024x1024, .f32⟩ : BufTy).Contents (Elt F) → (⟨S_, .f32⟩ : BufTy).Contents (Elt F) → (⟨S16x1024, .f32⟩ : BufTy).Contents (Elt F)),
    unary main_v126 main_v127 (broadcastInDim S16x1x1024 ![0, 2] bcast_S16x1024_S16x1x1024_0_2 : (⟨S16x1024, .f32⟩ : BufTy).Contents (Elt F) → (⟨S16x1x1024, .f32⟩ : BufTy).Contents (Elt F)),
    unary main_v127 main_v128 (Host.sqrt : (⟨S16x1x1024, .f32⟩ : BufTy).Contents (Elt F) → (⟨S16x1x1024, .f32⟩ : BufTy).Contents (Elt F)),
    nullary main_cst_13 (constant S_ .f32 0x2B8CBCCC#32),
    unary main_cst_13 main_v129 (broadcastInDim S16x1x1024 ![] bcast_S_S16x1x1024 : (⟨S_, .f32⟩ : BufTy).Contents (Elt F) → (⟨S16x1x1024, .f32⟩ : BufTy).Contents (Elt F)),
    binary main_v128 main_v129 main_v130 (maximumf : (⟨S16x1x1024, .f32⟩ : BufTy).Contents (Elt F) → (⟨S16x1x1024, .f32⟩ : BufTy).Contents (Elt F) → (⟨S16x1x1024, .f32⟩ : BufTy).Contents (Elt F)),
    unary main_v130 main_v131 (broadcastInDim S16x1024x1024 ![0, 1, 2] bcast_S16x1x1024_S16x1024x1024_0_1_2 : (⟨S16x1x1024, .f32⟩ : BufTy).Contents (Elt F) → (⟨S16x1024x1024, .f32⟩ : BufTy).Contents (Elt F)),
    binary main_v124 main_v131 main_v132 (Host.divf : (⟨S16x1024x1024, .f32⟩ : BufTy).Contents (Elt F) → (⟨S16x1024x1024, .f32⟩ : BufTy).Contents (Elt F) → (⟨S16x1024x1024, .f32⟩ : BufTy).Contents (Elt F)),
    binary main_v132 main_v3 main_v133 ((fun l r => Host.dotGeneral dot_S16x1024x1024_S16x1024x128_S16x1024x128_1_1_2_2_0_0 none l r) : (⟨S16x1024x1024, .f32⟩ : BufTy).Contents (Elt F) → (⟨S16x1024x128, .f32⟩ : BufTy).Contents (Elt F) → (⟨S16x1024x128, .f32⟩ : BufTy).Contents (Elt F)),
    nary ![main_v133, main_v119, main_v121] main_v134 (fun u => concatenate S16x1024x384 2 [⟨S16x1024x128, u 0⟩, ⟨S16x1024x128, u 1⟩, ⟨S16x1024x128, u 2⟩] concatenates_S16x1024x128_S16x1024x128_S16x1024x128_S16x1024x384_d2),
    binary main_v134 main_arg8 main_v135 ((fun l r => Host.dotGeneral dot_S16x1024x384_S384x384_S16x1024x384_2_1_01_0_n_n none l r) : (⟨S16x1024x384, .f32⟩ : BufTy).Contents (Elt F) → (⟨S384x384, .f32⟩ : BufTy).Contents (Elt F) → (⟨S16x1024x384, .f32⟩ : BufTy).Contents (Elt F)),
    unary main_arg9 main_v136 (broadcastInDim S1x1x384 ![2] bcast_S384_S1x1x384_2 : (⟨S384, .f32⟩ : BufTy).Contents (Elt F) → (⟨S1x1x384, .f32⟩ : BufTy).Contents (Elt F)),
    unary main_v136 main_v137 (broadcastInDim S16x1024x384 ![0, 1, 2] bcast_S1x1x384_S16x1024x384_0_1_2 : (⟨S1x1x384, .f32⟩ : BufTy).Contents (Elt F) → (⟨S16x1024x384, .f32⟩ : BufTy).Contents (Elt F)),
    binary main_v135 main_v137 main_v138 (addf : (⟨S16x1024x384, .f32⟩ : BufTy).Contents (Elt F) → (⟨S16x1024x384, .f32⟩ : BufTy).Contents (Elt F) → (⟨S16x1024x384, .f32⟩ : BufTy).Contents (Elt F)),
    unary main_v138 main_v139 ((extractStridedSlice S16x1024x128 ![0, 0, 0] · slices_S16x1024x384_S16x1024x128_0_0_0) : (⟨S16x1024x384, .f32⟩ : BufTy).Contents (Elt F) → (⟨S16x1024x128, .f32⟩ : BufTy).Contents (Elt F)),
    unary main_v138 main_v140 ((extractStridedSlice S16x1024x128 ![0, 0, 128] · slices_S16x1024x384_S16x1024x128_0_0_128) : (⟨S16x1024x384, .f32⟩ : BufTy).Contents (Elt F) → (⟨S16x1024x128, .f32⟩ : BufTy).Contents (Elt F)),
    unary main_v138 main_v141 ((extractStridedSlice S16x1024x128 ![0, 0, 256] · slices_S16x1024x384_S16x1024x128_0_0_256) : (⟨S16x1024x384, .f32⟩ : BufTy).Contents (Elt F) → (⟨S16x1024x128, .f32⟩ : BufTy).Contents (Elt F)),
    nullary main_call5_cst (constant S_ .f32 0x00000000#32),
    unary main_call5_cst main_call5_v0 (broadcastInDim S16x1024x128 ![] bcast_S_S16x1024x128 : (⟨S_, .f32⟩ : BufTy).Contents (Elt F) → (⟨S16x1024x128, .f32⟩ : BufTy).Contents (Elt F)),
    binary main_v141 main_call5_v0 main_v142 (maximumf : (⟨S16x1024x128, .f32⟩ : BufTy).Contents (Elt F) → (⟨S16x1024x128, .f32⟩ : BufTy).Contents (Elt F) → (⟨S16x1024x128, .f32⟩ : BufTy).Contents (Elt F)),
    binary main_arg0 main_arg6 main_v143 ((fun l r => Host.dotGeneral dot_S16x1024x256_S128x256_S16x1024x128_2_1_01_0_n_n none l r) : (⟨S16x1024x256, .f32⟩ : BufTy).Contents (Elt F) → (⟨S128x256, .f32⟩ : BufTy).Contents (Elt F) → (⟨S16x1024x128, .f32⟩ : BufTy).Contents (Elt F)),
    unary main_arg7 main_v144 (broadcastInDim S1x1x128 ![2] bcast_S128_S1x1x128_2 : (⟨S128, .f32⟩ : BufTy).Contents (Elt F) → (⟨S1x1x128, .f32⟩ : BufTy).Contents (Elt F)),
    unary main_v144 main_v145 (broadcastInDim S16x1024x128 ![0, 1, 2] bcast_S1x1x128_S16x1024x128_0_1_2 : (⟨S1x1x128, .f32⟩ : BufTy).Contents (Elt F) → (⟨S16x1024x128, .f32⟩ : BufTy).Contents (Elt F)),
    binary main_v143 main_v145 main_v146 (addf : (⟨S16x1024x128, .f32⟩ : BufTy).Contents (Elt F) → (⟨S16x1024x128, .f32⟩ : BufTy).Contents (Elt F) → (⟨S16x1024x128, .f32⟩ : BufTy).Contents (Elt F)),
    nullary main_call6_cst (constant S_ .f32 0x00000000#32),
    unary main_call6_cst main_call6_v0 (broadcastInDim S16x1024x128 ![] bcast_S_S16x1024x128 : (⟨S_, .f32⟩ : BufTy).Contents (Elt F) → (⟨S16x1024x128, .f32⟩ : BufTy).Contents (Elt F)),
    binary main_v146 main_call6_v0 main_v147 (maximumf : (⟨S16x1024x128, .f32⟩ : BufTy).Contents (Elt F) → (⟨S16x1024x128, .f32⟩ : BufTy).Contents (Elt F) → (⟨S16x1024x128, .f32⟩ : BufTy).Contents (Elt F)),
    nullary main_call7_cst (constant S_ .f32 0x00000000#32),
    unary main_call7_cst main_call7_v0 (broadcastInDim S16x1024x128 ![] bcast_S_S16x1024x128 : (⟨S_, .f32⟩ : BufTy).Contents (Elt F) → (⟨S16x1024x128, .f32⟩ : BufTy).Contents (Elt F)),
    binary main_v76 main_call7_v0 main_v148 (maximumf : (⟨S16x1024x128, .f32⟩ : BufTy).Contents (Elt F) → (⟨S16x1024x128, .f32⟩ : BufTy).Contents (Elt F) → (⟨S16x1024x128, .f32⟩ : BufTy).Contents (Elt F)),
    nullary main_call8_cst (constant S_ .f32 0x00000000#32),
    unary main_call8_cst main_call8_v0 (broadcastInDim S16x1024x128 ![] bcast_S_S16x1024x128 : (⟨S_, .f32⟩ : BufTy).Contents (Elt F) → (⟨S16x1024x128, .f32⟩ : BufTy).Contents (Elt F)),
    binary main_v139 main_call8_v0 main_v149 (maximumf : (⟨S16x1024x128, .f32⟩ : BufTy).Contents (Elt F) → (⟨S16x1024x128, .f32⟩ : BufTy).Contents (Elt F) → (⟨S16x1024x128, .f32⟩ : BufTy).Contents (Elt F)),
    nary ![main_v148, main_v147, main_v149] main_v150 (fun u => concatenate S16x1024x384 2 [⟨S16x1024x128, u 0⟩, ⟨S16x1024x128, u 1⟩, ⟨S16x1024x128, u 2⟩] concatenates_S16x1024x128_S16x1024x128_S16x1024x128_S16x1024x384_d2),
    binary main_v150 main_arg10 main_v151 ((fun l r => Host.dotGeneral dot_S16x1024x384_S256x384_S16x1024x256_2_1_01_0_n_n none l r) : (⟨S16x1024x384, .f32⟩ : BufTy).Contents (Elt F) → (⟨S256x384, .f32⟩ : BufTy).Contents (Elt F) → (⟨S16x1024x256, .f32⟩ : BufTy).Contents (Elt F)),
    unary main_arg11 main_v152 (broadcastInDim S1x1x256 ![2] bcast_S256_S1x1x256_2 : (⟨S256, .f32⟩ : BufTy).Contents (Elt F) → (⟨S1x1x256, .f32⟩ : BufTy).Contents (Elt F)),
    unary main_v152 main_v153 (broadcastInDim S16x1024x256 ![0, 1, 2] bcast_S1x1x256_S16x1024x256_0_1_2 : (⟨S1x1x256, .f32⟩ : BufTy).Contents (Elt F) → (⟨S16x1024x256, .f32⟩ : BufTy).Contents (Elt F)),
    binary main_v151 main_v153 main_v154 (addf : (⟨S16x1024x256, .f32⟩ : BufTy).Contents (Elt F) → (⟨S16x1024x256, .f32⟩ : BufTy).Contents (Elt F) → (⟨S16x1024x256, .f32⟩ : BufTy).Contents (Elt F)),
    nullary main_call9_cst (constant S_ .f32 0x00000000#32),
    unary main_call9_cst main_call9_v0 (broadcastInDim S16x1024x256 ![] bcast_S_S16x1024x256 : (⟨S_, .f32⟩ : BufTy).Contents (Elt F) → (⟨S16x1024x256, .f32⟩ : BufTy).Contents (Elt F)),
    binary main_v154 main_call9_v0 main_v155 (maximumf : (⟨S16x1024x256, .f32⟩ : BufTy).Contents (Elt F) → (⟨S16x1024x256, .f32⟩ : BufTy).Contents (Elt F) → (⟨S16x1024x256, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nary_bufs_sub .., binary_bufs_sub .., unary_bufs_sub .., unary_bufs_sub .., binary_bufs_sub .., unary_bufs_sub .., unary_bufs_sub .., unary_bufs_sub .., nullary_bufs_sub .., unary_bufs_sub .., binary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nary_bufs_sub .., binary_bufs_sub .., unary_bufs_sub .., unary_bufs_sub .., binary_bufs_sub .., unary_bufs_sub .., unary_bufs_sub .., unary_bufs_sub .., nullary_bufs_sub .., unary_bufs_sub .., binary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nary_bufs_sub .., binary_bufs_sub .., unary_bufs_sub .., unary_bufs_sub .., binary_bufs_sub .., unary_bufs_sub .., unary_bufs_sub .., unary_bufs_sub .., nullary_bufs_sub .., unary_bufs_sub .., binary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nary_bufs_sub .., binary_bufs_sub .., unary_bufs_sub .., unary_bufs_sub .., binary_bufs_sub .., unary_bufs_sub .., unary_bufs_sub .., unary_bufs_sub .., nullary_bufs_sub .., unary_bufs_sub .., binary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nary_bufs_sub .., binary_bufs_sub .., unary_bufs_sub .., unary_bufs_sub .., binary_bufs_sub .., unary_bufs_sub .., unary_bufs_sub .., unary_bufs_sub .., nullary_bufs_sub .., unary_bufs_sub .., binary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nary_bufs_sub .., binary_bufs_sub .., unary_bufs_sub .., unary_bufs_sub .., binary_bufs_sub .., unary_bufs_sub .., unary_bufs_sub .., unary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nary_bufs_sub .., binary_bufs_sub .., unary_bufs_sub .., unary_bufs_sub .., binary_bufs_sub .., nullary_bufs_sub .., unary_bufs_sub .., binary_bufs_sub ..⟩

/-- Three blocks of 128 columns joined, as a function of the three blocks. -/
def cat3 (p q r : (⟨S16x1024x128, .f32⟩ : BufTy).Contents (Elt F)) : (⟨S16x1024x384, .f32⟩ : BufTy).Contents (Elt F) :=
  concatenate S16x1024x384 2 [⟨S16x1024x128, p⟩, ⟨S16x1024x128, q⟩, ⟨S16x1024x128, r⟩] concatenates_S16x1024x128_S16x1024x128_S16x1024x128_S16x1024x384_d2

/-! Each named value is its operation applied to the named values of its operands. Operations with the same function
    and the same operands have one representative name. -/

theorem fold_v0 (x0 : (⟨S16x1024x256, .f32⟩ : BufTy).Contents (Elt F)) (x2 : (⟨S128x256, .f32⟩ : BufTy).Contents (Elt F)) :
    Host.dotGeneral dot_S16x1024x256_S128x256_S16x1024x128_2_1_01_0_n_n none (x0) (x2) = val_main_v0 (F := F) x0 x2 := rfl
theorem fold_v1 (x3 : (⟨S128, .f32⟩ : BufTy).Contents (Elt F)) :
    broadcastInDim S1x1x128 ![2] bcast_S128_S1x1x128_2 (x3) = val_main_v1 (F := F) x3 := rfl
theorem fold_v2 (x3 : (⟨S128, .f32⟩ : BufTy).Contents (Elt F)) :
    broadcastInDim S16x1024x128 ![0, 1, 2] bcast_S1x1x128_S16x1024x128_0_1_2 (val_main_v1 (F := F) x3) = val_main_v2 (F := F) x3 := rfl
theorem fold_v3 (x0 : (⟨S16x1024x256, .f32⟩ : BufTy).Contents (Elt F)) (x2 : (⟨S128x256, .f32⟩ : BufTy).Contents (Elt F)) (x3 : (⟨S128, .f32⟩ : BufTy).Contents (Elt F)) :
    addf (val_main_v0 (F := F) x0 x2) (val_main_v2 (F := F) x3) = val_main_v3 (F := F) x0 x2 x3 := rfl
theorem fold_v8 (x0 : (⟨S16x1024x256, .f32⟩ : BufTy).Contents (Elt F)) (x4 : (⟨S128x256, .f32⟩ : BufTy).Contents (Elt F)) (x5 : (⟨S128, .f32⟩ : BufTy).Contents (Elt F)) :
    mulf (val_main_v3 (F := F) x0 x4 x5) (val_main_v3 (F := F) x0 x4 x5) = val_main_v8 (F := F) x0 x4 x5 := rfl
theorem fold_cst  :
    constant S_ .f32 0x00000000#32 = val_main_cst (F := F)  := rfl
theorem fold_v9 (x0 : (⟨S16x1024x256, .f32⟩ : BufTy).Contents (Elt F)) (x4 : (⟨S128x256, .f32⟩ : BufTy).Contents (Elt F)) (x5 : (⟨S128, .f32⟩ : BufTy).Contents (Elt F)) :
    Host.reduceAdd (val_main_v8 (F := F) x0 x4 x5) (val_main_cst (F := F)) reducesTo_S16x1024x128_S16x1024_d2 h_S_ = val_main_v9 (F := F) x0 x4 x5 := rfl
theorem fold_v10 (x0 : (⟨S16x1024x256, .f32⟩ : BufTy).Contents (Elt F)) (x4 : (⟨S128x256, .f32⟩ : BufTy).Contents (Elt F)) (x5 : (⟨S128, .f32⟩ : BufTy).Contents (Elt F)) :
    broadcastInDim S16x1024x1 ![0, 1] bcast_S16x1024_S16x1024x1_0_1 (val_main_v9 (F := F) x0 x4 x5) = val_main_v10 (F := F) x0 x4 x5 := rfl
theorem fold_v11 (x0 : (⟨S16x1024x256, .f32⟩ : BufTy).Contents (Elt F)) (x4 : (⟨S128x256, .f32⟩ : BufTy).Contents (Elt F)) (x5 : (⟨S128, .f32⟩ : BufTy).Contents (Elt F)) :
    Host.sqrt (val_main_v10 (F := F) x0 x4 x5) = val_main_v11 (F := F) x0 x4 x5 := rfl
theorem fold_cst_0  :
    constant S_ .f32 0x2B8CBCCC#32 = val_main_cst_0 (F := F)  := rfl
theorem fold_v12  :
    broadcastInDim S16x1024x1 ![] bcast_S_S16x1024x1 (val_main_cst_0 (F := F)) = val_main_v12 (F := F)  := rfl
theorem fold_v13 (x0 : (⟨S16x1024x256, .f32⟩ : BufTy).Contents (Elt F)) (x4 : (⟨S128x256, .f32⟩ : BufTy).Contents (Elt F)) (x5 : (⟨S128, .f32⟩ : BufTy).Contents (Elt F)) :
    maximumf (val_main_v11 (F := F) x0 x4 x5) (val_main_v12 (F := F)) = val_main_v13 (F := F) x0 x4 x5 := rfl
theorem fold_v14 (x0 : (⟨S16x1024x256, .f32⟩ : BufTy).Contents (Elt F)) (x4 : (⟨S128x256, .f32⟩ : BufTy).Contents (Elt F)) (x5 : (⟨S128, .f32⟩ : BufTy).Contents (Elt F)) :
    broadcastInDim S16x1024x128 ![0, 1, 2] bcast_S16x1024x1_S16x1024x128_0_1_2 (val_main_v13 (F := F) x0 x4 x5) = val_main_v14 (F := F) x0 x4 x5 := rfl
theorem fold_v15 (x0 : (⟨S16x1024x256, .f32⟩ : BufTy).Contents (Elt F)) (x4 : (⟨S128x256, .f32⟩ : BufTy).Contents (Elt F)) (x5 : (⟨S128, .f32⟩ : BufTy).Contents (Elt F)) :
    Host.divf (val_main_v3 (F := F) x0 x4 x5) (val_main_v14 (F := F) x0 x4 x5) = val_main_v15 (F := F) x0 x4 x5 := rfl
theorem fold_v16  :
    broadcastInDim S16x1024x128 ![] bcast_S_S16x1024x128 (val_main_cst (F := F)) = val_main_v16 (F := F)  := rfl
theorem fold_v17 (x0 : (⟨S16x1024x256, .f32⟩ : BufTy).Contents (Elt F)) (x4 : (⟨S128x256, .f32⟩ : BufTy).Contents (Elt F)) (x5 : (⟨S128, .f32⟩ : BufTy).Contents (Elt F)) :
    Host.dotGeneral dot_S16x1024x128_S16x1024x128_S16x1024x1024_2_2_1_1_0_0 none (val_main_v16 (F := F)) (val_main_v15 (F := F) x0 x4 x5) = val_main_v17 (F := F) x0 x4 x5 := rfl
theorem fold_v18 (x0 : (⟨S16x1024x256, .f32⟩ : BufTy).Contents (Elt F)) (x4 : (⟨S128x256, .f32⟩ : BufTy).Contents (Elt F)) (x5 : (⟨S128, .f32⟩ : BufTy).Contents (Elt F)) :
    Host.exp (val_main_v17 (F := F) x0 x4 x5) = val_main_v18 (F := F) x0 x4 x5 := rfl
theorem fold_v19 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    mulf (val_main_v18 (F := F) x0 x4 x5) (x1) = val_main_v19 (F := F) x0 x1 x4 x5 := rfl
theorem fold_v20 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    mulf (val_main_v19 (F := F) x0 x1 x4 x5) (val_main_v19 (F := F) x0 x1 x4 x5) = val_main_v20 (F := F) x0 x1 x4 x5 := rfl
theorem fold_v21 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    Host.reduceAdd (val_main_v20 (F := F) x0 x1 x4 x5) (val_main_cst (F := F)) reducesTo_S16x1024x1024_S16x1024_d2 h_S_ = val_main_v21 (F := F) x0 x1 x4 x5 := rfl
theorem fold_v22 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    broadcastInDim S16x1024x1 ![0, 1] bcast_S16x1024_S16x1024x1_0_1 (val_main_v21 (F := F) x0 x1 x4 x5) = val_main_v22 (F := F) x0 x1 x4 x5 := rfl
theorem fold_v23 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    Host.sqrt (val_main_v22 (F := F) x0 x1 x4 x5) = val_main_v23 (F := F) x0 x1 x4 x5 := rfl
theorem fold_v25 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    maximumf (val_main_v23 (F := F) x0 x1 x4 x5) (val_main_v12 (F := F)) = val_main_v25 (F := F) x0 x1 x4 x5 := rfl
theorem fold_v26 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    broadcastInDim S16x1024x1024 ![0, 1, 2] bcast_S16x1024x1_S16x1024x1024_0_1_2 (val_main_v25 (F := F) x0 x1 x4 x5) = val_main_v26 (F := F) x0 x1 x4 x5 := rfl
theorem fold_v27 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    Host.divf (val_main_v19 (F := F) x0 x1 x4 x5) (val_main_v26 (F := F) x0 x1 x4 x5) = val_main_v27 (F := F) x0 x1 x4 x5 := rfl
theorem fold_v28 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) :
    Host.dotGeneral dot_S16x1024x1024_S16x1024x128_S16x1024x128_2_1_1_2_0_0 none (val_main_v27 (F := F) x0 x1 x4 x5) (val_main_v3 (F := F) x0 x2 x3) = val_main_v28 (F := F) x0 x1 x2 x3 x4 x5 := rfl
theorem fold_v29 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) :
    cat3 (F := F) (val_main_v28 (F := F) x0 x1 x2 x3 x4 x5) (val_main_v16 (F := F)) (val_main_v16 (F := F)) = val_main_v29 (F := F) x0 x1 x2 x3 x4 x5 := rfl
theorem fold_v30 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) :
    Host.dotGeneral dot_S16x1024x384_S384x384_S16x1024x384_2_1_01_0_n_n none (val_main_v29 (F := F) x0 x1 x2 x3 x4 x5) (x8) = val_main_v30 (F := F) x0 x1 x2 x3 x4 x5 x8 := rfl
theorem fold_v31 (x9 : (⟨S384, .f32⟩ : BufTy).Contents (Elt F)) :
    broadcastInDim S1x1x384 ![2] bcast_S384_S1x1x384_2 (x9) = val_main_v31 (F := F) x9 := rfl
theorem fold_v32 (x9 : (⟨S384, .f32⟩ : BufTy).Contents (Elt F)) :
    broadcastInDim S16x1024x384 ![0, 1, 2] bcast_S1x1x384_S16x1024x384_0_1_2 (val_main_v31 (F := F) x9) = val_main_v32 (F := F) x9 := rfl
theorem fold_v33 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    addf (val_main_v30 (F := F) x0 x1 x2 x3 x4 x5 x8) (val_main_v32 (F := F) x9) = val_main_v33 (F := F) x0 x1 x2 x3 x4 x5 x8 x9 := rfl
theorem fold_v34 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 0] (val_main_v33 (F := F) x0 x1 x2 x3 x4 x5 x8 x9) slices_S16x1024x384_S16x1024x128_0_0_0 = val_main_v34 (F := F) x0 x1 x2 x3 x4 x5 x8 x9 := rfl
theorem fold_v35 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 128] (val_main_v33 (F := F) x0 x1 x2 x3 x4 x5 x8 x9) slices_S16x1024x384_S16x1024x128_0_0_128 = val_main_v35 (F := F) x0 x1 x2 x3 x4 x5 x8 x9 := rfl
theorem fold_v36 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 256] (val_main_v33 (F := F) x0 x1 x2 x3 x4 x5 x8 x9) slices_S16x1024x384_S16x1024x128_0_0_256 = val_main_v36 (F := F) x0 x1 x2 x3 x4 x5 x8 x9 := rfl
theorem fold_v37 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v36 (F := F) x0 x1 x2 x3 x4 x5 x8 x9) (val_main_v16 (F := F)) = val_main_v37 (F := F) x0 x1 x2 x3 x4 x5 x8 x9 := rfl
theorem fold_v38 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x128_S16x1024x128_S16x1024x1024_2_2_1_1_0_0 none (val_main_v35 (F := F) x0 x1 x2 x3 x4 x5 x8 x9) (val_main_v15 (F := F) x0 x4 x5) = val_main_v38 (F := F) x0 x1 x2 x3 x4 x5 x8 x9 := rfl
theorem fold_v39 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.exp (val_main_v38 (F := F) x0 x1 x2 x3 x4 x5 x8 x9) = val_main_v39 (F := F) x0 x1 x2 x3 x4 x5 x8 x9 := rfl
theorem fold_v40 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    mulf (val_main_v39 (F := F) x0 x1 x2 x3 x4 x5 x8 x9) (x1) = val_main_v40 (F := F) x0 x1 x2 x3 x4 x5 x8 x9 := rfl
theorem fold_v41 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    mulf (val_main_v40 (F := F) x0 x1 x2 x3 x4 x5 x8 x9) (val_main_v40 (F := F) x0 x1 x2 x3 x4 x5 x8 x9) = val_main_v41 (F := F) x0 x1 x2 x3 x4 x5 x8 x9 := rfl
theorem fold_v42 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.reduceAdd (val_main_v41 (F := F) x0 x1 x2 x3 x4 x5 x8 x9) (val_main_cst (F := F)) reducesTo_S16x1024x1024_S16x1024_d2 h_S_ = val_main_v42 (F := F) x0 x1 x2 x3 x4 x5 x8 x9 := rfl
theorem fold_v43 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    broadcastInDim S16x1024x1 ![0, 1] bcast_S16x1024_S16x1024x1_0_1 (val_main_v42 (F := F) x0 x1 x2 x3 x4 x5 x8 x9) = val_main_v43 (F := F) x0 x1 x2 x3 x4 x5 x8 x9 := rfl
theorem fold_v44 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.sqrt (val_main_v43 (F := F) x0 x1 x2 x3 x4 x5 x8 x9) = val_main_v44 (F := F) x0 x1 x2 x3 x4 x5 x8 x9 := rfl
theorem fold_v46 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v44 (F := F) x0 x1 x2 x3 x4 x5 x8 x9) (val_main_v12 (F := F)) = val_main_v46 (F := F) x0 x1 x2 x3 x4 x5 x8 x9 := rfl
theorem fold_v47 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    broadcastInDim S16x1024x1024 ![0, 1, 2] bcast_S16x1024x1_S16x1024x1024_0_1_2 (val_main_v46 (F := F) x0 x1 x2 x3 x4 x5 x8 x9) = val_main_v47 (F := F) x0 x1 x2 x3 x4 x5 x8 x9 := rfl
theorem fold_v48 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.divf (val_main_v40 (F := F) x0 x1 x2 x3 x4 x5 x8 x9) (val_main_v47 (F := F) x0 x1 x2 x3 x4 x5 x8 x9) = val_main_v48 (F := F) x0 x1 x2 x3 x4 x5 x8 x9 := rfl
theorem fold_v49 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x1024_S16x1024x128_S16x1024x128_2_1_1_2_0_0 none (val_main_v48 (F := F) x0 x1 x2 x3 x4 x5 x8 x9) (val_main_v3 (F := F) x0 x2 x3) = val_main_v49 (F := F) x0 x1 x2 x3 x4 x5 x8 x9 := rfl
theorem fold_v50 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    cat3 (F := F) (val_main_v49 (F := F) x0 x1 x2 x3 x4 x5 x8 x9) (val_main_v35 (F := F) x0 x1 x2 x3 x4 x5 x8 x9) (val_main_v37 (F := F) x0 x1 x2 x3 x4 x5 x8 x9) = val_main_v50 (F := F) x0 x1 x2 x3 x4 x5 x8 x9 := rfl
theorem fold_v51 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x384_S384x384_S16x1024x384_2_1_01_0_n_n none (val_main_v50 (F := F) x0 x1 x2 x3 x4 x5 x8 x9) (x8) = val_main_v51 (F := F) x0 x1 x2 x3 x4 x5 x8 x9 := rfl
theorem fold_v54 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    addf (val_main_v51 (F := F) x0 x1 x2 x3 x4 x5 x8 x9) (val_main_v32 (F := F) x9) = val_main_v54 (F := F) x0 x1 x2 x3 x4 x5 x8 x9 := rfl
theorem fold_v55 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 0] (val_main_v54 (F := F) x0 x1 x2 x3 x4 x5 x8 x9) slices_S16x1024x384_S16x1024x128_0_0_0 = val_main_v55 (F := F) x0 x1 x2 x3 x4 x5 x8 x9 := rfl
theorem fold_v56 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 128] (val_main_v54 (F := F) x0 x1 x2 x3 x4 x5 x8 x9) slices_S16x1024x384_S16x1024x128_0_0_128 = val_main_v56 (F := F) x0 x1 x2 x3 x4 x5 x8 x9 := rfl
theorem fold_v57 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 256] (val_main_v54 (F := F) x0 x1 x2 x3 x4 x5 x8 x9) slices_S16x1024x384_S16x1024x128_0_0_256 = val_main_v57 (F := F) x0 x1 x2 x3 x4 x5 x8 x9 := rfl
theorem fold_v58 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v57 (F := F) x0 x1 x2 x3 x4 x5 x8 x9) (val_main_v16 (F := F)) = val_main_v58 (F := F) x0 x1 x2 x3 x4 x5 x8 x9 := rfl
theorem fold_v59 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x128_S16x1024x128_S16x1024x1024_2_2_1_1_0_0 none (val_main_v56 (F := F) x0 x1 x2 x3 x4 x5 x8 x9) (val_main_v15 (F := F) x0 x4 x5) = val_main_v59 (F := F) x0 x1 x2 x3 x4 x5 x8 x9 := rfl
theorem fold_v60 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.exp (val_main_v59 (F := F) x0 x1 x2 x3 x4 x5 x8 x9) = val_main_v60 (F := F) x0 x1 x2 x3 x4 x5 x8 x9 := rfl
theorem fold_v61 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    mulf (val_main_v60 (F := F) x0 x1 x2 x3 x4 x5 x8 x9) (x1) = val_main_v61 (F := F) x0 x1 x2 x3 x4 x5 x8 x9 := rfl
theorem fold_v62 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    mulf (val_main_v61 (F := F) x0 x1 x2 x3 x4 x5 x8 x9) (val_main_v61 (F := F) x0 x1 x2 x3 x4 x5 x8 x9) = val_main_v62 (F := F) x0 x1 x2 x3 x4 x5 x8 x9 := rfl
theorem fold_v63 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.reduceAdd (val_main_v62 (F := F) x0 x1 x2 x3 x4 x5 x8 x9) (val_main_cst (F := F)) reducesTo_S16x1024x1024_S16x1024_d2 h_S_ = val_main_v63 (F := F) x0 x1 x2 x3 x4 x5 x8 x9 := rfl
theorem fold_v64 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    broadcastInDim S16x1024x1 ![0, 1] bcast_S16x1024_S16x1024x1_0_1 (val_main_v63 (F := F) x0 x1 x2 x3 x4 x5 x8 x9) = val_main_v64 (F := F) x0 x1 x2 x3 x4 x5 x8 x9 := rfl
theorem fold_v65 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.sqrt (val_main_v64 (F := F) x0 x1 x2 x3 x4 x5 x8 x9) = val_main_v65 (F := F) x0 x1 x2 x3 x4 x5 x8 x9 := rfl
theorem fold_v67 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v65 (F := F) x0 x1 x2 x3 x4 x5 x8 x9) (val_main_v12 (F := F)) = val_main_v67 (F := F) x0 x1 x2 x3 x4 x5 x8 x9 := rfl
theorem fold_v68 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    broadcastInDim S16x1024x1024 ![0, 1, 2] bcast_S16x1024x1_S16x1024x1024_0_1_2 (val_main_v67 (F := F) x0 x1 x2 x3 x4 x5 x8 x9) = val_main_v68 (F := F) x0 x1 x2 x3 x4 x5 x8 x9 := rfl
theorem fold_v69 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.divf (val_main_v61 (F := F) x0 x1 x2 x3 x4 x5 x8 x9) (val_main_v68 (F := F) x0 x1 x2 x3 x4 x5 x8 x9) = val_main_v69 (F := F) x0 x1 x2 x3 x4 x5 x8 x9 := rfl
theorem fold_v70 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x1024_S16x1024x128_S16x1024x128_2_1_1_2_0_0 none (val_main_v69 (F := F) x0 x1 x2 x3 x4 x5 x8 x9) (val_main_v3 (F := F) x0 x2 x3) = val_main_v70 (F := F) x0 x1 x2 x3 x4 x5 x8 x9 := rfl
theorem fold_v71 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    cat3 (F := F) (val_main_v70 (F := F) x0 x1 x2 x3 x4 x5 x8 x9) (val_main_v56 (F := F) x0 x1 x2 x3 x4 x5 x8 x9) (val_main_v58 (F := F) x0 x1 x2 x3 x4 x5 x8 x9) = val_main_v71 (F := F) x0 x1 x2 x3 x4 x5 x8 x9 := rfl
theorem fold_v72 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x384_S384x384_S16x1024x384_2_1_01_0_n_n none (val_main_v71 (F := F) x0 x1 x2 x3 x4 x5 x8 x9) (x8) = val_main_v72 (F := F) x0 x1 x2 x3 x4 x5 x8 x9 := rfl
theorem fold_v75 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    addf (val_main_v72 (F := F) x0 x1 x2 x3 x4 x5 x8 x9) (val_main_v32 (F := F) x9) = val_main_v75 (F := F) x0 x1 x2 x3 x4 x5 x8 x9 := rfl
theorem fold_v76 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 0] (val_main_v75 (F := F) x0 x1 x2 x3 x4 x5 x8 x9) slices_S16x1024x384_S16x1024x128_0_0_0 = val_main_v76 (F := F) x0 x1 x2 x3 x4 x5 x8 x9 := rfl
theorem fold_v77 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 128] (val_main_v75 (F := F) x0 x1 x2 x3 x4 x5 x8 x9) slices_S16x1024x384_S16x1024x128_0_0_128 = val_main_v77 (F := F) x0 x1 x2 x3 x4 x5 x8 x9 := rfl
theorem fold_v78 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 256] (val_main_v75 (F := F) x0 x1 x2 x3 x4 x5 x8 x9) slices_S16x1024x384_S16x1024x128_0_0_256 = val_main_v78 (F := F) x0 x1 x2 x3 x4 x5 x8 x9 := rfl
theorem fold_v79 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v78 (F := F) x0 x1 x2 x3 x4 x5 x8 x9) (val_main_v16 (F := F)) = val_main_v79 (F := F) x0 x1 x2 x3 x4 x5 x8 x9 := rfl
theorem fold_v84 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    Host.reduceAdd (val_main_v20 (F := F) x0 x1 x4 x5) (val_main_cst (F := F)) reducesTo_S16x1024x1024_S16x1024_d1 h_S_ = val_main_v84 (F := F) x0 x1 x4 x5 := rfl
theorem fold_v85 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    broadcastInDim S16x1x1024 ![0, 2] bcast_S16x1024_S16x1x1024_0_2 (val_main_v84 (F := F) x0 x1 x4 x5) = val_main_v85 (F := F) x0 x1 x4 x5 := rfl
theorem fold_v86 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    Host.sqrt (val_main_v85 (F := F) x0 x1 x4 x5) = val_main_v86 (F := F) x0 x1 x4 x5 := rfl
theorem fold_v87  :
    broadcastInDim S16x1x1024 ![] bcast_S_S16x1x1024 (val_main_cst_0 (F := F)) = val_main_v87 (F := F)  := rfl
theorem fold_v88 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    maximumf (val_main_v86 (F := F) x0 x1 x4 x5) (val_main_v87 (F := F)) = val_main_v88 (F := F) x0 x1 x4 x5 := rfl
theorem fold_v89 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    broadcastInDim S16x1024x1024 ![0, 1, 2] bcast_S16x1x1024_S16x1024x1024_0_1_2 (val_main_v88 (F := F) x0 x1 x4 x5) = val_main_v89 (F := F) x0 x1 x4 x5 := rfl
theorem fold_v90 (x0 : (⟨S16x1024x256, .f32⟩ : BufTy).Contents (Elt F)) (x1 : (⟨S16x1024x1024, .f32⟩ : BufTy).Contents (Elt F)) (x4 : (⟨S128x256, .f32⟩ : BufTy).Contents (Elt F)) (x5 : (⟨S128, .f32⟩ : BufTy).Contents (Elt F)) :
    Host.divf (val_main_v19 (F := F) x0 x1 x4 x5) (val_main_v89 (F := F) x0 x1 x4 x5) = val_main_v90 (F := F) x0 x1 x4 x5 := rfl
theorem fold_v91 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) :
    Host.dotGeneral dot_S16x1024x1024_S16x1024x128_S16x1024x128_1_1_2_2_0_0 none (val_main_v90 (F := F) x0 x1 x4 x5) (val_main_v3 (F := F) x0 x2 x3) = val_main_v91 (F := F) x0 x1 x2 x3 x4 x5 := rfl
theorem fold_v92 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) :
    cat3 (F := F) (val_main_v91 (F := F) x0 x1 x2 x3 x4 x5) (val_main_v16 (F := F)) (val_main_v16 (F := F)) = val_main_v92 (F := F) x0 x1 x2 x3 x4 x5 := rfl
theorem fold_v93 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) :
    Host.dotGeneral dot_S16x1024x384_S384x384_S16x1024x384_2_1_01_0_n_n none (val_main_v92 (F := F) x0 x1 x2 x3 x4 x5) (x8) = val_main_v93 (F := F) x0 x1 x2 x3 x4 x5 x8 := rfl
theorem fold_v96 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    addf (val_main_v93 (F := F) x0 x1 x2 x3 x4 x5 x8) (val_main_v32 (F := F) x9) = val_main_v96 (F := F) x0 x1 x2 x3 x4 x5 x8 x9 := rfl
theorem fold_v97 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 0] (val_main_v96 (F := F) x0 x1 x2 x3 x4 x5 x8 x9) slices_S16x1024x384_S16x1024x128_0_0_0 = val_main_v97 (F := F) x0 x1 x2 x3 x4 x5 x8 x9 := rfl
theorem fold_v98 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 128] (val_main_v96 (F := F) x0 x1 x2 x3 x4 x5 x8 x9) slices_S16x1024x384_S16x1024x128_0_0_128 = val_main_v98 (F := F) x0 x1 x2 x3 x4 x5 x8 x9 := rfl
theorem fold_v99 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 256] (val_main_v96 (F := F) x0 x1 x2 x3 x4 x5 x8 x9) slices_S16x1024x384_S16x1024x128_0_0_256 = val_main_v99 (F := F) x0 x1 x2 x3 x4 x5 x8 x9 := rfl
theorem fold_v100 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v99 (F := F) x0 x1 x2 x3 x4 x5 x8 x9) (val_main_v16 (F := F)) = val_main_v100 (F := F) x0 x1 x2 x3 x4 x5 x8 x9 := rfl
theorem fold_v101 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x128_S16x1024x128_S16x1024x1024_2_2_1_1_0_0 none (val_main_v98 (F := F) x0 x1 x2 x3 x4 x5 x8 x9) (val_main_v15 (F := F) x0 x4 x5) = val_main_v101 (F := F) x0 x1 x2 x3 x4 x5 x8 x9 := rfl
theorem fold_v102 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.exp (val_main_v101 (F := F) x0 x1 x2 x3 x4 x5 x8 x9) = val_main_v102 (F := F) x0 x1 x2 x3 x4 x5 x8 x9 := rfl
theorem fold_v103 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    mulf (val_main_v102 (F := F) x0 x1 x2 x3 x4 x5 x8 x9) (x1) = val_main_v103 (F := F) x0 x1 x2 x3 x4 x5 x8 x9 := rfl
theorem fold_v104 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    mulf (val_main_v103 (F := F) x0 x1 x2 x3 x4 x5 x8 x9) (val_main_v103 (F := F) x0 x1 x2 x3 x4 x5 x8 x9) = val_main_v104 (F := F) x0 x1 x2 x3 x4 x5 x8 x9 := rfl
theorem fold_v105 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.reduceAdd (val_main_v104 (F := F) x0 x1 x2 x3 x4 x5 x8 x9) (val_main_cst (F := F)) reducesTo_S16x1024x1024_S16x1024_d1 h_S_ = val_main_v105 (F := F) x0 x1 x2 x3 x4 x5 x8 x9 := rfl
theorem fold_v106 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    broadcastInDim S16x1x1024 ![0, 2] bcast_S16x1024_S16x1x1024_0_2 (val_main_v105 (F := F) x0 x1 x2 x3 x4 x5 x8 x9) = val_main_v106 (F := F) x0 x1 x2 x3 x4 x5 x8 x9 := rfl
theorem fold_v107 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.sqrt (val_main_v106 (F := F) x0 x1 x2 x3 x4 x5 x8 x9) = val_main_v107 (F := F) x0 x1 x2 x3 x4 x5 x8 x9 := rfl
theorem fold_v109 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v107 (F := F) x0 x1 x2 x3 x4 x5 x8 x9) (val_main_v87 (F := F)) = val_main_v109 (F := F) x0 x1 x2 x3 x4 x5 x8 x9 := rfl
theorem fold_v110 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    broadcastInDim S16x1024x1024 ![0, 1, 2] bcast_S16x1x1024_S16x1024x1024_0_1_2 (val_main_v109 (F := F) x0 x1 x2 x3 x4 x5 x8 x9) = val_main_v110 (F := F) x0 x1 x2 x3 x4 x5 x8 x9 := rfl
theorem fold_v111 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.divf (val_main_v103 (F := F) x0 x1 x2 x3 x4 x5 x8 x9) (val_main_v110 (F := F) x0 x1 x2 x3 x4 x5 x8 x9) = val_main_v111 (F := F) x0 x1 x2 x3 x4 x5 x8 x9 := rfl
theorem fold_v112 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x1024_S16x1024x128_S16x1024x128_1_1_2_2_0_0 none (val_main_v111 (F := F) x0 x1 x2 x3 x4 x5 x8 x9) (val_main_v3 (F := F) x0 x2 x3) = val_main_v112 (F := F) x0 x1 x2 x3 x4 x5 x8 x9 := rfl
theorem fold_v113 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    cat3 (F := F) (val_main_v112 (F := F) x0 x1 x2 x3 x4 x5 x8 x9) (val_main_v98 (F := F) x0 x1 x2 x3 x4 x5 x8 x9) (val_main_v100 (F := F) x0 x1 x2 x3 x4 x5 x8 x9) = val_main_v113 (F := F) x0 x1 x2 x3 x4 x5 x8 x9 := rfl
theorem fold_v114 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x384_S384x384_S16x1024x384_2_1_01_0_n_n none (val_main_v113 (F := F) x0 x1 x2 x3 x4 x5 x8 x9) (x8) = val_main_v114 (F := F) x0 x1 x2 x3 x4 x5 x8 x9 := rfl
theorem fold_v117 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    addf (val_main_v114 (F := F) x0 x1 x2 x3 x4 x5 x8 x9) (val_main_v32 (F := F) x9) = val_main_v117 (F := F) x0 x1 x2 x3 x4 x5 x8 x9 := rfl
theorem fold_v118 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 0] (val_main_v117 (F := F) x0 x1 x2 x3 x4 x5 x8 x9) slices_S16x1024x384_S16x1024x128_0_0_0 = val_main_v118 (F := F) x0 x1 x2 x3 x4 x5 x8 x9 := rfl
theorem fold_v119 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 128] (val_main_v117 (F := F) x0 x1 x2 x3 x4 x5 x8 x9) slices_S16x1024x384_S16x1024x128_0_0_128 = val_main_v119 (F := F) x0 x1 x2 x3 x4 x5 x8 x9 := rfl
theorem fold_v120 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 256] (val_main_v117 (F := F) x0 x1 x2 x3 x4 x5 x8 x9) slices_S16x1024x384_S16x1024x128_0_0_256 = val_main_v120 (F := F) x0 x1 x2 x3 x4 x5 x8 x9 := rfl
theorem fold_v121 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v120 (F := F) x0 x1 x2 x3 x4 x5 x8 x9) (val_main_v16 (F := F)) = val_main_v121 (F := F) x0 x1 x2 x3 x4 x5 x8 x9 := rfl
theorem fold_v122 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x128_S16x1024x128_S16x1024x1024_2_2_1_1_0_0 none (val_main_v119 (F := F) x0 x1 x2 x3 x4 x5 x8 x9) (val_main_v15 (F := F) x0 x4 x5) = val_main_v122 (F := F) x0 x1 x2 x3 x4 x5 x8 x9 := rfl
theorem fold_v123 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.exp (val_main_v122 (F := F) x0 x1 x2 x3 x4 x5 x8 x9) = val_main_v123 (F := F) x0 x1 x2 x3 x4 x5 x8 x9 := rfl
theorem fold_v124 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    mulf (val_main_v123 (F := F) x0 x1 x2 x3 x4 x5 x8 x9) (x1) = val_main_v124 (F := F) x0 x1 x2 x3 x4 x5 x8 x9 := rfl
theorem fold_v125 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    mulf (val_main_v124 (F := F) x0 x1 x2 x3 x4 x5 x8 x9) (val_main_v124 (F := F) x0 x1 x2 x3 x4 x5 x8 x9) = val_main_v125 (F := F) x0 x1 x2 x3 x4 x5 x8 x9 := rfl
theorem fold_v126 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.reduceAdd (val_main_v125 (F := F) x0 x1 x2 x3 x4 x5 x8 x9) (val_main_cst (F := F)) reducesTo_S16x1024x1024_S16x1024_d1 h_S_ = val_main_v126 (F := F) x0 x1 x2 x3 x4 x5 x8 x9 := rfl
theorem fold_v127 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    broadcastInDim S16x1x1024 ![0, 2] bcast_S16x1024_S16x1x1024_0_2 (val_main_v126 (F := F) x0 x1 x2 x3 x4 x5 x8 x9) = val_main_v127 (F := F) x0 x1 x2 x3 x4 x5 x8 x9 := rfl
theorem fold_v128 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.sqrt (val_main_v127 (F := F) x0 x1 x2 x3 x4 x5 x8 x9) = val_main_v128 (F := F) x0 x1 x2 x3 x4 x5 x8 x9 := rfl
theorem fold_v130 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v128 (F := F) x0 x1 x2 x3 x4 x5 x8 x9) (val_main_v87 (F := F)) = val_main_v130 (F := F) x0 x1 x2 x3 x4 x5 x8 x9 := rfl
theorem fold_v131 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    broadcastInDim S16x1024x1024 ![0, 1, 2] bcast_S16x1x1024_S16x1024x1024_0_1_2 (val_main_v130 (F := F) x0 x1 x2 x3 x4 x5 x8 x9) = val_main_v131 (F := F) x0 x1 x2 x3 x4 x5 x8 x9 := rfl
theorem fold_v132 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.divf (val_main_v124 (F := F) x0 x1 x2 x3 x4 x5 x8 x9) (val_main_v131 (F := F) x0 x1 x2 x3 x4 x5 x8 x9) = val_main_v132 (F := F) x0 x1 x2 x3 x4 x5 x8 x9 := rfl
theorem fold_v133 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x1024_S16x1024x128_S16x1024x128_1_1_2_2_0_0 none (val_main_v132 (F := F) x0 x1 x2 x3 x4 x5 x8 x9) (val_main_v3 (F := F) x0 x2 x3) = val_main_v133 (F := F) x0 x1 x2 x3 x4 x5 x8 x9 := rfl
theorem fold_v134 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    cat3 (F := F) (val_main_v133 (F := F) x0 x1 x2 x3 x4 x5 x8 x9) (val_main_v119 (F := F) x0 x1 x2 x3 x4 x5 x8 x9) (val_main_v121 (F := F) x0 x1 x2 x3 x4 x5 x8 x9) = val_main_v134 (F := F) x0 x1 x2 x3 x4 x5 x8 x9 := rfl
theorem fold_v135 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    Host.dotGeneral dot_S16x1024x384_S384x384_S16x1024x384_2_1_01_0_n_n none (val_main_v134 (F := F) x0 x1 x2 x3 x4 x5 x8 x9) (x8) = val_main_v135 (F := F) x0 x1 x2 x3 x4 x5 x8 x9 := rfl
theorem fold_v138 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    addf (val_main_v135 (F := F) x0 x1 x2 x3 x4 x5 x8 x9) (val_main_v32 (F := F) x9) = val_main_v138 (F := F) x0 x1 x2 x3 x4 x5 x8 x9 := rfl
theorem fold_v139 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 0] (val_main_v138 (F := F) x0 x1 x2 x3 x4 x5 x8 x9) slices_S16x1024x384_S16x1024x128_0_0_0 = val_main_v139 (F := F) x0 x1 x2 x3 x4 x5 x8 x9 := rfl
theorem fold_v140 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 128] (val_main_v138 (F := F) x0 x1 x2 x3 x4 x5 x8 x9) slices_S16x1024x384_S16x1024x128_0_0_128 = val_main_v140 (F := F) x0 x1 x2 x3 x4 x5 x8 x9 := rfl
theorem fold_v141 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    extractStridedSlice S16x1024x128 ![0, 0, 256] (val_main_v138 (F := F) x0 x1 x2 x3 x4 x5 x8 x9) slices_S16x1024x384_S16x1024x128_0_0_256 = val_main_v141 (F := F) x0 x1 x2 x3 x4 x5 x8 x9 := rfl
theorem fold_v142 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v141 (F := F) x0 x1 x2 x3 x4 x5 x8 x9) (val_main_v16 (F := F)) = val_main_v142 (F := F) x0 x1 x2 x3 x4 x5 x8 x9 := rfl
theorem fold_v147 (x0 : (⟨S16x1024x256, .f32⟩ : BufTy).Contents (Elt F)) (x6 : (⟨S128x256, .f32⟩ : BufTy).Contents (Elt F)) (x7 : (⟨S128, .f32⟩ : BufTy).Contents (Elt F)) :
    maximumf (val_main_v3 (F := F) x0 x6 x7) (val_main_v16 (F := F)) = val_main_v147 (F := F) x0 x6 x7 := rfl
theorem fold_v148 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v76 (F := F) x0 x1 x2 x3 x4 x5 x8 x9) (val_main_v16 (F := F)) = val_main_v148 (F := F) x0 x1 x2 x3 x4 x5 x8 x9 := rfl
theorem fold_v149 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x8 : (⟨S384x384, .f32⟩ : BufTy).Contents (Elt F)) (x9 : (⟨S384, .f32⟩ : BufTy).Contents (Elt F)) :
    maximumf (val_main_v139 (F := F) x0 x1 x2 x3 x4 x5 x8 x9) (val_main_v16 (F := F)) = val_main_v149 (F := F) x0 x1 x2 x3 x4 x5 x8 x9 := rfl
theorem fold_v150 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F)) (x8 : (⟨S384x384, .f32⟩ : BufTy).Contents (Elt F)) (x9 : (⟨S384, .f32⟩ : BufTy).Contents (Elt F)) :
    cat3 (F := F) (val_main_v148 (F := F) x0 x1 x2 x3 x4 x5 x8 x9) (val_main_v147 (F := F) x0 x6 x7) (val_main_v149 (F := F) x0 x1 x2 x3 x4 x5 x8 x9) = val_main_v150 (F := F) x0 x1 x2 x3 x4 x5 x6 x7 x8 x9 := rfl
theorem fold_v151 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F)) (x8 : (⟨S384x384, .f32⟩ : BufTy).Contents (Elt F)) (x9 : (⟨S384, .f32⟩ : BufTy).Contents (Elt F)) (x10 : (⟨S256x384, .f32⟩ : BufTy).Contents (Elt F)) :
    Host.dotGeneral dot_S16x1024x384_S256x384_S16x1024x256_2_1_01_0_n_n none (val_main_v150 (F := F) x0 x1 x2 x3 x4 x5 x6 x7 x8 x9) (x10) = val_main_v151 (F := F) x0 x1 x2 x3 x4 x5 x6 x7 x8 x9 x10 := rfl
theorem fold_v152 (x11 : (⟨S256, .f32⟩ : BufTy).Contents (Elt F)) :
    broadcastInDim S1x1x256 ![2] bcast_S256_S1x1x256_2 (x11) = val_main_v152 (F := F) x11 := rfl
theorem fold_v153 (x11 : (⟨S256, .f32⟩ : BufTy).Contents (Elt F)) :
    broadcastInDim S16x1024x256 ![0, 1, 2] bcast_S1x1x256_S16x1024x256_0_1_2 (val_main_v152 (F := F) x11) = val_main_v153 (F := F) x11 := rfl
theorem fold_v154 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F)) (x8 : (⟨S384x384, .f32⟩ : BufTy).Contents (Elt F)) (x9 : (⟨S384, .f32⟩ : BufTy).Contents (Elt F)) (x10 : (⟨S256x384, .f32⟩ : BufTy).Contents (Elt F)) (x11 : (⟨S256, .f32⟩ : BufTy).Contents (Elt F)) :
    addf (val_main_v151 (F := F) x0 x1 x2 x3 x4 x5 x6 x7 x8 x9 x10) (val_main_v153 (F := F) x11) = val_main_v154 (F := F) x0 x1 x2 x3 x4 x5 x6 x7 x8 x9 x10 x11 := rfl
theorem fold_call9_v0  :
    broadcastInDim S16x1024x256 ![] bcast_S_S16x1024x256 (val_main_cst (F := F)) = val_main_call9_v0 (F := F)  := rfl
theorem fold_v155 (x0 : (⟨S16x1024x256, .f32⟩ : BufTy).Contents (Elt F)) (x1 : (⟨S16x1024x1024, .f32⟩ : BufTy).Contents (Elt F)) (x2 : (⟨S128x256, .f32⟩ : BufTy).Contents (Elt F)) (x3 : (⟨S128, .f32⟩ : BufTy).Contents (Elt F)) (x4 : (⟨S128x256, .f32⟩ : BufTy).Contents (Elt F)) (x5 : (⟨S128, .f32⟩ : BufTy).Contents (Elt F)) (x6 : (⟨S128x256, .f32⟩ : BufTy).Contents (Elt F)) (x7 : (⟨S128, .f32⟩ : BufTy).Contents (Elt F)) (x8 : (⟨S384x384, .f32⟩ : BufTy).Contents (Elt F)) (x9 : (⟨S384, .f32⟩ : BufTy).Contents (Elt F)) (x10 : (⟨S256x384, .f32⟩ : BufTy).Contents (Elt F)) (x11 : (⟨S256, .f32⟩ : BufTy).Contents (Elt F)) :
    maximumf (val_main_v154 (F := F) x0 x1 x2 x3 x4 x5 x6 x7 x8 x9 x10 x11) (val_main_call9_v0 (F := F)) = val_main_v155 (F := F) x0 x1 x2 x3 x4 x5 x6 x7 x8 x9 x10 x11 := rfl

/-! A joining of three blocks reads its three operands' buffers. -/

theorem cat_v29 (G : Valuation τ sig (Elt F)) :
    (nary (τ := τ) ![main_v28, main_v16, main_v16] main_v29 (fun u => concatenate S16x1024x384 2 [⟨S16x1024x128, u 0⟩, ⟨S16x1024x128, u 1⟩, ⟨S16x1024x128, u 2⟩] concatenates_S16x1024x128_S16x1024x128_S16x1024x128_S16x1024x384_d2)).result G (no_index (Proc.devRef .tc main_v29))
      = cat3 (F := F) (G (Proc.devRef .tc main_v28)) (G (Proc.devRef .tc main_v16)) (G (Proc.devRef .tc main_v16)) := by
  rw [nary_result]
  rfl
theorem cat_v50 (G : Valuation τ sig (Elt F)) :
    (nary (τ := τ) ![main_v49, main_v35, main_v37] main_v50 (fun u => concatenate S16x1024x384 2 [⟨S16x1024x128, u 0⟩, ⟨S16x1024x128, u 1⟩, ⟨S16x1024x128, u 2⟩] concatenates_S16x1024x128_S16x1024x128_S16x1024x128_S16x1024x384_d2)).result G (no_index (Proc.devRef .tc main_v50))
      = cat3 (F := F) (G (Proc.devRef .tc main_v49)) (G (Proc.devRef .tc main_v35)) (G (Proc.devRef .tc main_v37)) := by
  rw [nary_result]
  rfl
theorem cat_v71 (G : Valuation τ sig (Elt F)) :
    (nary (τ := τ) ![main_v70, main_v56, main_v58] main_v71 (fun u => concatenate S16x1024x384 2 [⟨S16x1024x128, u 0⟩, ⟨S16x1024x128, u 1⟩, ⟨S16x1024x128, u 2⟩] concatenates_S16x1024x128_S16x1024x128_S16x1024x128_S16x1024x384_d2)).result G (no_index (Proc.devRef .tc main_v71))
      = cat3 (F := F) (G (Proc.devRef .tc main_v70)) (G (Proc.devRef .tc main_v56)) (G (Proc.devRef .tc main_v58)) := by
  rw [nary_result]
  rfl
theorem cat_v92 (G : Valuation τ sig (Elt F)) :
    (nary (τ := τ) ![main_v91, main_v16, main_v16] main_v92 (fun u => concatenate S16x1024x384 2 [⟨S16x1024x128, u 0⟩, ⟨S16x1024x128, u 1⟩, ⟨S16x1024x128, u 2⟩] concatenates_S16x1024x128_S16x1024x128_S16x1024x128_S16x1024x384_d2)).result G (no_index (Proc.devRef .tc main_v92))
      = cat3 (F := F) (G (Proc.devRef .tc main_v91)) (G (Proc.devRef .tc main_v16)) (G (Proc.devRef .tc main_v16)) := by
  rw [nary_result]
  rfl
theorem cat_v113 (G : Valuation τ sig (Elt F)) :
    (nary (τ := τ) ![main_v112, main_v98, main_v100] main_v113 (fun u => concatenate S16x1024x384 2 [⟨S16x1024x128, u 0⟩, ⟨S16x1024x128, u 1⟩, ⟨S16x1024x128, u 2⟩] concatenates_S16x1024x128_S16x1024x128_S16x1024x128_S16x1024x384_d2)).result G (no_index (Proc.devRef .tc main_v113))
      = cat3 (F := F) (G (Proc.devRef .tc main_v112)) (G (Proc.devRef .tc main_v98)) (G (Proc.devRef .tc main_v100)) := by
  rw [nary_result]
  rfl
theorem cat_v134 (G : Valuation τ sig (Elt F)) :
    (nary (τ := τ) ![main_v133, main_v119, main_v121] main_v134 (fun u => concatenate S16x1024x384 2 [⟨S16x1024x128, u 0⟩, ⟨S16x1024x128, u 1⟩, ⟨S16x1024x128, u 2⟩] concatenates_S16x1024x128_S16x1024x128_S16x1024x128_S16x1024x384_d2)).result G (no_index (Proc.devRef .tc main_v134))
      = cat3 (F := F) (G (Proc.devRef .tc main_v133)) (G (Proc.devRef .tc main_v119)) (G (Proc.devRef .tc main_v121)) := by
  rw [nary_result]
  rfl
theorem cat_v150 (G : Valuation τ sig (Elt F)) :
    (nary (τ := τ) ![main_v148, main_v147, main_v149] main_v150 (fun u => concatenate S16x1024x384 2 [⟨S16x1024x128, u 0⟩, ⟨S16x1024x128, u 1⟩, ⟨S16x1024x128, u 2⟩] concatenates_S16x1024x128_S16x1024x128_S16x1024x128_S16x1024x384_d2)).result G (no_index (Proc.devRef .tc main_v150))
      = cat3 (F := F) (G (Proc.devRef .tc main_v148)) (G (Proc.devRef .tc main_v147)) (G (Proc.devRef .tc main_v149)) := by
  rw [nary_result]
  rfl

set_option maxRecDepth 8192 in
set_option maxHeartbeats 40000000 in
/-- After the program's operations, from any contents `V`, the result buffer holds `val_main_v155` of the argument
    buffers' contents in `V`. -/
theorem eval_v155 (V : Valuation τ sig (Elt F)) :
    after (ops (F := F)) V (Proc.devRef .tc main_v155)
      = val_main_v155 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  have f_v0 := @fold_v0 F _
  have f_v1 := @fold_v1 F _
  have f_v2 := @fold_v2 F _
  have f_v3 := @fold_v3 F _
  have f_v8 := @fold_v8 F _
  have f_cst := @fold_cst F _
  have f_v9 := @fold_v9 F _
  have f_v10 := @fold_v10 F _
  have f_v11 := @fold_v11 F _
  have f_cst_0 := @fold_cst_0 F _
  have f_v12 := @fold_v12 F _
  have f_v13 := @fold_v13 F _
  have f_v14 := @fold_v14 F _
  have f_v15 := @fold_v15 F _
  have f_v16 := @fold_v16 F _
  have f_v17 := @fold_v17 F _
  have f_v18 := @fold_v18 F _
  have f_v19 := @fold_v19 F _
  have f_v20 := @fold_v20 F _
  have f_v21 := @fold_v21 F _
  have f_v22 := @fold_v22 F _
  have f_v23 := @fold_v23 F _
  have f_v25 := @fold_v25 F _
  have f_v26 := @fold_v26 F _
  have f_v27 := @fold_v27 F _
  have f_v28 := @fold_v28 F _
  have f_v29 := @fold_v29 F _
  have f_v30 := @fold_v30 F _
  have f_v31 := @fold_v31 F _
  have f_v32 := @fold_v32 F _
  have f_v33 := @fold_v33 F _
  have f_v34 := @fold_v34 F _
  have f_v35 := @fold_v35 F _
  have f_v36 := @fold_v36 F _
  have f_v37 := @fold_v37 F _
  have f_v38 := @fold_v38 F _
  have f_v39 := @fold_v39 F _
  have f_v40 := @fold_v40 F _
  have f_v41 := @fold_v41 F _
  have f_v42 := @fold_v42 F _
  have f_v43 := @fold_v43 F _
  have f_v44 := @fold_v44 F _
  have f_v46 := @fold_v46 F _
  have f_v47 := @fold_v47 F _
  have f_v48 := @fold_v48 F _
  have f_v49 := @fold_v49 F _
  have f_v50 := @fold_v50 F _
  have f_v51 := @fold_v51 F _
  have f_v54 := @fold_v54 F _
  have f_v55 := @fold_v55 F _
  have f_v56 := @fold_v56 F _
  have f_v57 := @fold_v57 F _
  have f_v58 := @fold_v58 F _
  have f_v59 := @fold_v59 F _
  have f_v60 := @fold_v60 F _
  have f_v61 := @fold_v61 F _
  have f_v62 := @fold_v62 F _
  have f_v63 := @fold_v63 F _
  have f_v64 := @fold_v64 F _
  have f_v65 := @fold_v65 F _
  have f_v67 := @fold_v67 F _
  have f_v68 := @fold_v68 F _
  have f_v69 := @fold_v69 F _
  have f_v70 := @fold_v70 F _
  have f_v71 := @fold_v71 F _
  have f_v72 := @fold_v72 F _
  have f_v75 := @fold_v75 F _
  have f_v76 := @fold_v76 F _
  have f_v77 := @fold_v77 F _
  have f_v78 := @fold_v78 F _
  have f_v79 := @fold_v79 F _
  have f_v84 := @fold_v84 F _
  have f_v85 := @fold_v85 F _
  have f_v86 := @fold_v86 F _
  have f_v87 := @fold_v87 F _
  have f_v88 := @fold_v88 F _
  have f_v89 := @fold_v89 F _
  have f_v90 := @fold_v90 F _
  have f_v91 := @fold_v91 F _
  have f_v92 := @fold_v92 F _
  have f_v93 := @fold_v93 F _
  have f_v96 := @fold_v96 F _
  have f_v97 := @fold_v97 F _
  have f_v98 := @fold_v98 F _
  have f_v99 := @fold_v99 F _
  have f_v100 := @fold_v100 F _
  have f_v101 := @fold_v101 F _
  have f_v102 := @fold_v102 F _
  have f_v103 := @fold_v103 F _
  have f_v104 := @fold_v104 F _
  have f_v105 := @fold_v105 F _
  have f_v106 := @fold_v106 F _
  have f_v107 := @fold_v107 F _
  have f_v109 := @fold_v109 F _
  have f_v110 := @fold_v110 F _
  have f_v111 := @fold_v111 F _
  have f_v112 := @fold_v112 F _
  have f_v113 := @fold_v113 F _
  have f_v114 := @fold_v114 F _
  have f_v117 := @fold_v117 F _
  have f_v118 := @fold_v118 F _
  have f_v119 := @fold_v119 F _
  have f_v120 := @fold_v120 F _
  have f_v121 := @fold_v121 F _
  have f_v122 := @fold_v122 F _
  have f_v123 := @fold_v123 F _
  have f_v124 := @fold_v124 F _
  have f_v125 := @fold_v125 F _
  have f_v126 := @fold_v126 F _
  have f_v127 := @fold_v127 F _
  have f_v128 := @fold_v128 F _
  have f_v130 := @fold_v130 F _
  have f_v131 := @fold_v131 F _
  have f_v132 := @fold_v132 F _
  have f_v133 := @fold_v133 F _
  have f_v134 := @fold_v134 F _
  have f_v135 := @fold_v135 F _
  have f_v138 := @fold_v138 F _
  have f_v139 := @fold_v139 F _
  have f_v140 := @fold_v140 F _
  have f_v141 := @fold_v141 F _
  have f_v142 := @fold_v142 F _
  have f_v147 := @fold_v147 F _
  have f_v148 := @fold_v148 F _
  have f_v149 := @fold_v149 F _
  have f_v150 := @fold_v150 F _
  have f_v151 := @fold_v151 F _
  have f_v152 := @fold_v152 F _
  have f_v153 := @fold_v153 F _
  have f_v154 := @fold_v154 F _
  have f_call9_v0 := @fold_call9_v0 F _
  have f_v155 := @fold_v155 F _
  try dsimp only at f_v0
  try dsimp only at f_v1
  try dsimp only at f_v2
  try dsimp only at f_v3
  try dsimp only at f_v8
  try dsimp only at f_cst
  try dsimp only at f_v9
  try dsimp only at f_v10
  try dsimp only at f_v11
  try dsimp only at f_cst_0
  try dsimp only at f_v12
  try dsimp only at f_v13
  try dsimp only at f_v14
  try dsimp only at f_v15
  try dsimp only at f_v16
  try dsimp only at f_v17
  try dsimp only at f_v18
  try dsimp only at f_v19
  try dsimp only at f_v20
  try dsimp only at f_v21
  try dsimp only at f_v22
  try dsimp only at f_v23
  try dsimp only at f_v25
  try dsimp only at f_v26
  try dsimp only at f_v27
  try dsimp only at f_v28
  try dsimp only at f_v29
  try dsimp only at f_v30
  try dsimp only at f_v31
  try dsimp only at f_v32
  try dsimp only at f_v33
  try dsimp only at f_v34
  try dsimp only at f_v35
  try dsimp only at f_v36
  try dsimp only at f_v37
  try dsimp only at f_v38
  try dsimp only at f_v39
  try dsimp only at f_v40
  try dsimp only at f_v41
  try dsimp only at f_v42
  try dsimp only at f_v43
  try dsimp only at f_v44
  try dsimp only at f_v46
  try dsimp only at f_v47
  try dsimp only at f_v48
  try dsimp only at f_v49
  try dsimp only at f_v50
  try dsimp only at f_v51
  try dsimp only at f_v54
  try dsimp only at f_v55
  try dsimp only at f_v56
  try dsimp only at f_v57
  try dsimp only at f_v58
  try dsimp only at f_v59
  try dsimp only at f_v60
  try dsimp only at f_v61
  try dsimp only at f_v62
  try dsimp only at f_v63
  try dsimp only at f_v64
  try dsimp only at f_v65
  try dsimp only at f_v67
  try dsimp only at f_v68
  try dsimp only at f_v69
  try dsimp only at f_v70
  try dsimp only at f_v71
  try dsimp only at f_v72
  try dsimp only at f_v75
  try dsimp only at f_v76
  try dsimp only at f_v77
  try dsimp only at f_v78
  try dsimp only at f_v79
  try dsimp only at f_v84
  try dsimp only at f_v85
  try dsimp only at f_v86
  try dsimp only at f_v87
  try dsimp only at f_v88
  try dsimp only at f_v89
  try dsimp only at f_v90
  try dsimp only at f_v91
  try dsimp only at f_v92
  try dsimp only at f_v93
  try dsimp only at f_v96
  try dsimp only at f_v97
  try dsimp only at f_v98
  try dsimp only at f_v99
  try dsimp only at f_v100
  try dsimp only at f_v101
  try dsimp only at f_v102
  try dsimp only at f_v103
  try dsimp only at f_v104
  try dsimp only at f_v105
  try dsimp only at f_v106
  try dsimp only at f_v107
  try dsimp only at f_v109
  try dsimp only at f_v110
  try dsimp only at f_v111
  try dsimp only at f_v112
  try dsimp only at f_v113
  try dsimp only at f_v114
  try dsimp only at f_v117
  try dsimp only at f_v118
  try dsimp only at f_v119
  try dsimp only at f_v120
  try dsimp only at f_v121
  try dsimp only at f_v122
  try dsimp only at f_v123
  try dsimp only at f_v124
  try dsimp only at f_v125
  try dsimp only at f_v126
  try dsimp only at f_v127
  try dsimp only at f_v128
  try dsimp only at f_v130
  try dsimp only at f_v131
  try dsimp only at f_v132
  try dsimp only at f_v133
  try dsimp only at f_v134
  try dsimp only at f_v135
  try dsimp only at f_v138
  try dsimp only at f_v139
  try dsimp only at f_v140
  try dsimp only at f_v141
  try dsimp only at f_v142
  try dsimp only at f_v147
  try dsimp only at f_v148
  try dsimp only at f_v149
  try dsimp only at f_v150
  try dsimp only at f_v151
  try dsimp only at f_v152
  try dsimp only at f_v153
  try dsimp only at f_v154
  try dsimp only at f_call9_v0
  try dsimp only at f_v155
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne',
      cat_v29, cat_v50, cat_v71, cat_v92, cat_v113, cat_v134, cat_v150,
      f_v0, f_v1, f_v2, f_v3, f_v8, f_cst, f_v9, f_v10, f_v11, f_cst_0, f_v12, f_v13, f_v14, f_v15, f_v16, f_v17, f_v18, f_v19, f_v20, f_v21, f_v22, f_v23, f_v25, f_v26, f_v27, f_v28, f_v29, f_v30, f_v31, f_v32, f_v33, f_v34, f_v35, f_v36, f_v37, f_v38, f_v39, f_v40, f_v41, f_v42, f_v43, f_v44, f_v46, f_v47, f_v48, f_v49, f_v50, f_v51, f_v54, f_v55, f_v56, f_v57, f_v58, f_v59, f_v60, f_v61, f_v62, f_v63, f_v64, f_v65, f_v67, f_v68, f_v69, f_v70, f_v71, f_v72, f_v75, f_v76, f_v77, f_v78, f_v79, f_v84, f_v85, f_v86, f_v87, f_v88, f_v89, f_v90, f_v91, f_v92, f_v93, f_v96, f_v97, f_v98, f_v99, f_v100, f_v101, f_v102, f_v103, f_v104, f_v105, f_v106, f_v107, f_v109, f_v110, f_v111, f_v112, f_v113, f_v114, f_v117, f_v118, f_v119, f_v120, f_v121, f_v122, f_v123, f_v124, f_v125, f_v126, f_v127, f_v128, f_v130, f_v131, f_v132, f_v133, f_v134, f_v135, f_v138, f_v139, f_v140, f_v141, f_v142, f_v147, f_v148, f_v149, f_v150, f_v151, f_v152, f_v153, f_v154, f_call9_v0, f_v155]

set_option maxRecDepth 8192 in
set_option maxHeartbeats 40000000 in
/-- On every device, from any memory with zero counters: every weakly fair execution of the program terminates with the
    result buffer at `val_main_v155` of the arguments' launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v155) = val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v155).trans (eval_v155 (F := Ideal) _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.RefRun

end
-- ==== Proof.RefSide.lean ====
/-
  The reference program, read stage by stage as the layer of `Spec`.

  Every array of the program holds 16 graphs. Three layers of statements:

  * each array operation (a product, a sum along an axis, a repetition along new or unit axes, a block of columns,
    a joining of blocks) read at one entry `(g, p, c)`, for arbitrary operand arrays: a product is a finite sum over
    the contracted coordinate, a sum along an axis is a finite sum (its initial value, the float zero, adds nothing),
    and the others read one entry of one operand;
  * the same readings as equalities of matrices, one graph `g` at a time (`cur3 x g`), where a short chain of
    operations that `Spec` names as one (a bias added to every row; rows or columns divided by the larger of their
    Euclidean norm and ε; the masked exponential; the rectifier) is one equality;
  * the program's ten stages (representations, addresses, the three steps of each recurrence, the nodes' own
    contribution, the result), each identified with the corresponding definition of `Spec` by opening that stage's
    own operations and rewriting with the matrix equalities and with the stages before it.

  The last theorem restates the tenth stage at an entry.
-/
import proofs.«128754_j89326729822492_1_alg».proof.Proof.RefDefs
import proofs.«128754_j89326729822492_1_alg».proof.Proof.Spec
import Idealize.ShloMosaic.Lib.Pipeline.Value
import Idealize.ShloMosaic.Lib.ValueIdx
import Idealize.ShloMosaic.PureOps.Ideal.Laws

noncomputable section

namespace Cert.RefSide

open Cert.ReferenceIdeal Cert.ReferenceIdeal.Gen Cert.RefDefs Idealize.ShloMosaic Idealize.ShloMosaic.TcCoe Idealize.SL.Sem Idealize.ShloMosaic.StableHlo
open Idealize.ShloMosaic.ValueIdx

/-- An array of extended reals of shape `S`. -/
abbrev Arr (S : Shape) : Type := (⟨S, .f32⟩ : BufTy).Contents (Elt Ideal)

/-! ## Each array operation of the program, read at an entry of one graph -/

theorem lhs_dot_nodes_weight_0 (i : S16x1024x128.Idx) (q : dot_S16x1024x256_S128x256_S16x1024x128_2_1_01_0_n_n.contr.Idx) :
    (dot_S16x1024x256_S128x256_S16x1024x128_2_1_01_0_n_n.lhsIdx i q 0).val = (i 0).val := by
  unfold DotDims.lhsIdx
  rw [dif_neg (show ¬(0 : Fin S16x1024x256.rank) ∈ dot_S16x1024x256_S128x256_S16x1024x128_2_1_01_0_n_n.lhsBatch by decide), dif_pos (show (0 : Fin S16x1024x256.rank) ∈ dot_S16x1024x256_S128x256_S16x1024x128_2_1_01_0_n_n.lhsNonContracting by decide)]
  rfl
theorem lhs_dot_nodes_weight_1 (i : S16x1024x128.Idx) (q : dot_S16x1024x256_S128x256_S16x1024x128_2_1_01_0_n_n.contr.Idx) :
    (dot_S16x1024x256_S128x256_S16x1024x128_2_1_01_0_n_n.lhsIdx i q 1).val = (i 1).val := by
  unfold DotDims.lhsIdx
  rw [dif_neg (show ¬(1 : Fin S16x1024x256.rank) ∈ dot_S16x1024x256_S128x256_S16x1024x128_2_1_01_0_n_n.lhsBatch by decide), dif_pos (show (1 : Fin S16x1024x256.rank) ∈ dot_S16x1024x256_S128x256_S16x1024x128_2_1_01_0_n_n.lhsNonContracting by decide)]
  rfl
theorem lhs_dot_nodes_weight_2 (i : S16x1024x128.Idx) (q : dot_S16x1024x256_S128x256_S16x1024x128_2_1_01_0_n_n.contr.Idx) :
    (dot_S16x1024x256_S128x256_S16x1024x128_2_1_01_0_n_n.lhsIdx i q 2).val = (q ⟨0, by decide⟩).val :=
  dot_S16x1024x256_S128x256_S16x1024x128_2_1_01_0_n_n.lhsIdx_val_of_single rfl i q
theorem rhs_dot_nodes_weight_0 (i : S16x1024x128.Idx) (q : dot_S16x1024x256_S128x256_S16x1024x128_2_1_01_0_n_n.contr.Idx) :
    (dot_S16x1024x256_S128x256_S16x1024x128_2_1_01_0_n_n.rhsIdx i q 0).val = (i 2).val := by
  unfold DotDims.rhsIdx
  rw [dif_neg (show ¬(0 : Fin S128x256.rank) ∈ dot_S16x1024x256_S128x256_S16x1024x128_2_1_01_0_n_n.rhsBatch by decide), dif_pos (show (0 : Fin S128x256.rank) ∈ dot_S16x1024x256_S128x256_S16x1024x128_2_1_01_0_n_n.rhsNonContracting by decide)]
  rfl
theorem rhs_dot_nodes_weight_1 (i : S16x1024x128.Idx) (q : dot_S16x1024x256_S128x256_S16x1024x128_2_1_01_0_n_n.contr.Idx) :
    (dot_S16x1024x256_S128x256_S16x1024x128_2_1_01_0_n_n.rhsIdx i q 1).val = (q ⟨0, by decide⟩).val :=
  dot_S16x1024x256_S128x256_S16x1024x128_2_1_01_0_n_n.rhsIdx_val_of_single rfl i q
/-- The product of the node features with a 128 × 256 weight stored [out, in]. -/
theorem dot_nodes_weight (l : Arr S16x1024x256) (r : Arr S128x256) (g : Fin 16) (p : Fin 1024) (c : Fin 128) :
    Host.dotGeneral (F := Ideal) (φ₁ := .f32) (φ₂ := .f32) dot_S16x1024x256_S128x256_S16x1024x128_2_1_01_0_n_n none l r (ix3 g p c) = ∑ k : Fin 256, l (ix3 g p k) * r (ix2 c k) := by
  simp only [Host.dotGeneral]
  rw [Ideal.dotGeneral_apply, ← Equiv.sum_comp (ValueIdx.contrEquiv1 dot_S16x1024x256_S128x256_S16x1024x128_2_1_01_0_n_n 256 rfl rfl).symm]
  refine Finset.sum_congr rfl fun k _ => ?_
  have hk := ValueIdx.contrEquiv1_symm_val dot_S16x1024x256_S128x256_S16x1024x128_2_1_01_0_n_n 256 rfl rfl k
  have el : dot_S16x1024x256_S128x256_S16x1024x128_2_1_01_0_n_n.lhsIdx (ix3 g p c) ((ValueIdx.contrEquiv1 dot_S16x1024x256_S128x256_S16x1024x128_2_1_01_0_n_n 256 rfl rfl).symm k) = ix3 g p k := funext fun a => Fin.ext (by
    match a with
    | ⟨0, _⟩ => exact lhs_dot_nodes_weight_0 _ _
    | ⟨1, _⟩ => exact lhs_dot_nodes_weight_1 _ _
    | ⟨2, _⟩ => exact (lhs_dot_nodes_weight_2 _ _).trans hk)
  have er : dot_S16x1024x256_S128x256_S16x1024x128_2_1_01_0_n_n.rhsIdx (ix3 g p c) ((ValueIdx.contrEquiv1 dot_S16x1024x256_S128x256_S16x1024x128_2_1_01_0_n_n 256 rfl rfl).symm k) = ix2 c k := funext fun a => Fin.ext (by
    match a with
    | ⟨0, _⟩ => exact rhs_dot_nodes_weight_0 _ _
    | ⟨1, _⟩ => exact (rhs_dot_nodes_weight_1 _ _).trans hk)
  rw [el, er]

theorem lhs_dot_rows_rows_0 (i : S16x1024x1024.Idx) (q : dot_S16x1024x128_S16x1024x128_S16x1024x1024_2_2_1_1_0_0.contr.Idx) :
    (dot_S16x1024x128_S16x1024x128_S16x1024x1024_2_2_1_1_0_0.lhsIdx i q 0).val = (i 0).val := by
  unfold DotDims.lhsIdx
  rw [dif_pos (show (0 : Fin S16x1024x128.rank) ∈ dot_S16x1024x128_S16x1024x128_S16x1024x1024_2_2_1_1_0_0.lhsBatch by decide)]
  rfl
theorem lhs_dot_rows_rows_1 (i : S16x1024x1024.Idx) (q : dot_S16x1024x128_S16x1024x128_S16x1024x1024_2_2_1_1_0_0.contr.Idx) :
    (dot_S16x1024x128_S16x1024x128_S16x1024x1024_2_2_1_1_0_0.lhsIdx i q 1).val = (i 1).val := by
  unfold DotDims.lhsIdx
  rw [dif_neg (show ¬(1 : Fin S16x1024x128.rank) ∈ dot_S16x1024x128_S16x1024x128_S16x1024x1024_2_2_1_1_0_0.lhsBatch by decide), dif_pos (show (1 : Fin S16x1024x128.rank) ∈ dot_S16x1024x128_S16x1024x128_S16x1024x1024_2_2_1_1_0_0.lhsNonContracting by decide)]
  rfl
theorem lhs_dot_rows_rows_2 (i : S16x1024x1024.Idx) (q : dot_S16x1024x128_S16x1024x128_S16x1024x1024_2_2_1_1_0_0.contr.Idx) :
    (dot_S16x1024x128_S16x1024x128_S16x1024x1024_2_2_1_1_0_0.lhsIdx i q 2).val = (q ⟨0, by decide⟩).val :=
  dot_S16x1024x128_S16x1024x128_S16x1024x1024_2_2_1_1_0_0.lhsIdx_val_of_single rfl i q
theorem rhs_dot_rows_rows_0 (i : S16x1024x1024.Idx) (q : dot_S16x1024x128_S16x1024x128_S16x1024x1024_2_2_1_1_0_0.contr.Idx) :
    (dot_S16x1024x128_S16x1024x128_S16x1024x1024_2_2_1_1_0_0.rhsIdx i q 0).val = (i 0).val := by
  unfold DotDims.rhsIdx
  rw [dif_pos (show (0 : Fin S16x1024x128.rank) ∈ dot_S16x1024x128_S16x1024x128_S16x1024x1024_2_2_1_1_0_0.rhsBatch by decide)]
  rfl
theorem rhs_dot_rows_rows_1 (i : S16x1024x1024.Idx) (q : dot_S16x1024x128_S16x1024x128_S16x1024x1024_2_2_1_1_0_0.contr.Idx) :
    (dot_S16x1024x128_S16x1024x128_S16x1024x1024_2_2_1_1_0_0.rhsIdx i q 1).val = (i 2).val := by
  unfold DotDims.rhsIdx
  rw [dif_neg (show ¬(1 : Fin S16x1024x128.rank) ∈ dot_S16x1024x128_S16x1024x128_S16x1024x1024_2_2_1_1_0_0.rhsBatch by decide), dif_pos (show (1 : Fin S16x1024x128.rank) ∈ dot_S16x1024x128_S16x1024x128_S16x1024x1024_2_2_1_1_0_0.rhsNonContracting by decide)]
  rfl
theorem rhs_dot_rows_rows_2 (i : S16x1024x1024.Idx) (q : dot_S16x1024x128_S16x1024x128_S16x1024x1024_2_2_1_1_0_0.contr.Idx) :
    (dot_S16x1024x128_S16x1024x128_S16x1024x1024_2_2_1_1_0_0.rhsIdx i q 2).val = (q ⟨0, by decide⟩).val :=
  dot_S16x1024x128_S16x1024x128_S16x1024x1024_2_2_1_1_0_0.rhsIdx_val_of_single rfl i q
/-- Per graph, `l · rᵀ` of two 1024 × 128 arrays. -/
theorem dot_rows_rows (l : Arr S16x1024x128) (r : Arr S16x1024x128) (g : Fin 16) (p : Fin 1024) (c : Fin 1024) :
    Host.dotGeneral (F := Ideal) (φ₁ := .f32) (φ₂ := .f32) dot_S16x1024x128_S16x1024x128_S16x1024x1024_2_2_1_1_0_0 none l r (ix3 g p c) = ∑ k : Fin 128, l (ix3 g p k) * r (ix3 g c k) := by
  simp only [Host.dotGeneral]
  rw [Ideal.dotGeneral_apply, ← Equiv.sum_comp (ValueIdx.contrEquiv1 dot_S16x1024x128_S16x1024x128_S16x1024x1024_2_2_1_1_0_0 128 rfl rfl).symm]
  refine Finset.sum_congr rfl fun k _ => ?_
  have hk := ValueIdx.contrEquiv1_symm_val dot_S16x1024x128_S16x1024x128_S16x1024x1024_2_2_1_1_0_0 128 rfl rfl k
  have el : dot_S16x1024x128_S16x1024x128_S16x1024x1024_2_2_1_1_0_0.lhsIdx (ix3 g p c) ((ValueIdx.contrEquiv1 dot_S16x1024x128_S16x1024x128_S16x1024x1024_2_2_1_1_0_0 128 rfl rfl).symm k) = ix3 g p k := funext fun a => Fin.ext (by
    match a with
    | ⟨0, _⟩ => exact lhs_dot_rows_rows_0 _ _
    | ⟨1, _⟩ => exact lhs_dot_rows_rows_1 _ _
    | ⟨2, _⟩ => exact (lhs_dot_rows_rows_2 _ _).trans hk)
  have er : dot_S16x1024x128_S16x1024x128_S16x1024x1024_2_2_1_1_0_0.rhsIdx (ix3 g p c) ((ValueIdx.contrEquiv1 dot_S16x1024x128_S16x1024x128_S16x1024x1024_2_2_1_1_0_0 128 rfl rfl).symm k) = ix3 g c k := funext fun a => Fin.ext (by
    match a with
    | ⟨0, _⟩ => exact rhs_dot_rows_rows_0 _ _
    | ⟨1, _⟩ => exact rhs_dot_rows_rows_1 _ _
    | ⟨2, _⟩ => exact (rhs_dot_rows_rows_2 _ _).trans hk)
  rw [el, er]

theorem lhs_dot_plain_0 (i : S16x1024x128.Idx) (q : dot_S16x1024x1024_S16x1024x128_S16x1024x128_2_1_1_2_0_0.contr.Idx) :
    (dot_S16x1024x1024_S16x1024x128_S16x1024x128_2_1_1_2_0_0.lhsIdx i q 0).val = (i 0).val := by
  unfold DotDims.lhsIdx
  rw [dif_pos (show (0 : Fin S16x1024x1024.rank) ∈ dot_S16x1024x1024_S16x1024x128_S16x1024x128_2_1_1_2_0_0.lhsBatch by decide)]
  rfl
theorem lhs_dot_plain_1 (i : S16x1024x128.Idx) (q : dot_S16x1024x1024_S16x1024x128_S16x1024x128_2_1_1_2_0_0.contr.Idx) :
    (dot_S16x1024x1024_S16x1024x128_S16x1024x128_2_1_1_2_0_0.lhsIdx i q 1).val = (i 1).val := by
  unfold DotDims.lhsIdx
  rw [dif_neg (show ¬(1 : Fin S16x1024x1024.rank) ∈ dot_S16x1024x1024_S16x1024x128_S16x1024x128_2_1_1_2_0_0.lhsBatch by decide), dif_pos (show (1 : Fin S16x1024x1024.rank) ∈ dot_S16x1024x1024_S16x1024x128_S16x1024x128_2_1_1_2_0_0.lhsNonContracting by decide)]
  rfl
theorem lhs_dot_plain_2 (i : S16x1024x128.Idx) (q : dot_S16x1024x1024_S16x1024x128_S16x1024x128_2_1_1_2_0_0.contr.Idx) :
    (dot_S16x1024x1024_S16x1024x128_S16x1024x128_2_1_1_2_0_0.lhsIdx i q 2).val = (q ⟨0, by decide⟩).val :=
  dot_S16x1024x1024_S16x1024x128_S16x1024x128_2_1_1_2_0_0.lhsIdx_val_of_single rfl i q
theorem rhs_dot_plain_0 (i : S16x1024x128.Idx) (q : dot_S16x1024x1024_S16x1024x128_S16x1024x128_2_1_1_2_0_0.contr.Idx) :
    (dot_S16x1024x1024_S16x1024x128_S16x1024x128_2_1_1_2_0_0.rhsIdx i q 0).val = (i 0).val := by
  unfold DotDims.rhsIdx
  rw [dif_pos (show (0 : Fin S16x1024x128.rank) ∈ dot_S16x1024x1024_S16x1024x128_S16x1024x128_2_1_1_2_0_0.rhsBatch by decide)]
  rfl
theorem rhs_dot_plain_1 (i : S16x1024x128.Idx) (q : dot_S16x1024x1024_S16x1024x128_S16x1024x128_2_1_1_2_0_0.contr.Idx) :
    (dot_S16x1024x1024_S16x1024x128_S16x1024x128_2_1_1_2_0_0.rhsIdx i q 1).val = (q ⟨0, by decide⟩).val :=
  dot_S16x1024x1024_S16x1024x128_S16x1024x128_2_1_1_2_0_0.rhsIdx_val_of_single rfl i q
theorem rhs_dot_plain_2 (i : S16x1024x128.Idx) (q : dot_S16x1024x1024_S16x1024x128_S16x1024x128_2_1_1_2_0_0.contr.Idx) :
    (dot_S16x1024x1024_S16x1024x128_S16x1024x128_2_1_1_2_0_0.rhsIdx i q 2).val = (i 2).val := by
  unfold DotDims.rhsIdx
  rw [dif_neg (show ¬(2 : Fin S16x1024x128.rank) ∈ dot_S16x1024x1024_S16x1024x128_S16x1024x128_2_1_1_2_0_0.rhsBatch by decide), dif_pos (show (2 : Fin S16x1024x128.rank) ∈ dot_S16x1024x1024_S16x1024x128_S16x1024x128_2_1_1_2_0_0.rhsNonContracting by decide)]
  rfl
/-- Per graph, `l · r` of a 1024 × 1024 and a 1024 × 128 array. -/
theorem dot_plain (l : Arr S16x1024x1024) (r : Arr S16x1024x128) (g : Fin 16) (p : Fin 1024) (c : Fin 128) :
    Host.dotGeneral (F := Ideal) (φ₁ := .f32) (φ₂ := .f32) dot_S16x1024x1024_S16x1024x128_S16x1024x128_2_1_1_2_0_0 none l r (ix3 g p c) = ∑ k : Fin 1024, l (ix3 g p k) * r (ix3 g k c) := by
  simp only [Host.dotGeneral]
  rw [Ideal.dotGeneral_apply, ← Equiv.sum_comp (ValueIdx.contrEquiv1 dot_S16x1024x1024_S16x1024x128_S16x1024x128_2_1_1_2_0_0 1024 rfl rfl).symm]
  refine Finset.sum_congr rfl fun k _ => ?_
  have hk := ValueIdx.contrEquiv1_symm_val dot_S16x1024x1024_S16x1024x128_S16x1024x128_2_1_1_2_0_0 1024 rfl rfl k
  have el : dot_S16x1024x1024_S16x1024x128_S16x1024x128_2_1_1_2_0_0.lhsIdx (ix3 g p c) ((ValueIdx.contrEquiv1 dot_S16x1024x1024_S16x1024x128_S16x1024x128_2_1_1_2_0_0 1024 rfl rfl).symm k) = ix3 g p k := funext fun a => Fin.ext (by
    match a with
    | ⟨0, _⟩ => exact lhs_dot_plain_0 _ _
    | ⟨1, _⟩ => exact lhs_dot_plain_1 _ _
    | ⟨2, _⟩ => exact (lhs_dot_plain_2 _ _).trans hk)
  have er : dot_S16x1024x1024_S16x1024x128_S16x1024x128_2_1_1_2_0_0.rhsIdx (ix3 g p c) ((ValueIdx.contrEquiv1 dot_S16x1024x1024_S16x1024x128_S16x1024x128_2_1_1_2_0_0 1024 rfl rfl).symm k) = ix3 g k c := funext fun a => Fin.ext (by
    match a with
    | ⟨0, _⟩ => exact rhs_dot_plain_0 _ _
    | ⟨1, _⟩ => exact (rhs_dot_plain_1 _ _).trans hk
    | ⟨2, _⟩ => exact rhs_dot_plain_2 _ _)
  rw [el, er]

theorem lhs_dot_cols_cols_0 (i : S16x1024x128.Idx) (q : dot_S16x1024x1024_S16x1024x128_S16x1024x128_1_1_2_2_0_0.contr.Idx) :
    (dot_S16x1024x1024_S16x1024x128_S16x1024x128_1_1_2_2_0_0.lhsIdx i q 0).val = (i 0).val := by
  unfold DotDims.lhsIdx
  rw [dif_pos (show (0 : Fin S16x1024x1024.rank) ∈ dot_S16x1024x1024_S16x1024x128_S16x1024x128_1_1_2_2_0_0.lhsBatch by decide)]
  rfl
theorem lhs_dot_cols_cols_1 (i : S16x1024x128.Idx) (q : dot_S16x1024x1024_S16x1024x128_S16x1024x128_1_1_2_2_0_0.contr.Idx) :
    (dot_S16x1024x1024_S16x1024x128_S16x1024x128_1_1_2_2_0_0.lhsIdx i q 1).val = (q ⟨0, by decide⟩).val :=
  dot_S16x1024x1024_S16x1024x128_S16x1024x128_1_1_2_2_0_0.lhsIdx_val_of_single rfl i q
theorem lhs_dot_cols_cols_2 (i : S16x1024x128.Idx) (q : dot_S16x1024x1024_S16x1024x128_S16x1024x128_1_1_2_2_0_0.contr.Idx) :
    (dot_S16x1024x1024_S16x1024x128_S16x1024x128_1_1_2_2_0_0.lhsIdx i q 2).val = (i 1).val := by
  unfold DotDims.lhsIdx
  rw [dif_neg (show ¬(2 : Fin S16x1024x1024.rank) ∈ dot_S16x1024x1024_S16x1024x128_S16x1024x128_1_1_2_2_0_0.lhsBatch by decide), dif_pos (show (2 : Fin S16x1024x1024.rank) ∈ dot_S16x1024x1024_S16x1024x128_S16x1024x128_1_1_2_2_0_0.lhsNonContracting by decide)]
  rfl
theorem rhs_dot_cols_cols_0 (i : S16x1024x128.Idx) (q : dot_S16x1024x1024_S16x1024x128_S16x1024x128_1_1_2_2_0_0.contr.Idx) :
    (dot_S16x1024x1024_S16x1024x128_S16x1024x128_1_1_2_2_0_0.rhsIdx i q 0).val = (i 0).val := by
  unfold DotDims.rhsIdx
  rw [dif_pos (show (0 : Fin S16x1024x128.rank) ∈ dot_S16x1024x1024_S16x1024x128_S16x1024x128_1_1_2_2_0_0.rhsBatch by decide)]
  rfl
theorem rhs_dot_cols_cols_1 (i : S16x1024x128.Idx) (q : dot_S16x1024x1024_S16x1024x128_S16x1024x128_1_1_2_2_0_0.contr.Idx) :
    (dot_S16x1024x1024_S16x1024x128_S16x1024x128_1_1_2_2_0_0.rhsIdx i q 1).val = (q ⟨0, by decide⟩).val :=
  dot_S16x1024x1024_S16x1024x128_S16x1024x128_1_1_2_2_0_0.rhsIdx_val_of_single rfl i q
theorem rhs_dot_cols_cols_2 (i : S16x1024x128.Idx) (q : dot_S16x1024x1024_S16x1024x128_S16x1024x128_1_1_2_2_0_0.contr.Idx) :
    (dot_S16x1024x1024_S16x1024x128_S16x1024x128_1_1_2_2_0_0.rhsIdx i q 2).val = (i 2).val := by
  unfold DotDims.rhsIdx
  rw [dif_neg (show ¬(2 : Fin S16x1024x128.rank) ∈ dot_S16x1024x1024_S16x1024x128_S16x1024x128_1_1_2_2_0_0.rhsBatch by decide), dif_pos (show (2 : Fin S16x1024x128.rank) ∈ dot_S16x1024x1024_S16x1024x128_S16x1024x128_1_1_2_2_0_0.rhsNonContracting by decide)]
  rfl
/-- Per graph, `lᵀ · r` of a 1024 × 1024 and a 1024 × 128 array. -/
theorem dot_cols_cols (l : Arr S16x1024x1024) (r : Arr S16x1024x128) (g : Fin 16) (p : Fin 1024) (c : Fin 128) :
    Host.dotGeneral (F := Ideal) (φ₁ := .f32) (φ₂ := .f32) dot_S16x1024x1024_S16x1024x128_S16x1024x128_1_1_2_2_0_0 none l r (ix3 g p c) = ∑ k : Fin 1024, l (ix3 g k p) * r (ix3 g k c) := by
  simp only [Host.dotGeneral]
  rw [Ideal.dotGeneral_apply, ← Equiv.sum_comp (ValueIdx.contrEquiv1 dot_S16x1024x1024_S16x1024x128_S16x1024x128_1_1_2_2_0_0 1024 rfl rfl).symm]
  refine Finset.sum_congr rfl fun k _ => ?_
  have hk := ValueIdx.contrEquiv1_symm_val dot_S16x1024x1024_S16x1024x128_S16x1024x128_1_1_2_2_0_0 1024 rfl rfl k
  have el : dot_S16x1024x1024_S16x1024x128_S16x1024x128_1_1_2_2_0_0.lhsIdx (ix3 g p c) ((ValueIdx.contrEquiv1 dot_S16x1024x1024_S16x1024x128_S16x1024x128_1_1_2_2_0_0 1024 rfl rfl).symm k) = ix3 g k p := funext fun a => Fin.ext (by
    match a with
    | ⟨0, _⟩ => exact lhs_dot_cols_cols_0 _ _
    | ⟨1, _⟩ => exact (lhs_dot_cols_cols_1 _ _).trans hk
    | ⟨2, _⟩ => exact lhs_dot_cols_cols_2 _ _)
  have er : dot_S16x1024x1024_S16x1024x128_S16x1024x128_1_1_2_2_0_0.rhsIdx (ix3 g p c) ((ValueIdx.contrEquiv1 dot_S16x1024x1024_S16x1024x128_S16x1024x128_1_1_2_2_0_0 1024 rfl rfl).symm k) = ix3 g k c := funext fun a => Fin.ext (by
    match a with
    | ⟨0, _⟩ => exact rhs_dot_cols_cols_0 _ _
    | ⟨1, _⟩ => exact (rhs_dot_cols_cols_1 _ _).trans hk
    | ⟨2, _⟩ => exact rhs_dot_cols_cols_2 _ _)
  rw [el, er]

theorem lhs_dot_att_weight_0 (i : S16x1024x384.Idx) (q : dot_S16x1024x384_S384x384_S16x1024x384_2_1_01_0_n_n.contr.Idx) :
    (dot_S16x1024x384_S384x384_S16x1024x384_2_1_01_0_n_n.lhsIdx i q 0).val = (i 0).val := by
  unfold DotDims.lhsIdx
  rw [dif_neg (show ¬(0 : Fin S16x1024x384.rank) ∈ dot_S16x1024x384_S384x384_S16x1024x384_2_1_01_0_n_n.lhsBatch by decide), dif_pos (show (0 : Fin S16x1024x384.rank) ∈ dot_S16x1024x384_S384x384_S16x1024x384_2_1_01_0_n_n.lhsNonContracting by decide)]
  rfl
theorem lhs_dot_att_weight_1 (i : S16x1024x384.Idx) (q : dot_S16x1024x384_S384x384_S16x1024x384_2_1_01_0_n_n.contr.Idx) :
    (dot_S16x1024x384_S384x384_S16x1024x384_2_1_01_0_n_n.lhsIdx i q 1).val = (i 1).val := by
  unfold DotDims.lhsIdx
  rw [dif_neg (show ¬(1 : Fin S16x1024x384.rank) ∈ dot_S16x1024x384_S384x384_S16x1024x384_2_1_01_0_n_n.lhsBatch by decide), dif_pos (show (1 : Fin S16x1024x384.rank) ∈ dot_S16x1024x384_S384x384_S16x1024x384_2_1_01_0_n_n.lhsNonContracting by decide)]
  rfl
theorem lhs_dot_att_weight_2 (i : S16x1024x384.Idx) (q : dot_S16x1024x384_S384x384_S16x1024x384_2_1_01_0_n_n.contr.Idx) :
    (dot_S16x1024x384_S384x384_S16x1024x384_2_1_01_0_n_n.lhsIdx i q 2).val = (q ⟨0, by decide⟩).val :=
  dot_S16x1024x384_S384x384_S16x1024x384_2_1_01_0_n_n.lhsIdx_val_of_single rfl i q
theorem rhs_dot_att_weight_0 (i : S16x1024x384.Idx) (q : dot_S16x1024x384_S384x384_S16x1024x384_2_1_01_0_n_n.contr.Idx) :
    (dot_S16x1024x384_S384x384_S16x1024x384_2_1_01_0_n_n.rhsIdx i q 0).val = (i 2).val := by
  unfold DotDims.rhsIdx
  rw [dif_neg (show ¬(0 : Fin S384x384.rank) ∈ dot_S16x1024x384_S384x384_S16x1024x384_2_1_01_0_n_n.rhsBatch by decide), dif_pos (show (0 : Fin S384x384.rank) ∈ dot_S16x1024x384_S384x384_S16x1024x384_2_1_01_0_n_n.rhsNonContracting by decide)]
  rfl
theorem rhs_dot_att_weight_1 (i : S16x1024x384.Idx) (q : dot_S16x1024x384_S384x384_S16x1024x384_2_1_01_0_n_n.contr.Idx) :
    (dot_S16x1024x384_S384x384_S16x1024x384_2_1_01_0_n_n.rhsIdx i q 1).val = (q ⟨0, by decide⟩).val :=
  dot_S16x1024x384_S384x384_S16x1024x384_2_1_01_0_n_n.rhsIdx_val_of_single rfl i q
/-- The product with the 384 × 384 attention weight stored [out, in]. -/
theorem dot_att_weight (l : Arr S16x1024x384) (r : Arr S384x384) (g : Fin 16) (p : Fin 1024) (c : Fin 384) :
    Host.dotGeneral (F := Ideal) (φ₁ := .f32) (φ₂ := .f32) dot_S16x1024x384_S384x384_S16x1024x384_2_1_01_0_n_n none l r (ix3 g p c) = ∑ k : Fin 384, l (ix3 g p k) * r (ix2 c k) := by
  simp only [Host.dotGeneral]
  rw [Ideal.dotGeneral_apply, ← Equiv.sum_comp (ValueIdx.contrEquiv1 dot_S16x1024x384_S384x384_S16x1024x384_2_1_01_0_n_n 384 rfl rfl).symm]
  refine Finset.sum_congr rfl fun k _ => ?_
  have hk := ValueIdx.contrEquiv1_symm_val dot_S16x1024x384_S384x384_S16x1024x384_2_1_01_0_n_n 384 rfl rfl k
  have el : dot_S16x1024x384_S384x384_S16x1024x384_2_1_01_0_n_n.lhsIdx (ix3 g p c) ((ValueIdx.contrEquiv1 dot_S16x1024x384_S384x384_S16x1024x384_2_1_01_0_n_n 384 rfl rfl).symm k) = ix3 g p k := funext fun a => Fin.ext (by
    match a with
    | ⟨0, _⟩ => exact lhs_dot_att_weight_0 _ _
    | ⟨1, _⟩ => exact lhs_dot_att_weight_1 _ _
    | ⟨2, _⟩ => exact (lhs_dot_att_weight_2 _ _).trans hk)
  have er : dot_S16x1024x384_S384x384_S16x1024x384_2_1_01_0_n_n.rhsIdx (ix3 g p c) ((ValueIdx.contrEquiv1 dot_S16x1024x384_S384x384_S16x1024x384_2_1_01_0_n_n 384 rfl rfl).symm k) = ix2 c k := funext fun a => Fin.ext (by
    match a with
    | ⟨0, _⟩ => exact rhs_dot_att_weight_0 _ _
    | ⟨1, _⟩ => exact (rhs_dot_att_weight_1 _ _).trans hk)
  rw [el, er]

theorem lhs_dot_upd_weight_0 (i : S16x1024x256.Idx) (q : dot_S16x1024x384_S256x384_S16x1024x256_2_1_01_0_n_n.contr.Idx) :
    (dot_S16x1024x384_S256x384_S16x1024x256_2_1_01_0_n_n.lhsIdx i q 0).val = (i 0).val := by
  unfold DotDims.lhsIdx
  rw [dif_neg (show ¬(0 : Fin S16x1024x384.rank) ∈ dot_S16x1024x384_S256x384_S16x1024x256_2_1_01_0_n_n.lhsBatch by decide), dif_pos (show (0 : Fin S16x1024x384.rank) ∈ dot_S16x1024x384_S256x384_S16x1024x256_2_1_01_0_n_n.lhsNonContracting by decide)]
  rfl
theorem lhs_dot_upd_weight_1 (i : S16x1024x256.Idx) (q : dot_S16x1024x384_S256x384_S16x1024x256_2_1_01_0_n_n.contr.Idx) :
    (dot_S16x1024x384_S256x384_S16x1024x256_2_1_01_0_n_n.lhsIdx i q 1).val = (i 1).val := by
  unfold DotDims.lhsIdx
  rw [dif_neg (show ¬(1 : Fin S16x1024x384.rank) ∈ dot_S16x1024x384_S256x384_S16x1024x256_2_1_01_0_n_n.lhsBatch by decide), dif_pos (show (1 : Fin S16x1024x384.rank) ∈ dot_S16x1024x384_S256x384_S16x1024x256_2_1_01_0_n_n.lhsNonContracting by decide)]
  rfl
theorem lhs_dot_upd_weight_2 (i : S16x1024x256.Idx) (q : dot_S16x1024x384_S256x384_S16x1024x256_2_1_01_0_n_n.contr.Idx) :
    (dot_S16x1024x384_S256x384_S16x1024x256_2_1_01_0_n_n.lhsIdx i q 2).val = (q ⟨0, by decide⟩).val :=
  dot_S16x1024x384_S256x384_S16x1024x256_2_1_01_0_n_n.lhsIdx_val_of_single rfl i q
theorem rhs_dot_upd_weight_0 (i : S16x1024x256.Idx) (q : dot_S16x1024x384_S256x384_S16x1024x256_2_1_01_0_n_n.contr.Idx) :
    (dot_S16x1024x384_S256x384_S16x1024x256_2_1_01_0_n_n.rhsIdx i q 0).val = (i 2).val := by
  unfold DotDims.rhsIdx
  rw [dif_neg (show ¬(0 : Fin S256x384.rank) ∈ dot_S16x1024x384_S256x384_S16x1024x256_2_1_01_0_n_n.rhsBatch by decide), dif_pos (show (0 : Fin S256x384.rank) ∈ dot_S16x1024x384_S256x384_S16x1024x256_2_1_01_0_n_n.rhsNonContracting by decide)]
  rfl
theorem rhs_dot_upd_weight_1 (i : S16x1024x256.Idx) (q : dot_S16x1024x384_S256x384_S16x1024x256_2_1_01_0_n_n.contr.Idx) :
    (dot_S16x1024x384_S256x384_S16x1024x256_2_1_01_0_n_n.rhsIdx i q 1).val = (q ⟨0, by decide⟩).val :=
  dot_S16x1024x384_S256x384_S16x1024x256_2_1_01_0_n_n.rhsIdx_val_of_single rfl i q
/-- The product with the 256 × 384 update weight stored [out, in]. -/
theorem dot_upd_weight (l : Arr S16x1024x384) (r : Arr S256x384) (g : Fin 16) (p : Fin 1024) (c : Fin 256) :
    Host.dotGeneral (F := Ideal) (φ₁ := .f32) (φ₂ := .f32) dot_S16x1024x384_S256x384_S16x1024x256_2_1_01_0_n_n none l r (ix3 g p c) = ∑ k : Fin 384, l (ix3 g p k) * r (ix2 c k) := by
  simp only [Host.dotGeneral]
  rw [Ideal.dotGeneral_apply, ← Equiv.sum_comp (ValueIdx.contrEquiv1 dot_S16x1024x384_S256x384_S16x1024x256_2_1_01_0_n_n 384 rfl rfl).symm]
  refine Finset.sum_congr rfl fun k _ => ?_
  have hk := ValueIdx.contrEquiv1_symm_val dot_S16x1024x384_S256x384_S16x1024x256_2_1_01_0_n_n 384 rfl rfl k
  have el : dot_S16x1024x384_S256x384_S16x1024x256_2_1_01_0_n_n.lhsIdx (ix3 g p c) ((ValueIdx.contrEquiv1 dot_S16x1024x384_S256x384_S16x1024x256_2_1_01_0_n_n 384 rfl rfl).symm k) = ix3 g p k := funext fun a => Fin.ext (by
    match a with
    | ⟨0, _⟩ => exact lhs_dot_upd_weight_0 _ _
    | ⟨1, _⟩ => exact lhs_dot_upd_weight_1 _ _
    | ⟨2, _⟩ => exact (lhs_dot_upd_weight_2 _ _).trans hk)
  have er : dot_S16x1024x384_S256x384_S16x1024x256_2_1_01_0_n_n.rhsIdx (ix3 g p c) ((ValueIdx.contrEquiv1 dot_S16x1024x384_S256x384_S16x1024x256_2_1_01_0_n_n 384 rfl rfl).symm k) = ix2 c k := funext fun a => Fin.ext (by
    match a with
    | ⟨0, _⟩ => exact rhs_dot_upd_weight_0 _ _
    | ⟨1, _⟩ => exact (rhs_dot_upd_weight_1 _ _).trans hk)
  rw [el, er]

/-- The sum along a row of 128. -/
theorem reduce_row_128 (x : Arr S16x1024x128) (g : Fin 16) (p : Fin 1024) :
    Host.reduceAdd (F := Ideal) x (constant (F := Ideal) S_ .f32 0x00000000#32) reducesTo_S16x1024x128_S16x1024_d2 h_S_ (ix2 g p) = ∑ k : Fin 128, x (ix3 g p k) := by
  simp only [Host.reduceAdd, Ideal.hostReduceAdd_def]
  rw [Ideal.hostReduceAdd_single reducesTo_S16x1024x128_S16x1024_d2 (by decide)]
  refine Eq.trans (congrArg (· + _) (Ideal.ofBits_zero_f32 : constant (F := Ideal) S_ .f32 0x00000000#32 (Shape.Idx.first h_S_) = 0)) ?_
  rw [zero_add]
  refine Finset.sum_congr rfl fun k _ => ?_
  exact congrArg x (funext fun a => Fin.ext (by match a with | ⟨0, _⟩ => rfl | ⟨1, _⟩ => rfl | ⟨2, _⟩ => rfl))

/-- The sum along a row of 1024. -/
theorem reduce_row_1024 (x : Arr S16x1024x1024) (g : Fin 16) (p : Fin 1024) :
    Host.reduceAdd (F := Ideal) x (constant (F := Ideal) S_ .f32 0x00000000#32) reducesTo_S16x1024x1024_S16x1024_d2 h_S_ (ix2 g p) = ∑ k : Fin 1024, x (ix3 g p k) := by
  simp only [Host.reduceAdd, Ideal.hostReduceAdd_def]
  rw [Ideal.hostReduceAdd_single reducesTo_S16x1024x1024_S16x1024_d2 (by decide)]
  refine Eq.trans (congrArg (· + _) (Ideal.ofBits_zero_f32 : constant (F := Ideal) S_ .f32 0x00000000#32 (Shape.Idx.first h_S_) = 0)) ?_
  rw [zero_add]
  refine Finset.sum_congr rfl fun k _ => ?_
  exact congrArg x (funext fun a => Fin.ext (by match a with | ⟨0, _⟩ => rfl | ⟨1, _⟩ => rfl | ⟨2, _⟩ => rfl))

/-- The sum down a column of 1024. -/
theorem reduce_col_1024 (x : Arr S16x1024x1024) (g : Fin 16) (c : Fin 1024) :
    Host.reduceAdd (F := Ideal) x (constant (F := Ideal) S_ .f32 0x00000000#32) reducesTo_S16x1024x1024_S16x1024_d1 h_S_ (ix2 g c) = ∑ k : Fin 1024, x (ix3 g k c) := by
  simp only [Host.reduceAdd, Ideal.hostReduceAdd_def]
  rw [Ideal.hostReduceAdd_single reducesTo_S16x1024x1024_S16x1024_d1 (by decide)]
  refine Eq.trans (congrArg (· + _) (Ideal.ofBits_zero_f32 : constant (F := Ideal) S_ .f32 0x00000000#32 (Shape.Idx.first h_S_) = 0)) ?_
  rw [zero_add]
  refine Finset.sum_congr rfl fun k _ => ?_
  exact congrArg x (funext fun a => Fin.ext (by match a with | ⟨0, _⟩ => rfl | ⟨1, _⟩ => rfl | ⟨2, _⟩ => rfl))

/-- A bias of length 128 as a 1 × 1 × 128 array. -/
theorem bcast_bias128_a (v : Arr S128) (a : Fin 1) (b : Fin 1) (c : Fin 128) :
    (broadcastInDim S1x1x128 ![2] bcast_S128_S1x1x128_2 v : Arr S1x1x128) (ix3 a b c) = v (ix1 c) :=
  broadcastInDim_apply _ bcast_S128_S1x1x128_2 v (ix3 a b c) (ix1 c) (fun a => match a with
    | ⟨0, _⟩ => by show c.val = if (128 : Nat) = 1 then 0 else c.val; rw [if_neg (by decide)])

/-- A 1 × 1 × 128 array repeated over graphs and nodes. -/
theorem bcast_bias128_b (v : Arr S1x1x128) (g : Fin 16) (p : Fin 1024) (c : Fin 128) :
    (broadcastInDim S16x1024x128 ![0, 1, 2] bcast_S1x1x128_S16x1024x128_0_1_2 v : Arr S16x1024x128) (ix3 g p c) = v (ix3 0 0 c) :=
  broadcastInDim_apply _ bcast_S1x1x128_S16x1024x128_0_1_2 v (ix3 g p c) (ix3 0 0 c) (fun a => match a with
    | ⟨0, _⟩ => by show 0 = if (1 : Nat) = 1 then 0 else g.val; rw [if_pos rfl]
    | ⟨1, _⟩ => by show 0 = if (1 : Nat) = 1 then 0 else p.val; rw [if_pos rfl]
    | ⟨2, _⟩ => by show c.val = if (128 : Nat) = 1 then 0 else c.val; rw [if_neg (by decide)])

/-- A bias of length 384 as a 1 × 1 × 384 array. -/
theorem bcast_bias384_a (v : Arr S384) (a : Fin 1) (b : Fin 1) (c : Fin 384) :
    (broadcastInDim S1x1x384 ![2] bcast_S384_S1x1x384_2 v : Arr S1x1x384) (ix3 a b c) = v (ix1 c) :=
  broadcastInDim_apply _ bcast_S384_S1x1x384_2 v (ix3 a b c) (ix1 c) (fun a => match a with
    | ⟨0, _⟩ => by show c.val = if (384 : Nat) = 1 then 0 else c.val; rw [if_neg (by decide)])

/-- A 1 × 1 × 384 array repeated over graphs and nodes. -/
theorem bcast_bias384_b (v : Arr S1x1x384) (g : Fin 16) (p : Fin 1024) (c : Fin 384) :
    (broadcastInDim S16x1024x384 ![0, 1, 2] bcast_S1x1x384_S16x1024x384_0_1_2 v : Arr S16x1024x384) (ix3 g p c) = v (ix3 0 0 c) :=
  broadcastInDim_apply _ bcast_S1x1x384_S16x1024x384_0_1_2 v (ix3 g p c) (ix3 0 0 c) (fun a => match a with
    | ⟨0, _⟩ => by show 0 = if (1 : Nat) = 1 then 0 else g.val; rw [if_pos rfl]
    | ⟨1, _⟩ => by show 0 = if (1 : Nat) = 1 then 0 else p.val; rw [if_pos rfl]
    | ⟨2, _⟩ => by show c.val = if (384 : Nat) = 1 then 0 else c.val; rw [if_neg (by decide)])

/-- A bias of length 256 as a 1 × 1 × 256 array. -/
theorem bcast_bias256_a (v : Arr S256) (a : Fin 1) (b : Fin 1) (c : Fin 256) :
    (broadcastInDim S1x1x256 ![2] bcast_S256_S1x1x256_2 v : Arr S1x1x256) (ix3 a b c) = v (ix1 c) :=
  broadcastInDim_apply _ bcast_S256_S1x1x256_2 v (ix3 a b c) (ix1 c) (fun a => match a with
    | ⟨0, _⟩ => by show c.val = if (256 : Nat) = 1 then 0 else c.val; rw [if_neg (by decide)])

/-- A 1 × 1 × 256 array repeated over graphs and nodes. -/
theorem bcast_bias256_b (v : Arr S1x1x256) (g : Fin 16) (p : Fin 1024) (c : Fin 256) :
    (broadcastInDim S16x1024x256 ![0, 1, 2] bcast_S1x1x256_S16x1024x256_0_1_2 v : Arr S16x1024x256) (ix3 g p c) = v (ix3 0 0 c) :=
  broadcastInDim_apply _ bcast_S1x1x256_S16x1024x256_0_1_2 v (ix3 g p c) (ix3 0 0 c) (fun a => match a with
    | ⟨0, _⟩ => by show 0 = if (1 : Nat) = 1 then 0 else g.val; rw [if_pos rfl]
    | ⟨1, _⟩ => by show 0 = if (1 : Nat) = 1 then 0 else p.val; rw [if_pos rfl]
    | ⟨2, _⟩ => by show c.val = if (256 : Nat) = 1 then 0 else c.val; rw [if_neg (by decide)])

/-- A per-node number as a 16 × 1024 × 1 array. -/
theorem bcast_rowstat_a (v : Arr S16x1024) (g : Fin 16) (p : Fin 1024) (z : Fin 1) :
    (broadcastInDim S16x1024x1 ![0, 1] bcast_S16x1024_S16x1024x1_0_1 v : Arr S16x1024x1) (ix3 g p z) = v (ix2 g p) :=
  broadcastInDim_apply _ bcast_S16x1024_S16x1024x1_0_1 v (ix3 g p z) (ix2 g p) (fun a => match a with
    | ⟨0, _⟩ => by show g.val = if (16 : Nat) = 1 then 0 else g.val; rw [if_neg (by decide)]
    | ⟨1, _⟩ => by show p.val = if (1024 : Nat) = 1 then 0 else p.val; rw [if_neg (by decide)])

/-- A per-node number repeated along a row of 128. -/
theorem bcast_rowstat_128 (v : Arr S16x1024x1) (g : Fin 16) (p : Fin 1024) (c : Fin 128) :
    (broadcastInDim S16x1024x128 ![0, 1, 2] bcast_S16x1024x1_S16x1024x128_0_1_2 v : Arr S16x1024x128) (ix3 g p c) = v (ix3 g p 0) :=
  broadcastInDim_apply _ bcast_S16x1024x1_S16x1024x128_0_1_2 v (ix3 g p c) (ix3 g p 0) (fun a => match a with
    | ⟨0, _⟩ => by show g.val = if (16 : Nat) = 1 then 0 else g.val; rw [if_neg (by decide)]
    | ⟨1, _⟩ => by show p.val = if (1024 : Nat) = 1 then 0 else p.val; rw [if_neg (by decide)]
    | ⟨2, _⟩ => by show 0 = if (1 : Nat) = 1 then 0 else c.val; rw [if_pos rfl])

/-- A per-node number repeated along a row of 1024. -/
theorem bcast_rowstat_1024 (v : Arr S16x1024x1) (g : Fin 16) (p : Fin 1024) (c : Fin 1024) :
    (broadcastInDim S16x1024x1024 ![0, 1, 2] bcast_S16x1024x1_S16x1024x1024_0_1_2 v : Arr S16x1024x1024) (ix3 g p c) = v (ix3 g p 0) :=
  broadcastInDim_apply _ bcast_S16x1024x1_S16x1024x1024_0_1_2 v (ix3 g p c) (ix3 g p 0) (fun a => match a with
    | ⟨0, _⟩ => by show g.val = if (16 : Nat) = 1 then 0 else g.val; rw [if_neg (by decide)]
    | ⟨1, _⟩ => by show p.val = if (1024 : Nat) = 1 then 0 else p.val; rw [if_neg (by decide)]
    | ⟨2, _⟩ => by show 0 = if (1 : Nat) = 1 then 0 else c.val; rw [if_pos rfl])

/-- A per-column number as a 16 × 1 × 1024 array. -/
theorem bcast_colstat_a (v : Arr S16x1024) (g : Fin 16) (z : Fin 1) (c : Fin 1024) :
    (broadcastInDim S16x1x1024 ![0, 2] bcast_S16x1024_S16x1x1024_0_2 v : Arr S16x1x1024) (ix3 g z c) = v (ix2 g c) :=
  broadcastInDim_apply _ bcast_S16x1024_S16x1x1024_0_2 v (ix3 g z c) (ix2 g c) (fun a => match a with
    | ⟨0, _⟩ => by show g.val = if (16 : Nat) = 1 then 0 else g.val; rw [if_neg (by decide)]
    | ⟨1, _⟩ => by show c.val = if (1024 : Nat) = 1 then 0 else c.val; rw [if_neg (by decide)])

/-- A per-column number repeated down a column of 1024. -/
theorem bcast_colstat_1024 (v : Arr S16x1x1024) (g : Fin 16) (p : Fin 1024) (c : Fin 1024) :
    (broadcastInDim S16x1024x1024 ![0, 1, 2] bcast_S16x1x1024_S16x1024x1024_0_1_2 v : Arr S16x1024x1024) (ix3 g p c) = v (ix3 g 0 c) :=
  broadcastInDim_apply _ bcast_S16x1x1024_S16x1024x1024_0_1_2 v (ix3 g p c) (ix3 g 0 c) (fun a => match a with
    | ⟨0, _⟩ => by show g.val = if (16 : Nat) = 1 then 0 else g.val; rw [if_neg (by decide)]
    | ⟨1, _⟩ => by show 0 = if (1 : Nat) = 1 then 0 else p.val; rw [if_pos rfl]
    | ⟨2, _⟩ => by show c.val = if (1024 : Nat) = 1 then 0 else c.val; rw [if_neg (by decide)])

/-- A scalar repeated over every index of the array. -/
theorem bcast_scalar_rowstat (v : Arr S_) (i : S16x1024x1.Idx) :
    (broadcastInDim S16x1024x1 ![] bcast_S_S16x1024x1 v : Arr S16x1024x1) i = v ix0 :=
  broadcastInDim_apply _ bcast_S_S16x1024x1 v i ix0 (fun a => a.elim0)

/-- A scalar repeated over every index of the array. -/
theorem bcast_scalar_colstat (v : Arr S_) (i : S16x1x1024.Idx) :
    (broadcastInDim S16x1x1024 ![] bcast_S_S16x1x1024 v : Arr S16x1x1024) i = v ix0 :=
  broadcastInDim_apply _ bcast_S_S16x1x1024 v i ix0 (fun a => a.elim0)

/-- A scalar repeated over every index of the array. -/
theorem bcast_scalar_128 (v : Arr S_) (i : S16x1024x128.Idx) :
    (broadcastInDim S16x1024x128 ![] bcast_S_S16x1024x128 v : Arr S16x1024x128) i = v ix0 :=
  broadcastInDim_apply _ bcast_S_S16x1024x128 v i ix0 (fun a => a.elim0)

/-- A scalar repeated over every index of the array. -/
theorem bcast_scalar_256 (v : Arr S_) (i : S16x1024x256.Idx) :
    (broadcastInDim S16x1024x256 ![] bcast_S_S16x1024x256 v : Arr S16x1024x256) i = v ix0 :=
  broadcastInDim_apply _ bcast_S_S16x1024x256 v i ix0 (fun a => a.elim0)

/-- The block of 128 columns starting at column 0. -/
theorem slice_cols_0 (y : Arr S16x1024x384) (g : Fin 16) (p : Fin 1024) (c : Fin 128) :
    (extractStridedSlice S16x1024x128 ![0, 0, 0] y slices_S16x1024x384_S16x1024x128_0_0_0 : Arr S16x1024x128) (ix3 g p c)
      = Spec.cols 0 (fun p c => y (ix3 g p c)) p c :=
  extractStridedSlice_apply ![0, 0, 0] y slices_S16x1024x384_S16x1024x128_0_0_0 (ix3 g p c)
    (ix3 g p ⟨0 + c.val, by have h := c.isLt; show 0 + c.val < 384; omega⟩) (fun a => match a with
    | ⟨0, _⟩ => by show g.val = 0 + g.val; omega
    | ⟨1, _⟩ => by show p.val = 0 + p.val; omega
    | ⟨2, _⟩ => by show 0 + c.val = 0 + c.val; rfl)

/-- The block of 128 columns starting at column 128. -/
theorem slice_cols_128 (y : Arr S16x1024x384) (g : Fin 16) (p : Fin 1024) (c : Fin 128) :
    (extractStridedSlice S16x1024x128 ![0, 0, 128] y slices_S16x1024x384_S16x1024x128_0_0_128 : Arr S16x1024x128) (ix3 g p c)
      = Spec.cols 128 (fun p c => y (ix3 g p c)) p c :=
  extractStridedSlice_apply ![0, 0, 128] y slices_S16x1024x384_S16x1024x128_0_0_128 (ix3 g p c)
    (ix3 g p ⟨128 + c.val, by have h := c.isLt; show 128 + c.val < 384; omega⟩) (fun a => match a with
    | ⟨0, _⟩ => by show g.val = 0 + g.val; omega
    | ⟨1, _⟩ => by show p.val = 0 + p.val; omega
    | ⟨2, _⟩ => by show 128 + c.val = 128 + c.val; rfl)

/-- The block of 128 columns starting at column 256. -/
theorem slice_cols_256 (y : Arr S16x1024x384) (g : Fin 16) (p : Fin 1024) (c : Fin 128) :
    (extractStridedSlice S16x1024x128 ![0, 0, 256] y slices_S16x1024x384_S16x1024x128_0_0_256 : Arr S16x1024x128) (ix3 g p c)
      = Spec.cols 256 (fun p c => y (ix3 g p c)) p c :=
  extractStridedSlice_apply ![0, 0, 256] y slices_S16x1024x384_S16x1024x128_0_0_256 (ix3 g p c)
    (ix3 g p ⟨256 + c.val, by have h := c.isLt; show 256 + c.val < 384; omega⟩) (fun a => match a with
    | ⟨0, _⟩ => by show g.val = 0 + g.val; omega
    | ⟨1, _⟩ => by show p.val = 0 + p.val; omega
    | ⟨2, _⟩ => by show 256 + c.val = 256 + c.val; rfl)

/-- Three blocks of 128 columns joined along the columns. -/
theorem concat3 (a b c : Arr S16x1024x128) (g : Fin 16) (p : Fin 1024) (k : Fin 384) :
    (concatenate S16x1024x384 2 [⟨S16x1024x128, a⟩, ⟨S16x1024x128, b⟩, ⟨S16x1024x128, c⟩]
        concatenates_S16x1024x128_S16x1024x128_S16x1024x128_S16x1024x384_d2 : Arr S16x1024x384) (ix3 g p k)
      = Spec.cat3 (fun p c => a (ix3 g p c)) (fun p c => b (ix3 g p c)) (fun p q => c (ix3 g p q)) p k := by
  unfold Spec.cat3
  by_cases h1 : k.val < 128
  · rw [dif_pos h1]
    exact concatenate_apply_piece (t := S16x1024x384) 2 [⟨S16x1024x128, a⟩, ⟨S16x1024x128, b⟩, ⟨S16x1024x128, c⟩] concatenates_S16x1024x128_S16x1024x128_S16x1024x128_S16x1024x384_d2 (ix3 g p k)
      0 (show 0 < 3 by omega) S16x1024x128 a rfl rfl 0 rfl (ix3 g p ⟨k.val, h1⟩)
      (fun d hd => match d with
        | ⟨0, _⟩ => rfl
        | ⟨1, _⟩ => rfl
        | ⟨2, _⟩ => absurd rfl hd)
      (by show 0 + k.val = k.val; omega)
  · rw [dif_neg h1]
    by_cases h2 : k.val < 256
    · rw [dif_pos h2]
      exact concatenate_apply_piece (t := S16x1024x384) 2 [⟨S16x1024x128, a⟩, ⟨S16x1024x128, b⟩, ⟨S16x1024x128, c⟩] concatenates_S16x1024x128_S16x1024x128_S16x1024x128_S16x1024x384_d2 (ix3 g p k)
        1 (show 1 < 3 by omega) S16x1024x128 b rfl rfl 128 rfl (ix3 g p ⟨k.val - 128, by omega⟩)
        (fun d hd => match d with
          | ⟨0, _⟩ => rfl
          | ⟨1, _⟩ => rfl
          | ⟨2, _⟩ => absurd rfl hd)
        (by show 128 + (k.val - 128) = k.val; omega)
    · rw [dif_neg h2]
      exact concatenate_apply_piece (t := S16x1024x384) 2 [⟨S16x1024x128, a⟩, ⟨S16x1024x128, b⟩, ⟨S16x1024x128, c⟩] concatenates_S16x1024x128_S16x1024x128_S16x1024x128_S16x1024x384_d2 (ix3 g p k)
        2 (show 2 < 3 by omega) S16x1024x128 c rfl rfl 256 rfl (ix3 g p ⟨k.val - 256, by have := k.isLt; omega⟩)
        (fun d hd => match d with
          | ⟨0, _⟩ => rfl
          | ⟨1, _⟩ => rfl
          | ⟨2, _⟩ => absurd rfl hd)
        (by show 256 + (k.val - 256) = k.val; omega)

/-! ## The elementwise operations at an entry -/

theorem addf_at {S : Shape} (a b : Arr S) (i : S.Idx) :
    addf (F := Ideal) (φ := .f32) a b i = (a i : EReal) + (b i : EReal) := rfl
theorem mulf_at {S : Shape} (a b : Arr S) (i : S.Idx) :
    mulf (F := Ideal) (φ := .f32) a b i = (a i : EReal) * (b i : EReal) := rfl
theorem maxf_at {S : Shape} (a b : Arr S) (i : S.Idx) :
    maximumf (F := Ideal) (φ := .f32) a b i = max (a i : EReal) (b i : EReal) := rfl
theorem divf_at {S : Shape} (a b : Arr S) (i : S.Idx) :
    Host.divf (F := Ideal) (φ := .f32) a b i = Ideal.div (a i) (b i) := rfl
theorem sqrt_at {S : Shape} (a : Arr S) (i : S.Idx) :
    Host.sqrt (F := Ideal) (φ := .f32) a i = Ideal.sqrt (a i) := rfl
theorem exp_at {S : Shape} (a : Arr S) (i : S.Idx) :
    Host.exp (F := Ideal) (φ := .f32) a i = Ideal.exp (a i) := rfl

/-! ## One graph's entries as a matrix

  `cur3 x g` is the matrix of graph `g` in a three-axis array whose first axis runs over the 16 graphs; `cur2` and
  `cur1` read a weight and a bias. Each operation of the program, and each short chain of operations that `Spec`
  names as one, is an equality of such matrices. -/

/-- The matrix of graph `g`. -/
def cur3 {n m : ℕ} (x : Arr ⟨3, ![16, n, m]⟩) (g : Fin 16) : Spec.Mat n m := fun p c => x (ix3 g p c)
/-- A two-axis array as a matrix. -/
def cur2 {n m : ℕ} (x : Arr ⟨2, ![n, m]⟩) : Spec.Mat n m := fun p c => x (ix2 p c)
/-- A one-axis array as a vector. -/
def cur1 {n : ℕ} (x : Arr ⟨1, ![n]⟩) : Fin n → EReal := fun c => x (ix1 c)

theorem dot_nodes_weight_cur (l : Arr S16x1024x256) (r : Arr S128x256) (g : Fin 16) :
    cur3 (Host.dotGeneral (F := Ideal) (φ₁ := .f32) (φ₂ := .f32) dot_S16x1024x256_S128x256_S16x1024x128_2_1_01_0_n_n none l r) g = Spec.mmR (cur3 l g) (cur2 r) := by
  funext p c
  exact dot_nodes_weight l r g p c

theorem dot_rows_rows_cur (l : Arr S16x1024x128) (r : Arr S16x1024x128) (g : Fin 16) :
    cur3 (Host.dotGeneral (F := Ideal) (φ₁ := .f32) (φ₂ := .f32) dot_S16x1024x128_S16x1024x128_S16x1024x1024_2_2_1_1_0_0 none l r) g = Spec.mmR (cur3 l g) (cur3 r g) := by
  funext p c
  exact dot_rows_rows l r g p c

theorem dot_plain_cur (l : Arr S16x1024x1024) (r : Arr S16x1024x128) (g : Fin 16) :
    cur3 (Host.dotGeneral (F := Ideal) (φ₁ := .f32) (φ₂ := .f32) dot_S16x1024x1024_S16x1024x128_S16x1024x128_2_1_1_2_0_0 none l r) g = Spec.mm (cur3 l g) (cur3 r g) := by
  funext p c
  exact dot_plain l r g p c

theorem dot_cols_cols_cur (l : Arr S16x1024x1024) (r : Arr S16x1024x128) (g : Fin 16) :
    cur3 (Host.dotGeneral (F := Ideal) (φ₁ := .f32) (φ₂ := .f32) dot_S16x1024x1024_S16x1024x128_S16x1024x128_1_1_2_2_0_0 none l r) g = Spec.mmL (cur3 l g) (cur3 r g) := by
  funext p c
  exact dot_cols_cols l r g p c

theorem dot_att_weight_cur (l : Arr S16x1024x384) (r : Arr S384x384) (g : Fin 16) :
    cur3 (Host.dotGeneral (F := Ideal) (φ₁ := .f32) (φ₂ := .f32) dot_S16x1024x384_S384x384_S16x1024x384_2_1_01_0_n_n none l r) g = Spec.mmR (cur3 l g) (cur2 r) := by
  funext p c
  exact dot_att_weight l r g p c

theorem dot_upd_weight_cur (l : Arr S16x1024x384) (r : Arr S256x384) (g : Fin 16) :
    cur3 (Host.dotGeneral (F := Ideal) (φ₁ := .f32) (φ₂ := .f32) dot_S16x1024x384_S256x384_S16x1024x256_2_1_01_0_n_n none l r) g = Spec.mmR (cur3 l g) (cur2 r) := by
  funext p c
  exact dot_upd_weight l r g p c

theorem slice_cols_0_cur (y : Arr S16x1024x384) (g : Fin 16) :
    cur3 (extractStridedSlice S16x1024x128 ![0, 0, 0] y slices_S16x1024x384_S16x1024x128_0_0_0 : Arr S16x1024x128) g
      = Spec.cols 0 (cur3 y g) := by
  funext p c
  exact slice_cols_0 y g p c

theorem slice_cols_128_cur (y : Arr S16x1024x384) (g : Fin 16) :
    cur3 (extractStridedSlice S16x1024x128 ![0, 0, 128] y slices_S16x1024x384_S16x1024x128_0_0_128 : Arr S16x1024x128) g
      = Spec.cols 128 (cur3 y g) := by
  funext p c
  exact slice_cols_128 y g p c

theorem slice_cols_256_cur (y : Arr S16x1024x384) (g : Fin 16) :
    cur3 (extractStridedSlice S16x1024x128 ![0, 0, 256] y slices_S16x1024x384_S16x1024x128_0_0_256 : Arr S16x1024x128) g
      = Spec.cols 256 (cur3 y g) := by
  funext p c
  exact slice_cols_256 y g p c

theorem concat3_cur (a b c : Arr S16x1024x128) (g : Fin 16) :
    cur3 (concatenate S16x1024x384 2 [⟨S16x1024x128, a⟩, ⟨S16x1024x128, b⟩, ⟨S16x1024x128, c⟩]
        concatenates_S16x1024x128_S16x1024x128_S16x1024x128_S16x1024x384_d2 : Arr S16x1024x384) g
      = Spec.cat3 (cur3 a g) (cur3 b g) (cur3 c g) := by
  funext p k
  exact concat3 a b c g p k

/-- The all-zero block. -/
theorem zeros_cur (g : Fin 16) :
    cur3 (broadcastInDim S16x1024x128 ![] bcast_S_S16x1024x128 (constant (F := Ideal) S_ .f32 0x00000000#32) : Arr S16x1024x128) g = Spec.zeros := by
  funext p c
  unfold cur3
  rw [bcast_scalar_128]
  rfl

/-- The rectifier on 128 columns. -/
theorem relu128_cur (y : Arr S16x1024x128) (g : Fin 16) :
    cur3 (maximumf (F := Ideal) (φ := .f32) y
        (broadcastInDim S16x1024x128 ![] bcast_S_S16x1024x128 (constant (F := Ideal) S_ .f32 0x00000000#32) : Arr S16x1024x128)) g = Spec.relu (cur3 y g) := by
  funext p c
  unfold cur3
  rw [maxf_at, bcast_scalar_128]
  rfl

/-- The rectifier on 256 columns. -/
theorem relu256_cur (y : Arr S16x1024x256) (g : Fin 16) :
    cur3 (maximumf (F := Ideal) (φ := .f32) y
        (broadcastInDim S16x1024x256 ![] bcast_S_S16x1024x256 (constant (F := Ideal) S_ .f32 0x00000000#32) : Arr S16x1024x256)) g = Spec.relu (cur3 y g) := by
  funext p c
  unfold cur3
  rw [maxf_at, bcast_scalar_256]
  rfl

/-- A bias of length 128 added to every row. -/
theorem addRow128_cur (a : Arr S16x1024x128) (v : Arr S128) (g : Fin 16) :
    cur3 (addf (F := Ideal) (φ := .f32) a
        (broadcastInDim S16x1024x128 ![0, 1, 2] bcast_S1x1x128_S16x1024x128_0_1_2
          (broadcastInDim S1x1x128 ![2] bcast_S128_S1x1x128_2 v : Arr S1x1x128) : Arr S16x1024x128)) g
      = Spec.addRow (cur3 a g) (cur1 v) := by
  funext p c
  unfold cur3
  rw [addf_at, bcast_bias128_b, bcast_bias128_a]
  rfl

/-- A bias of length 384 added to every row. -/
theorem addRow384_cur (a : Arr S16x1024x384) (v : Arr S384) (g : Fin 16) :
    cur3 (addf (F := Ideal) (φ := .f32) a
        (broadcastInDim S16x1024x384 ![0, 1, 2] bcast_S1x1x384_S16x1024x384_0_1_2
          (broadcastInDim S1x1x384 ![2] bcast_S384_S1x1x384_2 v : Arr S1x1x384) : Arr S16x1024x384)) g
      = Spec.addRow (cur3 a g) (cur1 v) := by
  funext p c
  unfold cur3
  rw [addf_at, bcast_bias384_b, bcast_bias384_a]
  rfl

/-- A bias of length 256 added to every row. -/
theorem addRow256_cur (a : Arr S16x1024x256) (v : Arr S256) (g : Fin 16) :
    cur3 (addf (F := Ideal) (φ := .f32) a
        (broadcastInDim S16x1024x256 ![0, 1, 2] bcast_S1x1x256_S16x1024x256_0_1_2
          (broadcastInDim S1x1x256 ![2] bcast_S256_S1x1x256_2 v : Arr S1x1x256) : Arr S16x1024x256)) g
      = Spec.addRow (cur3 a g) (cur1 v) := by
  funext p c
  unfold cur3
  rw [addf_at, bcast_bias256_b, bcast_bias256_a]
  rfl

/-- The exponential of the scores, masked by the adjacency. -/
theorem expMask_cur (s adj : Arr S16x1024x1024) (g : Fin 16) :
    cur3 (mulf (F := Ideal) (φ := .f32) (Host.exp (F := Ideal) (φ := .f32) s) adj) g = Spec.expMask (cur3 s g) (cur3 adj g) := by
  funext p c
  unfold cur3
  rw [mulf_at, exp_at]
  rfl

/-- Every row of 128 divided by the larger of its Euclidean norm and ε. -/
theorem normRows128_cur (y : Arr S16x1024x128) (g : Fin 16) :
    cur3 (Host.divf (F := Ideal) (φ := .f32) y
        (broadcastInDim S16x1024x128 ![0, 1, 2] bcast_S16x1024x1_S16x1024x128_0_1_2
          (maximumf (F := Ideal) (φ := .f32)
            (Host.sqrt (F := Ideal) (φ := .f32)
              (broadcastInDim S16x1024x1 ![0, 1] bcast_S16x1024_S16x1024x1_0_1
                (Host.reduceAdd (F := Ideal) (mulf (F := Ideal) (φ := .f32) y y) (constant (F := Ideal) S_ .f32 0x00000000#32) reducesTo_S16x1024x128_S16x1024_d2 h_S_) : Arr S16x1024x1))
            (broadcastInDim S16x1024x1 ![] bcast_S_S16x1024x1 (constant (F := Ideal) S_ .f32 0x2B8CBCCC#32) : Arr S16x1024x1)) : Arr S16x1024x128)) g
      = Spec.normRows (cur3 y g) := by
  funext p c
  unfold cur3
  rw [divf_at, bcast_rowstat_128, maxf_at, sqrt_at, bcast_rowstat_a, bcast_scalar_rowstat, reduce_row_128]
  rfl

/-- Every row of 1024 divided by the larger of its Euclidean norm and ε. -/
theorem normRows1024_cur (y : Arr S16x1024x1024) (g : Fin 16) :
    cur3 (Host.divf (F := Ideal) (φ := .f32) y
        (broadcastInDim S16x1024x1024 ![0, 1, 2] bcast_S16x1024x1_S16x1024x1024_0_1_2
          (maximumf (F := Ideal) (φ := .f32)
            (Host.sqrt (F := Ideal) (φ := .f32)
              (broadcastInDim S16x1024x1 ![0, 1] bcast_S16x1024_S16x1024x1_0_1
                (Host.reduceAdd (F := Ideal) (mulf (F := Ideal) (φ := .f32) y y) (constant (F := Ideal) S_ .f32 0x00000000#32) reducesTo_S16x1024x1024_S16x1024_d2 h_S_) : Arr S16x1024x1))
            (broadcastInDim S16x1024x1 ![] bcast_S_S16x1024x1 (constant (F := Ideal) S_ .f32 0x2B8CBCCC#32) : Arr S16x1024x1)) : Arr S16x1024x1024)) g
      = Spec.normRows (cur3 y g) := by
  funext p c
  unfold cur3
  rw [divf_at, bcast_rowstat_1024, maxf_at, sqrt_at, bcast_rowstat_a, bcast_scalar_rowstat, reduce_row_1024]
  rfl

/-- Every column of 1024 divided by the larger of its Euclidean norm and ε. -/
theorem normCols_cur (y : Arr S16x1024x1024) (g : Fin 16) :
    cur3 (Host.divf (F := Ideal) (φ := .f32) y
        (broadcastInDim S16x1024x1024 ![0, 1, 2] bcast_S16x1x1024_S16x1024x1024_0_1_2
          (maximumf (F := Ideal) (φ := .f32)
            (Host.sqrt (F := Ideal) (φ := .f32)
              (broadcastInDim S16x1x1024 ![0, 2] bcast_S16x1024_S16x1x1024_0_2
                (Host.reduceAdd (F := Ideal) (mulf (F := Ideal) (φ := .f32) y y) (constant (F := Ideal) S_ .f32 0x00000000#32) reducesTo_S16x1024x1024_S16x1024_d1 h_S_) : Arr S16x1x1024))
            (broadcastInDim S16x1x1024 ![] bcast_S_S16x1x1024 (constant (F := Ideal) S_ .f32 0x2B8CBCCC#32) : Arr S16x1x1024)) : Arr S16x1024x1024)) g
      = Spec.normCols (cur3 y g) := by
  funext p c
  unfold cur3
  rw [divf_at, bcast_colstat_1024, maxf_at, sqrt_at, bcast_colstat_a, bcast_scalar_colstat, reduce_col_1024]
  rfl

/-! ## The stages of the layer -/

variable (x0 : Arr S16x1024x256) (x1 : Arr S16x1024x1024) (x2 : Arr S128x256) (x3 : Arr S128) (x4 : Arr S128x256) (x5 : Arr S128)
  (x6 : Arr S128x256) (x7 : Arr S128) (x8 : Arr S384x384) (x9 : Arr S384) (x10 : Arr S256x384) (x11 : Arr S256)

/-- The nodes' representations. -/
theorem rep_eq (g : Fin 16) :
    cur3 (val_main_v3 (F := Ideal) x0 x2 x3) g = Spec.rep (Spec.inpAt x0 x1 x2 x3 x4 x5 x6 x7 x8 x9 x10 x11 g) := by
  unfold val_main_v3 val_main_v2 val_main_v1 val_main_v0
  rw [addRow128_cur, dot_nodes_weight_cur]
  rfl

/-- The nodes' unit-length addresses. -/
theorem nodeAddr_eq (g : Fin 16) :
    cur3 (val_main_v15 (F := Ideal) x0 x4 x5) g = Spec.nodeAddr (Spec.inpAt x0 x1 x2 x3 x4 x5 x6 x7 x8 x9 x10 x11 g) := by
  unfold val_main_v15 val_main_v14 val_main_v13 val_main_v12 val_main_cst_0 val_main_v11 val_main_v10 val_main_v9 val_main_cst val_main_v8 val_main_v7 val_main_v6 val_main_v5 val_main_v4
  rw [normRows128_cur, addRow128_cur, dot_nodes_weight_cur]
  rfl

/-- The first step of the in-edge recurrence. -/
theorem in0_eq (g : Fin 16) :
    cur3 (val_main_v33 (F := Ideal) x0 x1 x2 x3 x4 x5 x8 x9) g = Spec.in0 (Spec.inpAt x0 x1 x2 x3 x4 x5 x6 x7 x8 x9 x10 x11 g) := by
  unfold val_main_v33 val_main_v32 val_main_v31 val_main_v30 val_main_v29 val_main_v28 val_main_v27 val_main_v26 val_main_v25 val_main_v24 val_main_cst_3 val_main_v23 val_main_v22 val_main_v21 val_main_cst_2 val_main_v20 val_main_v19 val_main_v18 val_main_v17 val_main_v16 val_main_cst_1
  rw [addRow384_cur, dot_att_weight_cur, concat3_cur, dot_plain_cur, normRows1024_cur, expMask_cur, dot_rows_rows_cur, zeros_cur, rep_eq x0 x1 x2 x3 x4 x5 x6 x7 x8 x9 x10 x11 g, nodeAddr_eq x0 x1 x2 x3 x4 x5 x6 x7 x8 x9 x10 x11 g]
  rfl

/-- The second step of the in-edge recurrence. -/
theorem in1_eq (g : Fin 16) :
    cur3 (val_main_v54 (F := Ideal) x0 x1 x2 x3 x4 x5 x8 x9) g = Spec.in1 (Spec.inpAt x0 x1 x2 x3 x4 x5 x6 x7 x8 x9 x10 x11 g) := by
  unfold val_main_v54 val_main_v53 val_main_v52 val_main_v51 val_main_v50 val_main_v49 val_main_v48 val_main_v47 val_main_v46 val_main_v45 val_main_cst_5 val_main_v44 val_main_v43 val_main_v42 val_main_cst_4 val_main_v41 val_main_v40 val_main_v39 val_main_v38 val_main_v37 val_main_call0_v0 val_main_call0_cst val_main_v36 val_main_v35
  rw [addRow384_cur, dot_att_weight_cur, concat3_cur, dot_plain_cur, normRows1024_cur, expMask_cur, dot_rows_rows_cur, relu128_cur, slice_cols_128_cur, slice_cols_256_cur, in0_eq x0 x1 x2 x3 x4 x5 x6 x7 x8 x9 x10 x11 g, rep_eq x0 x1 x2 x3 x4 x5 x6 x7 x8 x9 x10 x11 g, nodeAddr_eq x0 x1 x2 x3 x4 x5 x6 x7 x8 x9 x10 x11 g]
  rfl

/-- The third step of the in-edge recurrence. -/
theorem in2_eq (g : Fin 16) :
    cur3 (val_main_v75 (F := Ideal) x0 x1 x2 x3 x4 x5 x8 x9) g = Spec.in2 (Spec.inpAt x0 x1 x2 x3 x4 x5 x6 x7 x8 x9 x10 x11 g) := by
  unfold val_main_v75 val_main_v74 val_main_v73 val_main_v72 val_main_v71 val_main_v70 val_main_v69 val_main_v68 val_main_v67 val_main_v66 val_main_cst_7 val_main_v65 val_main_v64 val_main_v63 val_main_cst_6 val_main_v62 val_main_v61 val_main_v60 val_main_v59 val_main_v58 val_main_call1_v0 val_main_call1_cst val_main_v57 val_main_v56
  rw [addRow384_cur, dot_att_weight_cur, concat3_cur, dot_plain_cur, normRows1024_cur, expMask_cur, dot_rows_rows_cur, relu128_cur, slice_cols_128_cur, slice_cols_256_cur, in1_eq x0 x1 x2 x3 x4 x5 x6 x7 x8 x9 x10 x11 g, rep_eq x0 x1 x2 x3 x4 x5 x6 x7 x8 x9 x10 x11 g, nodeAddr_eq x0 x1 x2 x3 x4 x5 x6 x7 x8 x9 x10 x11 g]
  rfl

/-- The first step of the out-edge recurrence. -/
theorem out0_eq (g : Fin 16) :
    cur3 (val_main_v96 (F := Ideal) x0 x1 x2 x3 x4 x5 x8 x9) g = Spec.out0 (Spec.inpAt x0 x1 x2 x3 x4 x5 x6 x7 x8 x9 x10 x11 g) := by
  unfold val_main_v96 val_main_v95 val_main_v94 val_main_v93 val_main_v92 val_main_v91 val_main_v90 val_main_v89 val_main_v88 val_main_v87 val_main_cst_9 val_main_v86 val_main_v85 val_main_v84 val_main_cst_8 val_main_v83 val_main_v82 val_main_v81 val_main_v80 val_main_v16 val_main_cst_1
  rw [addRow384_cur, dot_att_weight_cur, concat3_cur, dot_cols_cols_cur, normCols_cur, expMask_cur, dot_rows_rows_cur, zeros_cur, rep_eq x0 x1 x2 x3 x4 x5 x6 x7 x8 x9 x10 x11 g, nodeAddr_eq x0 x1 x2 x3 x4 x5 x6 x7 x8 x9 x10 x11 g]
  rfl

/-- The second step of the out-edge recurrence. -/
theorem out1_eq (g : Fin 16) :
    cur3 (val_main_v117 (F := Ideal) x0 x1 x2 x3 x4 x5 x8 x9) g = Spec.out1 (Spec.inpAt x0 x1 x2 x3 x4 x5 x6 x7 x8 x9 x10 x11 g) := by
  unfold val_main_v117 val_main_v116 val_main_v115 val_main_v114 val_main_v113 val_main_v112 val_main_v111 val_main_v110 val_main_v109 val_main_v108 val_main_cst_11 val_main_v107 val_main_v106 val_main_v105 val_main_cst_10 val_main_v104 val_main_v103 val_main_v102 val_main_v101 val_main_v100 val_main_call3_v0 val_main_call3_cst val_main_v99 val_main_v98
  rw [addRow384_cur, dot_att_weight_cur, concat3_cur, dot_cols_cols_cur, normCols_cur, expMask_cur, dot_rows_rows_cur, relu128_cur, slice_cols_128_cur, slice_cols_256_cur, out0_eq x0 x1 x2 x3 x4 x5 x6 x7 x8 x9 x10 x11 g, rep_eq x0 x1 x2 x3 x4 x5 x6 x7 x8 x9 x10 x11 g, nodeAddr_eq x0 x1 x2 x3 x4 x5 x6 x7 x8 x9 x10 x11 g]
  rfl

/-- The third step of the out-edge recurrence. -/
theorem out2_eq (g : Fin 16) :
    cur3 (val_main_v138 (F := Ideal) x0 x1 x2 x3 x4 x5 x8 x9) g = Spec.out2 (Spec.inpAt x0 x1 x2 x3 x4 x5 x6 x7 x8 x9 x10 x11 g) := by
  unfold val_main_v138 val_main_v137 val_main_v136 val_main_v135 val_main_v134 val_main_v133 val_main_v132 val_main_v131 val_main_v130 val_main_v129 val_main_cst_13 val_main_v128 val_main_v127 val_main_v126 val_main_cst_12 val_main_v125 val_main_v124 val_main_v123 val_main_v122 val_main_v121 val_main_call4_v0 val_main_call4_cst val_main_v120 val_main_v119
  rw [addRow384_cur, dot_att_weight_cur, concat3_cur, dot_cols_cols_cur, normCols_cur, expMask_cur, dot_rows_rows_cur, relu128_cur, slice_cols_128_cur, slice_cols_256_cur, out1_eq x0 x1 x2 x3 x4 x5 x6 x7 x8 x9 x10 x11 g, rep_eq x0 x1 x2 x3 x4 x5 x6 x7 x8 x9 x10 x11 g, nodeAddr_eq x0 x1 x2 x3 x4 x5 x6 x7 x8 x9 x10 x11 g]
  rfl

/-- The nodes' own contribution to the update. -/
theorem nodeId_eq (g : Fin 16) :
    cur3 (val_main_v147 (F := Ideal) x0 x6 x7) g = Spec.nodeId (Spec.inpAt x0 x1 x2 x3 x4 x5 x6 x7 x8 x9 x10 x11 g) := by
  unfold val_main_v147 val_main_call6_v0 val_main_call6_cst val_main_v146 val_main_v145 val_main_v144 val_main_v143
  rw [relu128_cur, addRow128_cur, dot_nodes_weight_cur]
  rfl

/-- The layer's result. -/
theorem result_cur (g : Fin 16) :
    cur3 (val_main_v155 (F := Ideal) x0 x1 x2 x3 x4 x5 x6 x7 x8 x9 x10 x11) g = Spec.result (Spec.inpAt x0 x1 x2 x3 x4 x5 x6 x7 x8 x9 x10 x11 g) := by
  unfold val_main_v155 val_main_call9_v0 val_main_call9_cst val_main_v154 val_main_v153 val_main_v152 val_main_v151 val_main_v150 val_main_v149 val_main_call8_v0 val_main_call8_cst val_main_v148 val_main_call7_v0 val_main_call7_cst val_main_v139 val_main_v76
  rw [relu256_cur, addRow256_cur, dot_upd_weight_cur, concat3_cur, relu128_cur, relu128_cur, slice_cols_0_cur, slice_cols_0_cur, in2_eq x0 x1 x2 x3 x4 x5 x6 x7 x8 x9 x10 x11 g, out2_eq x0 x1 x2 x3 x4 x5 x6 x7 x8 x9 x10 x11 g, nodeId_eq x0 x1 x2 x3 x4 x5 x6 x7 x8 x9 x10 x11 g]
  rfl

/-- The reference's result at an entry of graph `g` is the layer's result for that graph's inputs. -/
theorem result_eq (g : Fin 16) (p : Fin 1024) (c : Fin 256) :
    val_main_v155 (F := Ideal) x0 x1 x2 x3 x4 x5 x6 x7 x8 x9 x10 x11 (ix3 g p c)
      = Spec.result (Spec.inpAt x0 x1 x2 x3 x4 x5 x6 x7 x8 x9 x10 x11 g) p c :=
  congrFun (congrFun (result_cur x0 x1 x2 x3 x4 x5 x6 x7 x8 x9 x10 x11 g) p) c

end Cert.RefSide

end
-- ==== Proof.lean ====
/-
  The graph attention kernel computes, on the extended reals, what its reference computes.

  For each of the 16 graphs the kernel and the reference both compute the layer of `Cert.Spec`: two projections of the
  node features with their biases (the second one normalised row by row to unit length), three steps of an in-edge
  recurrence and three of an out-edge recurrence — each step forms masked exponential scores of the current addresses
  against the nodes' addresses, normalises them along the rows (in-edge) or the columns (out-edge), aggregates the
  representations with them, and applies the attention map to the aggregate, the addresses and the hidden state —,
  and a final update of the rectified aggregates and the nodes' own contribution. The kernel takes one graph per grid
  point with the weights transposed beforehand; the reference takes all graphs at once with batched products. On the
  extended reals a change of float format is the identity, a product into a zero accumulator and a batched product are
  the same finite sums over the contracted coordinate with the factors in the same order, and a sum along an axis is
  the same finite sum on both sides, so the two results are the same function of the arguments: no law of arithmetic
  beyond `0 + x = x` is used, and the finiteness of the inputs is not needed.

  The kernel's side (`Cert.KerValue.run`) names the result array after the run as `Cert.KerValue.Gm`; the reference's
  side runs its operations in order over named values (`Cert.RefRun.run`) and reads the last of them at every index as the
  same specification (`Cert.RefSide.result_eq`). Nothing is idealised away
  between the printed kernel and its idealised form, so that claim is trivial.
-/
import proofs.«128754_j89326729822492_1_alg».proof.Defs
import proofs.«128754_j89326729822492_1_alg».proof.Proof.Gen.Kernel
import proofs.«128754_j89326729822492_1_alg».proof.Proof.Gen.Kernel.Frame
import proofs.«128754_j89326729822492_1_alg».proof.Proof.Gen.KernelIdeal
import proofs.«128754_j89326729822492_1_alg».proof.Proof.Gen.KernelIdeal.Frame
import proofs.«128754_j89326729822492_1_alg».proof.Proof.Gen.KernelIdeal.Value
import proofs.«128754_j89326729822492_1_alg».proof.Proof.Gen.ReferenceIdeal
import proofs.«128754_j89326729822492_1_alg».proof.Proof.Gen.Pre_finite_inputs
import proofs.«128754_j89326729822492_1_alg».proof.Proof.KerValue
import proofs.«128754_j89326729822492_1_alg».proof.Proof.RefRun
import proofs.«128754_j89326729822492_1_alg».proof.Proof.RefSide
import Idealize.ShloMosaic.Adequacy
import Idealize.ShloMosaic.Init

noncomputable section

namespace Cert.Proof

open Idealize.ShloMosaic Idealize.ShloMosaic.TcCoe Idealize.SL.Sem Idealize.ShloMosaic.ValueIdx

/-- The printed kernel runs and leaves its arguments as they were. -/
theorem frame_kernel : Cert.frame_Kernel := fun m ρ _ => Cert.Kernel.Gen.frame m ρ

/-- So does its idealised form. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.RefRun.run m ρ)

/-- The idealised kernel is the printed kernel's own text read on the extended reals: nothing was rewritten. -/
theorem preserves : Cert.preserves_Kernel_KernelIdeal := trivial

/-- From memories that agree on the arguments, both programs end with the specification's result of every graph. -/
theorem algebraic : Cert.algebraic_KernelIdeal_ReferenceIdeal := by
  intro m ρ m' ρ' _ hagree
  refine ⟨fun c => Cert.KerValue.Gm m c, Cert.KerValue.run m ρ, ?_⟩
  refine (θ_run Cert.ReferenceIdeal.defs _ _).mono (fun _ h c => ⟨(h c).1.trans ?_, (h c).2⟩)
    (Cert.RefRun.run m' ρ')
  obtain ⟨a0, a1, a2, a3, a4, a5, a6, a7, a8, a9, a10, a11⟩ := hagree c
  rw [a0, a1, a2, a3, a4, a5, a6, a7, a8, a9, a10, a11]
  funext i
  obtain ⟨g, p, q, rfl⟩ : ∃ (g : Fin 16) (p : Fin 1024) (q : Fin 256), i = ix3 g p q := ⟨i 0, i 1, i 2, eq_ix3 i⟩
  exact Cert.RefSide.result_eq _ _ _ _ _ _ _ _ _ _ _ _ g p q

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
